-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v181)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v181) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v351) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x50000x128 : Shape := ⟨3, ![2, 50000, 128]⟩
abbrev S2x500000 : Shape := ⟨2, ![2, 500000]⟩
abbrev S2x6x128x128 : Shape := ⟨4, ![2, 6, 128, 128]⟩
abbrev S2x6x128 : Shape := ⟨3, ![2, 6, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x50000x128 : S_.BroadcastsInDim S2x50000x128 (![] : Fin 0 → Fin S2x50000x128.rank)
  reducesTo_S2x50000x128_S_d0_1_2 : S2x50000x128.ReducesTo [0, 1, 2] S_
  bcast_S_S2x6x128x128 : S_.BroadcastsInDim S2x6x128x128 (![] : Fin 0 → Fin S2x6x128x128.rank)
  reducesTo_S2x6x128x128_S_d0_1_2_3 : S2x6x128x128.ReducesTo [0, 1, 2, 3] S_
  bcast_S_S2x6x128 : S_.BroadcastsInDim S2x6x128 (![] : Fin 0 → Fin S2x6x128.rank)
  reducesTo_S2x6x128_S_d0_1_2 : S2x6x128.ReducesTo [0, 1, 2] S_

variable [Facts]

def fn_part1 {F : FTy → Type} [FloatOps F] (main_arg5 : FVec F S2x6x128 .f32) (main_v13 : IVec S_ 1) (main_v16 : IVec S2x6x128x128 1) : IVec S_ 1 :=
  let main_c_5 : IVec S_ 1 := constantI S_ 1 1#1
  let main_v17 : IVec S_ 1 := (fun x v => Host.reduce IntOp.andi x v reducesTo_S2x6x128x128_S_d0_1_2_3 h_S_) main_v16 main_c_5
  let main_v18 : IVec S_ 1 := andi main_v13 main_v17
  let main_v19 : FVec F S2x6x128 .f32 := Host.absf main_arg5
  let main_cst_6 : FVec F S_ .f32 := constant S_ .f32 0x7F800000#32
  let main_v20 : FVec F S2x6x128 .f32 := broadcastInDim S2x6x128 ![] bcast_S_S2x6x128 main_cst_6
  let main_v21 : IVec S2x6x128 1 := cmpf .olt main_v19 main_v20
  let main_c_7 : IVec S_ 1 := constantI S_ 1 1#1
  let main_v22 : IVec S_ 1 := (fun x v => Host.reduce IntOp.andi x v reducesTo_S2x6x128_S_d0_1_2 h_S_) main_v21 main_c_7
  let main_v23 : IVec S_ 1 := andi main_v18 main_v22
  main_v23

def fn {F : FTy → Type} [FloatOps F] (main_arg0 : FVec F S50000x128 .f32) (main_arg1 : FVec F S2x50000x128 .f32) (main_arg2 : IVec S2x500000 32) (main_arg3 : FVec F S2x6x128x128 .f32) (main_arg4 : FVec F S2x6x128x128 .f32) (main_arg5 : FVec F S2x6x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x50000x128 .f32 := Host.absf main_arg1
  let main_cst_0 : FVec F S_ .f32 := constant S_ .f32 0x7F800000#32
  let main_v5 : FVec F S2x50000x128 .f32 := broadcastInDim S2x50000x128 ![] bcast_S_S2x50000x128 main_cst_0
  let main_v6 : IVec S2x50000x128 1 := cmpf .olt main_v4 main_v5
  let main_c_1 : IVec S_ 1 := constantI S_ 1 1#1
  let main_v7 : IVec S_ 1 := (fun x v => Host.reduce IntOp.andi x v reducesTo_S2x50000x128_S_d0_1_2 h_S_) main_v6 main_c_1
  let main_v8 : IVec S_ 1 := andi main_v3 main_v7
  let main_v9 : FVec F S2x6x128x128 .f32 := Host.absf main_arg3
  let main_cst_2 : FVec F S_ .f32 := constant S_ .f32 0x7F800000#32
  let main_v10 : FVec F S2x6x128x128 .f32 := broadcastInDim S2x6x128x128 ![] bcast_S_S2x6x128x128 main_cst_2
  let main_v11 : IVec S2x6x128x128 1 := cmpf .olt main_v9 main_v10
  let main_c_3 : IVec S_ 1 := constantI S_ 1 1#1
  let main_v12 : IVec S_ 1 := (fun x v => Host.reduce IntOp.andi x v reducesTo_S2x6x128x128_S_d0_1_2_3 h_S_) main_v11 main_c_3
  let main_v13 : IVec S_ 1 := andi main_v8 main_v12
  let main_v14 : FVec F S2x6x128x128 .f32 := Host.absf main_arg4
  let main_cst_4 : FVec F S_ .f32 := constant S_ .f32 0x7F800000#32
  let main_v15 : FVec F S2x6x128x128 .f32 := broadcastInDim S2x6x128x128 ![] bcast_S_S2x6x128x128 main_cst_4
  let main_v16 : IVec S2x6x128x128 1 := cmpf .olt main_v14 main_v15
  fn_part1 (F := F) main_arg5 main_v13 main_v16
-- ==== Kernel.lean ====
abbrev S50000x128 : Shape := ⟨2, ![50000, 128]⟩
abbrev S2x50000x128 : Shape := ⟨3, ![2, 50000, 128]⟩
abbrev S2x500000 : Shape := ⟨2, ![2, 500000]⟩
abbrev S2x6x128x128 : Shape := ⟨4, ![2, 6, 128, 128]⟩
abbrev S2x6x128 : Shape := ⟨3, ![2, 6, 128]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S1x50000x128 : Shape := ⟨3, ![1, 50000, 128]⟩
abbrev S500000x128 : Shape := ⟨2, ![500000, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S2000x128 : Shape := ⟨2, ![2000, 128]⟩

abbrev nBuf : Space → Nat
  | .hbm => 212
  | .vmem => 88
  | .smem => 0
  | _ => 0

abbrev hbmTy0_0 (i : Nat) : BufTy := match i % 128 with
  | 0 => ⟨S50000x128, .f32⟩
  | 1 => ⟨S2x50000x128, .f32⟩
  | 2 => ⟨S2x500000, .i32⟩
  | 3 => ⟨S2x6x128x128, .f32⟩
  | 4 => ⟨S2x6x128x128, .f32⟩
  | 5 => ⟨S2x6x128, .f32⟩
  | 6 => ⟨S1x500000, .i32⟩
  | 7 => ⟨S500000, .i32⟩
  | 8 => ⟨S1x500000, .i32⟩
  | 9 => ⟨S500000, .i32⟩
  | 10 => ⟨S_, .f32⟩
  | 11 => ⟨S500000, .f32⟩
  | 12 => ⟨S_, .f32⟩
  | 13 => ⟨S50000, .f32⟩
  | 14 => ⟨S500000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .f32⟩
  | 22 => ⟨S50000x1, .f32⟩
  | 23 => ⟨S2x6x128x128, .bf16⟩
  | 24 => ⟨S2x6x128x128, .bf16⟩
  | 25 => ⟨S1x50000x128, .f32⟩
  | 26 => ⟨S50000x128, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x128, .f32⟩
  | 36 => ⟨S_, .f32⟩
  | 37 => ⟨S50000x128, .f32⟩
  | 38 => ⟨S500000x1, .i32⟩
  | 39 => ⟨S50000x128, .f32⟩
  | 40 => ⟨S50000x128, .f32⟩
  | 41 => ⟨S50000x128, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000x128, .f32⟩
  | 51 => ⟨S_, .f32⟩
  | 52 => ⟨S50000x128, .f32⟩
  | 53 => ⟨S500000x1, .i32⟩
  | 54 => ⟨S50000x128, .f32⟩
  | 55 => ⟨S50000x128, .f32⟩
  | 56 => ⟨S50000x128, .f32⟩
  | 57 => ⟨S1x1x128x128, .bf16⟩
  | 58 => ⟨S128x128, .bf16⟩
  | 59 => ⟨S1x1x128x128, .bf16⟩
  | 60 => ⟨S128x128, .bf16⟩
  | 61 => ⟨S1x1x128, .f32⟩
  | 62 => ⟨S128, .f32⟩
  | 63 => ⟨S1x128, .f32⟩
  | 64 => ⟨S1x1x128x128, .bf16⟩
  | 65 => ⟨S128x128, .bf16⟩
  | 66 => ⟨S1x1x128x128, .bf16⟩
  | 67 => ⟨S128x128, .bf16⟩
  | 68 => ⟨S1x1x128, .f32⟩
  | 69 => ⟨S128, .f32⟩
  | 70 => ⟨S1x128, .f32⟩
  | 71 => ⟨S1x1x128x128, .bf16⟩
  | 72 => ⟨S128x128, .bf16⟩
  | 73 => ⟨S1x1x128x128, .bf16⟩
  | 74 => ⟨S128x128, .bf16⟩
  | 75 => ⟨S1x1x128, .f32⟩
  | 76 => ⟨S128, .f32⟩
  | 77 => ⟨S1x128, .f32⟩
  | 78 => ⟨S1x1x128x128, .bf16⟩
  | 79 => ⟨S128x128, .bf16⟩
  | 80 => ⟨S1x1x128x128, .bf16⟩
  | 81 => ⟨S128x128, .bf16⟩
  | 82 => ⟨S1x1x128, .f32⟩
  | 83 => ⟨S128, .f32⟩
  | 84 => ⟨S1x128, .f32⟩
  | 85 => ⟨S50000x128, .f32⟩
  | 86 => ⟨S50000x128, .f32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x128, .f32⟩
  | 96 => ⟨S_, .f32⟩
  | 97 => ⟨S50000x128, .f32⟩
  | 98 => ⟨S500000x1, .i32⟩
  | 99 => ⟨S50000x128, .f32⟩
  | 100 => ⟨S50000x128, .f32⟩
  | 101 => ⟨S50000x128, .f32⟩
  | 102 => ⟨S1x1x128x128, .bf16⟩
  | 103 => ⟨S128x128, .bf16⟩
  | 104 => ⟨S1x1x128x128, .bf16⟩
  | 105 => ⟨S128x128, .bf16⟩
  | 106 => ⟨S1x1x128, .f32⟩
  | 107 => ⟨S128, .f32⟩
  | 108 => ⟨S1x128, .f32⟩
  | 109 => ⟨S1x1x128x128, .bf16⟩
  | 110 => ⟨S128x128, .bf16⟩
  | 111 => ⟨S1x1x128x128, .bf16⟩
  | 112 => ⟨S128x128, .bf16⟩
  | 113 => ⟨S1x1x128, .f32⟩
  | 114 => ⟨S128, .f32⟩
  | 115 => ⟨S1x128, .f32⟩
  | 116 => ⟨S50000x128, .f32⟩
  | 117 => ⟨S1x50000x128, .f32⟩
  | 118 => ⟨S50000x128, .f32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S500000x128, .f32⟩
  | _ => ⟨S50000x128, .f32⟩

abbrev hbmTy0_1 (i : Nat) : BufTy := match i % 128 with
  | 0 => ⟨S_, .f32⟩
  | 1 => ⟨S50000x128, .f32⟩
  | 2 => ⟨S500000x1, .i32⟩
  | 3 => ⟨S50000x128, .f32⟩
  | 4 => ⟨S50000x128, .f32⟩
  | 5 => ⟨S50000x128, .f32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000x128, .f32⟩
  | 15 => ⟨S_, .f32⟩
  | 16 => ⟨S50000x128, .f32⟩
  | 17 => ⟨S500000x1, .i32⟩
  | 18 => ⟨S50000x128, .f32⟩
  | 19 => ⟨S50000x128, .f32⟩
  | 20 => ⟨S50000x128, .f32⟩
  | 21 => ⟨S1x1x128x128, .bf16⟩
  | 22 => ⟨S128x128, .bf16⟩
  | 23 => ⟨S1x1x128x128, .bf16⟩
  | 24 => ⟨S128x128, .bf16⟩
  | 25 => ⟨S1x1x128, .f32⟩
  | 26 => ⟨S128, .f32⟩
  | 27 => ⟨S1x128, .f32⟩
  | 28 => ⟨S1x1x128x128, .bf16⟩
  | 29 => ⟨S128x128, .bf16⟩
  | 30 => ⟨S1x1x128x128, .bf16⟩
  | 31 => ⟨S128x128, .bf16⟩
  | 32 => ⟨S1x1x128, .f32⟩
  | 33 => ⟨S128, .f32⟩
  | 34 => ⟨S1x128, .f32⟩
  | 35 => ⟨S1x1x128x128, .bf16⟩
  | 36 => ⟨S128x128, .bf16⟩
  | 37 => ⟨S1x1x128x128, .bf16⟩
  | 38 => ⟨S128x128, .bf16⟩
  | 39 => ⟨S1x1x128, .f32⟩
  | 40 => ⟨S128, .f32⟩
  | 41 => ⟨S1x128, .f32⟩
  | 42 => ⟨S1x1x128x128, .bf16⟩
  | 43 => ⟨S128x128, .bf16⟩
  | 44 => ⟨S1x1x128x128, .bf16⟩
  | 45 => ⟨S128x128, .bf16⟩
  | 46 => ⟨S1x1x128, .f32⟩
  | 47 => ⟨S128, .f32⟩
  | 48 => ⟨S1x128, .f32⟩
  | 49 => ⟨S50000x128, .f32⟩
  | 50 => ⟨S50000x128, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S_, .f32⟩
  | 61 => ⟨S50000x128, .f32⟩
  | 62 => ⟨S500000x1, .i32⟩
  | 63 => ⟨S50000x128, .f32⟩
  | 64 => ⟨S50000x128, .f32⟩
  | 65 => ⟨S50000x128, .f32⟩
  | 66 => ⟨S1x1x128x128, .bf16⟩
  | 67 => ⟨S128x128, .bf16⟩
  | 68 => ⟨S1x1x128x128, .bf16⟩
  | 69 => ⟨S128x128, .bf16⟩
  | 70 => ⟨S1x1x128, .f32⟩
  | 71 => ⟨S128, .f32⟩
  | 72 => ⟨S1x128, .f32⟩
  | 73 => ⟨S1x1x128x128, .bf16⟩
  | 74 => ⟨S128x128, .bf16⟩
  | 75 => ⟨S1x1x128x128, .bf16⟩
  | 76 => ⟨S128x128, .bf16⟩
  | 77 => ⟨S1x1x128, .f32⟩
  | 78 => ⟨S128, .f32⟩
  | 79 => ⟨S1x128, .f32⟩
  | 80 => ⟨S50000x128, .f32⟩
  | 81 => ⟨S1x50000x128, .f32⟩
  | 82 => ⟨S1x50000x128, .f32⟩
  | 83 => ⟨S2x50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .bf16⟩
  | .local _ .vmem, ⟨9, _⟩ => ⟨S128x128, .bf16⟩
  | .local _ .vmem, ⟨10, _⟩ => ⟨S1x128, .f32⟩
  | .local _ .vmem, ⟨11, _⟩ => ⟨S128x128, .bf16⟩
  | .local _ .vmem, ⟨12, _⟩ => ⟨S128x128, .bf16⟩
  | .local _ .vmem, ⟨13, _⟩ => ⟨S1x128, .f32⟩
  | .local _ .vmem, ⟨14, _⟩ => ⟨S128x128, .bf16⟩
  | .local _ .vmem, ⟨15, _⟩ => ⟨S128x128, .bf16⟩
  | .local _ .vmem, ⟨16, _⟩ => ⟨S1x128, .f32⟩
  | .local _ .vmem, ⟨17, _⟩ => ⟨S128x128, .bf16⟩
  | .local _ .vmem, ⟨18, _⟩ => ⟨S128x128, .bf16⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S128x128, .bf16⟩
  | .local _ .vmem, ⟨37, _⟩ => ⟨S128x128, .bf16⟩
  | .local _ .vmem, ⟨38, _⟩ => ⟨S1x128, .f32⟩
  | .local _ .vmem, ⟨39, _⟩ => ⟨S128x128, .bf16⟩
  | .local _ .vmem, ⟨40, _⟩ => ⟨S128x128, .bf16⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .bf16⟩
  | .local _ .vmem, ⟨53, _⟩ => ⟨S128x128, .bf16⟩
  | .local _ .vmem, ⟨54, _⟩ => ⟨S1x128, .f32⟩
  | .local _ .vmem, ⟨55, _⟩ => ⟨S128x128, .bf16⟩
  | .local _ .vmem, ⟨56, _⟩ => ⟨S128x128, .bf16⟩
  | .local _ .vmem, ⟨57, _⟩ => ⟨S1x128, .f32⟩
  | .local _ .vmem, ⟨58, _⟩ => ⟨S128x128, .bf16⟩
  | .local _ .vmem, ⟨59, _⟩ => ⟨S128x128, .bf16⟩
  | .local _ .vmem, ⟨60, _⟩ => ⟨S1x128, .f32⟩
  | .local _ .vmem, ⟨61, _⟩ => ⟨S128x128, .bf16⟩
  | .local _ .vmem, ⟨62, _⟩ => ⟨S128x128, .bf16⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S2000x128, .f32⟩
  | .local _ .vmem, ⟨75, _⟩ => ⟨S2000x128, .f32⟩
  | .local _ .vmem, ⟨76, _⟩ => ⟨S2000x128, .f32⟩
  | .local _ .vmem, ⟨77, _⟩ => ⟨S2000x128, .f32⟩
  | .local _ .vmem, ⟨78, _⟩ => ⟨S2000x128, .f32⟩
  | .local _ .vmem, ⟨79, _⟩ => ⟨S2000x128, .f32⟩
  | .local _ .vmem, ⟨80, _⟩ => ⟨S128x128, .bf16⟩
  | .local _ .vmem, ⟨81, _⟩ => ⟨S128x128, .bf16⟩
  | .local _ .vmem, ⟨82, _⟩ => ⟨S1x128, .f32⟩
  | .local _ .vmem, ⟨83, _⟩ => ⟨S128x128, .bf16⟩
  | .local _ .vmem, ⟨84, _⟩ => ⟨S128x128, .bf16⟩
  | .local _ .vmem, ⟨85, _⟩ => ⟨S1x128, .f32⟩
  | .local _ .vmem, ⟨86, _⟩ => ⟨S2000x128, .f32⟩
  | .local _ .vmem, ⟨87, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69_0 : Ref sig .tc := ⟨.hbm, 85, rfl⟩
abbrev main_v69_1 : Ref sig .tc := ⟨.hbm, 86, rfl⟩
abbrev main_c_8 : Ref sig .tc := ⟨.hbm, 87, rfl⟩
abbrev main_v70 : Ref sig .tc := ⟨.hbm, 88, rfl⟩
abbrev main_v71 : Ref sig .tc := ⟨.hbm, 89, rfl⟩
abbrev main_c_9 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_10 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_c_11 : Ref sig .tc := ⟨.hbm, 119, rfl⟩
abbrev main_v99 : Ref sig .tc := ⟨.hbm, 120, rfl⟩
abbrev main_v100 : Ref sig .tc := ⟨.hbm, 121, rfl⟩
abbrev main_c_12 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_13 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_c_14 : Ref sig .tc := ⟨.hbm, 134, rfl⟩
abbrev main_v111 : Ref sig .tc := ⟨.hbm, 135, rfl⟩
abbrev main_v112 : Ref sig .tc := ⟨.hbm, 136, rfl⟩
abbrev main_c_15 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_16 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151_0 : Ref sig .tc := ⟨.hbm, 177, rfl⟩
abbrev main_v151_1 : Ref sig .tc := ⟨.hbm, 178, rfl⟩
abbrev main_c_17 : Ref sig .tc := ⟨.hbm, 179, rfl⟩
abbrev main_v152 : Ref sig .tc := ⟨.hbm, 180, rfl⟩
abbrev main_v153 : Ref sig .tc := ⟨.hbm, 181, rfl⟩
abbrev main_c_18 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_cst_19 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg8_0 : Ref sig .tc := ⟨.vmem, 38, rfl⟩
abbrev cc1_stg9_0 : Ref sig .tc := ⟨.vmem, 39, rfl⟩
abbrev cc1_stg10_0 : Ref sig .tc := ⟨.vmem, 40, rfl⟩
abbrev cc1_stg11_0 : Ref sig .tc := ⟨.vmem, 41, rfl⟩
abbrev cc1_stg12_0 : Ref sig .tc := ⟨.vmem, 42, rfl⟩
abbrev cc1_stg12_1 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg1_1 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg5_0 : Ref sig .tc := ⟨.vmem, 53, rfl⟩
abbrev cc2_stg6_0 : Ref sig .tc := ⟨.vmem, 54, rfl⟩
abbrev cc2_stg7_0 : Ref sig .tc := ⟨.vmem, 55, rfl⟩
abbrev cc2_stg8_0 : Ref sig .tc := ⟨.vmem, 56, rfl⟩
abbrev cc2_stg9_0 : Ref sig .tc := ⟨.vmem, 57, rfl⟩
abbrev cc2_stg10_0 : Ref sig .tc := ⟨.vmem, 58, rfl⟩
abbrev cc2_stg11_0 : Ref sig .tc := ⟨.vmem, 59, rfl⟩
abbrev cc2_stg12_0 : Ref sig .tc := ⟨.vmem, 60, rfl⟩
abbrev cc2_stg13_0 : Ref sig .tc := ⟨.vmem, 61, rfl⟩
abbrev cc2_stg14_0 : Ref sig .tc := ⟨.vmem, 62, rfl⟩
abbrev cc2_stg15_0 : Ref sig .tc := ⟨.vmem, 63, rfl⟩
abbrev cc2_stg16_0 : Ref sig .tc := ⟨.vmem, 64, rfl⟩
abbrev cc2_stg16_1 : Ref sig .tc := ⟨.vmem, 65, rfl⟩
abbrev cc2_stg17_0 : Ref sig .tc := ⟨.vmem, 66, rfl⟩
abbrev cc2_stg17_1 : Ref sig .tc := ⟨.vmem, 67, rfl⟩
abbrev cc3_stg0_0 : Ref sig .tc := ⟨.vmem, 68, rfl⟩
abbrev cc3_stg0_1 : Ref sig .tc := ⟨.vmem, 69, rfl⟩
abbrev cc3_stg1_0 : Ref sig .tc := ⟨.vmem, 70, rfl⟩
abbrev cc3_stg1_1 : Ref sig .tc := ⟨.vmem, 71, rfl⟩
abbrev cc3_stg2_0 : Ref sig .tc := ⟨.vmem, 72, rfl⟩
abbrev cc3_stg2_1 : Ref sig .tc := ⟨.vmem, 73, rfl⟩
abbrev cc3_stg3_0 : Ref sig .tc := ⟨.vmem, 74, rfl⟩
abbrev cc3_stg3_1 : Ref sig .tc := ⟨.vmem, 75, rfl⟩
abbrev cc3_stg4_0 : Ref sig .tc := ⟨.vmem, 76, rfl⟩
abbrev cc3_stg4_1 : Ref sig .tc := ⟨.vmem, 77, rfl⟩
abbrev cc3_stg5_0 : Ref sig .tc := ⟨.vmem, 78, rfl⟩
abbrev cc3_stg5_1 : Ref sig .tc := ⟨.vmem, 79, rfl⟩
abbrev cc3_stg6_0 : Ref sig .tc := ⟨.vmem, 80, rfl⟩
abbrev cc3_stg7_0 : Ref sig .tc := ⟨.vmem, 81, rfl⟩
abbrev cc3_stg8_0 : Ref sig .tc := ⟨.vmem, 82, rfl⟩
abbrev cc3_stg9_0 : Ref sig .tc := ⟨.vmem, 83, rfl⟩
abbrev cc3_stg10_0 : Ref sig .tc := ⟨.vmem, 84, rfl⟩
abbrev cc3_stg11_0 : Ref sig .tc := ⟨.vmem, 85, rfl⟩
abbrev cc3_stg12_0 : Ref sig .tc := ⟨.vmem, 86, rfl⟩
abbrev cc3_stg12_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem7_0 : DmaSem sig := 37
abbrev cc1_sem8_0 : DmaSem sig := 38
abbrev cc1_sem9_0 : DmaSem sig := 39
abbrev cc1_sem10_0 : DmaSem sig := 40
abbrev cc1_sem11_0 : DmaSem sig := 41
abbrev cc1_sem12_0 : DmaSem sig := 42
abbrev cc1_sem12_1 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc2_sem2_1 : DmaSem sig := 49
abbrev cc2_sem3_0 : DmaSem sig := 50
abbrev cc2_sem3_1 : DmaSem sig := 51
abbrev cc2_sem4_0 : DmaSem sig := 52
abbrev cc2_sem5_0 : DmaSem sig := 53
abbrev cc2_sem6_0 : DmaSem sig := 54
abbrev cc2_sem7_0 : DmaSem sig := 55
abbrev cc2_sem8_0 : DmaSem sig := 56
abbrev cc2_sem9_0 : DmaSem sig := 57
abbrev cc2_sem10_0 : DmaSem sig := 58
abbrev cc2_sem11_0 : DmaSem sig := 59
abbrev cc2_sem12_0 : DmaSem sig := 60
abbrev cc2_sem13_0 : DmaSem sig := 61
abbrev cc2_sem14_0 : DmaSem sig := 62
abbrev cc2_sem15_0 : DmaSem sig := 63
abbrev cc2_sem16_0 : DmaSem sig := 64
abbrev cc2_sem16_1 : DmaSem sig := 65
abbrev cc2_sem17_0 : DmaSem sig := 66
abbrev cc2_sem17_1 : DmaSem sig := 67
abbrev cc3_sem0_0 : DmaSem sig := 68
abbrev cc3_sem0_1 : DmaSem sig := 69
abbrev cc3_sem1_0 : DmaSem sig := 70
abbrev cc3_sem1_1 : DmaSem sig := 71
abbrev cc3_sem2_0 : DmaSem sig := 72
abbrev cc3_sem2_1 : DmaSem sig := 73
abbrev cc3_sem3_0 : DmaSem sig := 74
abbrev cc3_sem3_1 : DmaSem sig := 75
abbrev cc3_sem4_0 : DmaSem sig := 76
abbrev cc3_sem4_1 : DmaSem sig := 77
abbrev cc3_sem5_0 : DmaSem sig := 78
abbrev cc3_sem5_1 : DmaSem sig := 79
abbrev cc3_sem6_0 : DmaSem sig := 80
abbrev cc3_sem7_0 : DmaSem sig := 81
abbrev cc3_sem8_0 : DmaSem sig := 82
abbrev cc3_sem9_0 : DmaSem sig := 83
abbrev cc3_sem10_0 : DmaSem sig := 84
abbrev cc3_sem11_0 : DmaSem sig := 85
abbrev cc3_sem12_0 : DmaSem sig := 86
abbrev cc3_sem12_1 : DmaSem sig := 87

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .bf16 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x128 .bf16 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 2 → Memref sig .tc .vmem S2000x128 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S2000x128 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S128x128 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x128 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x128 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S2000x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bitsLt_bf16_f32 : FTy.bits .bf16 < FTy.bits .f32
  slices_S2x50000x128_S1x50000x128_0_0_0 : S2x50000x128.Slices ![0, 0, 0] S1x50000x128
  shapeCasts_S1x50000x128_S50000x128 : S1x50000x128.ShapeCasts S50000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S2x6x128x128_S1x1x128x128_0_0_0_0 : S2x6x128x128.Slices ![0, 0, 0, 0] S1x1x128x128
  shapeCasts_S1x1x128x128_S128x128 : S1x1x128x128.ShapeCasts S128x128
  slices_S2x6x128_S1x1x128_0_0_0 : S2x6x128.Slices ![0, 0, 0] S1x1x128
  shapeCasts_S1x1x128_S128 : S1x1x128.ShapeCasts S128
  bcast_S128_S1x128_1 : S128.BroadcastsInDim S1x128 (![1] : Fin 1 → Fin S1x128.rank)
  slices_S2x6x128x128_S1x1x128x128_0_1_0_0 : S2x6x128x128.Slices ![0, 1, 0, 0] S1x1x128x128
  slices_S2x6x128_S1x1x128_0_1_0 : S2x6x128.Slices ![0, 1, 0] S1x1x128
  slices_S2x6x128x128_S1x1x128x128_0_2_0_0 : S2x6x128x128.Slices ![0, 2, 0, 0] S1x1x128x128
  slices_S2x6x128_S1x1x128_0_2_0 : S2x6x128.Slices ![0, 2, 0] S1x1x128
  slices_S2x6x128x128_S1x1x128x128_0_3_0_0 : S2x6x128x128.Slices ![0, 3, 0, 0] S1x1x128x128
  slices_S2x6x128_S1x1x128_0_3_0 : S2x6x128.Slices ![0, 3, 0] S1x1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x6x128x128_S1x1x128x128_0_4_0_0 : S2x6x128x128.Slices ![0, 4, 0, 0] S1x1x128x128
  slices_S2x6x128_S1x1x128_0_4_0 : S2x6x128.Slices ![0, 4, 0] S1x1x128
  slices_S2x6x128x128_S1x1x128x128_0_5_0_0 : S2x6x128x128.Slices ![0, 5, 0, 0] S1x1x128x128
  slices_S2x6x128_S1x1x128_0_5_0 : S2x6x128.Slices ![0, 5, 0] S1x1x128
  slices_S2x50000x128_S1x50000x128_1_0_0 : S2x50000x128.Slices ![1, 0, 0] S1x50000x128
  slices_S2x6x128x128_S1x1x128x128_1_0_0_0 : S2x6x128x128.Slices ![1, 0, 0, 0] S1x1x128x128
  slices_S2x6x128_S1x1x128_1_0_0 : S2x6x128.Slices ![1, 0, 0] S1x1x128
  slices_S2x6x128x128_S1x1x128x128_1_1_0_0 : S2x6x128x128.Slices ![1, 1, 0, 0] S1x1x128x128
  slices_S2x6x128_S1x1x128_1_1_0 : S2x6x128.Slices ![1, 1, 0] S1x1x128
  slices_S2x6x128x128_S1x1x128x128_1_2_0_0 : S2x6x128x128.Slices ![1, 2, 0, 0] S1x1x128x128
  slices_S2x6x128_S1x1x128_1_2_0 : S2x6x128.Slices ![1, 2, 0] S1x1x128
  slices_S2x6x128x128_S1x1x128x128_1_3_0_0 : S2x6x128x128.Slices ![1, 3, 0, 0] S1x1x128x128
  slices_S2x6x128_S1x1x128_1_3_0 : S2x6x128.Slices ![1, 3, 0] S1x1x128
  slices_S2x6x128x128_S1x1x128x128_1_4_0_0 : S2x6x128x128.Slices ![1, 4, 0, 0] S1x1x128x128
  slices_S2x6x128_S1x1x128_1_4_0 : S2x6x128.Slices ![1, 4, 0] S1x1x128
  slices_S2x6x128x128_S1x1x128x128_1_5_0_0 : S2x6x128x128.Slices ![1, 5, 0, 0] S1x1x128x128
  slices_S2x6x128_S1x1x128_1_5_0 : S2x6x128.Slices ![1, 5, 0] S1x1x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .bf16 = 32 ∨ (Rect.block (s := S128x128) S128x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .bf16 = 32 ∨ (Rect.block (s := S128x128) S128x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .bf16 = 32 ∨ (Rect.block (s := S128x128) S128x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x128.size a ≤ S50000x128.size a
  hwx0_16 : ∀ i : grid0.Coords, EltTy.bits .f32 = 32 ∨ (Rect.block (s := S50000x128) S2000x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x128.size a ≤ S50000x128.size a
  hwx0_17 : ∀ i : grid0.Coords, EltTy.bits .f32 = 32 ∨ (Rect.block (s := S50000x128) S2000x128.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .bf16 = 32 ∨ (Rect.block (s := S128x128) S128x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .bf16 = 32 ∨ (Rect.block (s := S128x128) S128x128.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x128.size a ≤ S50000x128.size a
  hwx1_12 : ∀ i : grid1.Coords, EltTy.bits .f32 = 32 ∨ (Rect.block (s := S50000x128) S2000x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .bf16 = 32 ∨ (Rect.block (s := S128x128) S128x128.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .bf16 = 32 ∨ (Rect.block (s := S128x128) S128x128.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .bf16 = 32 ∨ (Rect.block (s := S128x128) S128x128.size (cc2_transform_10 i) (hinb2_10 i)).WholeWords (EltTy.packing .bf16)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .bf16 = 32 ∨ (Rect.block (s := S128x128) S128x128.size (cc2_transform_11 i) (hinb2_11 i)).WholeWords (EltTy.packing .bf16)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .bf16 = 32 ∨ (Rect.block (s := S128x128) S128x128.size (cc2_transform_13 i) (hinb2_13 i)).WholeWords (EltTy.packing .bf16)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128x128.size a ≤ S128x128.size a
  hwx2_14 : ∀ i : grid2.Coords, EltTy.bits .bf16 = 32 ∨ (Rect.block (s := S128x128) S128x128.size (cc2_transform_14 i) (hinb2_14 i)).WholeWords (EltTy.packing .bf16)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S1x128.size a ≤ S1x128.size a
  hwx2_15 : ∀ i : grid2.Coords, EltTy.bits .f32 = 32 ∨ (Rect.block (s := S1x128) S1x128.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S2000x128.size a ≤ S50000x128.size a
  hwx2_16 : ∀ i : grid2.Coords, EltTy.bits .f32 = 32 ∨ (Rect.block (s := S50000x128) S2000x128.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S2000x128.size a ≤ S50000x128.size a
  hwx2_17 : ∀ i : grid2.Coords, EltTy.bits .f32 = 32 ∨ (Rect.block (s := S50000x128) S2000x128.size (cc2_transform_17 i) (hinb2_17 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .bf16 = 32 ∨ (Rect.block (s := S128x128) S128x128.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .bf16 = 32 ∨ (Rect.block (s := S128x128) S128x128.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x128.size a ≤ S128x128.size a
  hwx3_9 : ∀ i : grid3.Coords, EltTy.bits .bf16 = 32 ∨ (Rect.block (s := S128x128) S128x128.size (cc3_transform_9 i) (hinb3_9 i)).WholeWords (EltTy.packing .bf16)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S128x128.size a ≤ S128x128.size a
  hwx3_10 : ∀ i : grid3.Coords, EltTy.bits .bf16 = 32 ∨ (Rect.block (s := S128x128) S128x128.size (cc3_transform_10 i) (hinb3_10 i)).WholeWords (EltTy.packing .bf16)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S2000x128.size a ≤ S50000x128.size a
  hwx3_12 : ∀ i : grid3.Coords, EltTy.bits .f32 = 32 ∨ (Rect.block (s := S50000x128) S2000x128.size (cc3_transform_12 i) (hinb3_12 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v28) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v47) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v51) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v54) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v56) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v58) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v61) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v63) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v65) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v68) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v69_0) S2000x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v69_1) S2000x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v81) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v69_1) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v69_0) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16) S2000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v83) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v85) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v88) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v90) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v92) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v95) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v96) S2000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v110) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v96) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v122) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v98) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v124) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v126) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v129) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v131) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v133) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v136) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v138) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v140) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v143) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v145) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v147) S128x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v150) S1x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v151_0) S2000x128.size cc2_transform_16 reads2_16 true false 2 stage2_16 sem2_16
    hrank2 hreads2_16 hinb2_16 nbuf2_16 (Memref.isWhole_whole _) hwx2_16 hstage2_16

abbrev win2_17 : Pipeline.Window sig grid2 :=
  Pipeline.Window.ofSpec (Memref.whole main_v151_1) S2000x128.size cc2_transform_17 reads2_17 true false 2 stage2_17 sem2_17
    hrank2 hreads2_17 hinb2_17 nbuf2_17 (Memref.isWhole_whole _) hwx2_17 hstage2_17

abbrev win2 : Fin 18 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | ⟨_ + 18, h⟩ => absurd h (Nat.not_lt.2 (Nat.le_add_left _ _))
abbrev spec2 : Fin 18 → Pipeline.WinSpec sig grid2.rank := fun w => (win2 w).toWinSpec

abbrev win3_0 : Pipeline.Window sig grid3 :=
  Pipeline.Window.ofSpec (Memref.whole main_v110) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v96) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v163) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v151_1) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v151_0) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v98) S2000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v165) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v167) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v170) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v172) S128x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v174) S128x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v177) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v178) S2000x128.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x50000x128 : Shape := ⟨3, ![2, 50000, 128]⟩
abbrev S2x500000 : Shape := ⟨2, ![2, 500000]⟩
abbrev S2x6x128x128 : Shape := ⟨4, ![2, 6, 128, 128]⟩
abbrev S2x6x128 : Shape := ⟨3, ![2, 6, 128]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S1x50000x128 : Shape := ⟨3, ![1, 50000, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S500000x128 : Shape := ⟨2, ![500000, 128]⟩
abbrev S1x128 : Shape := ⟨2, ![1, 128]⟩

abbrev nBuf : Space → Nat
  | .hbm => 408
  | .vmem => 0
  | .smem => 0
  | _ => 0

abbrev hbmTy0_0 (i : Nat) : BufTy := match i % 128 with
  | 0 => ⟨S50000x128, .f32⟩
  | 1 => ⟨S2x50000x128, .f32⟩
  | 2 => ⟨S2x500000, .i32⟩
  | 3 => ⟨S2x6x128x128, .f32⟩
  | 4 => ⟨S2x6x128x128, .f32⟩
  | 5 => ⟨S2x6x128, .f32⟩
  | 6 => ⟨S1x500000, .i32⟩
  | 7 => ⟨S500000, .i32⟩
  | 8 => ⟨S1x500000, .i32⟩
  | 9 => ⟨S500000, .i32⟩
  | 10 => ⟨S_, .f32⟩
  | 11 => ⟨S500000, .f32⟩
  | 12 => ⟨S_, .f32⟩
  | 13 => ⟨S50000, .f32⟩
  | 14 => ⟨S500000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .f32⟩
  | 22 => ⟨S50000x1, .f32⟩
  | 23 => ⟨S1x50000x128, .f32⟩
  | 24 => ⟨S50000x128, .f32⟩
  | 25 => ⟨S1x1x128x128, .f32⟩
  | 26 => ⟨S128x128, .f32⟩
  | 27 => ⟨S1x1x128x128, .f32⟩
  | 28 => ⟨S128x128, .f32⟩
  | 29 => ⟨S1x1x128, .f32⟩
  | 30 => ⟨S128, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S_, .f32⟩
  | 41 => ⟨S50000x128, .f32⟩
  | 42 => ⟨S500000x1, .i32⟩
  | 43 => ⟨S50000x128, .f32⟩
  | 44 => ⟨S50000x128, .f32⟩
  | 45 => ⟨S50000x128, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S1x1x128x128, .f32⟩
  | 53 => ⟨S128x128, .f32⟩
  | 54 => ⟨S1x1x128x128, .f32⟩
  | 55 => ⟨S128x128, .f32⟩
  | 56 => ⟨S1x1x128, .f32⟩
  | 57 => ⟨S128, .f32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000x128, .f32⟩
  | 67 => ⟨S_, .f32⟩
  | 68 => ⟨S50000x128, .f32⟩
  | 69 => ⟨S500000x1, .i32⟩
  | 70 => ⟨S50000x128, .f32⟩
  | 71 => ⟨S50000x128, .f32⟩
  | 72 => ⟨S50000x128, .f32⟩
  | 73 => ⟨S50000x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S50000x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S1x1x128x128, .f32⟩
  | 89 => ⟨S128x128, .f32⟩
  | 90 => ⟨S1x1x128x128, .f32⟩
  | 91 => ⟨S128x128, .f32⟩
  | 92 => ⟨S1x1x128, .f32⟩
  | 93 => ⟨S128, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x128, .f32⟩
  | 103 => ⟨S_, .f32⟩
  | 104 => ⟨S50000x128, .f32⟩
  | 105 => ⟨S500000x1, .i32⟩
  | 106 => ⟨S50000x128, .f32⟩
  | 107 => ⟨S50000x128, .f32⟩
  | 108 => ⟨S50000x128, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S1x1x128x128, .f32⟩
  | 116 => ⟨S128x128, .f32⟩
  | 117 => ⟨S1x1x128x128, .f32⟩
  | 118 => ⟨S128x128, .f32⟩
  | 119 => ⟨S1x1x128, .f32⟩
  | 120 => ⟨S128, .f32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S50000x128, .f32⟩

abbrev hbmTy0_1 (i : Nat) : BufTy := match i % 128 with
  | 0 => ⟨S500000x1, .i32⟩
  | 1 => ⟨S500000x128, .f32⟩
  | 2 => ⟨S_, .f32⟩
  | 3 => ⟨S50000x128, .f32⟩
  | 4 => ⟨S500000x1, .i32⟩
  | 5 => ⟨S50000x128, .f32⟩
  | 6 => ⟨S50000x128, .f32⟩
  | 7 => ⟨S50000x128, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S50000x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S1x1x128x128, .f32⟩
  | 24 => ⟨S128x128, .f32⟩
  | 25 => ⟨S1x1x128x128, .f32⟩
  | 26 => ⟨S128x128, .f32⟩
  | 27 => ⟨S1x1x128, .f32⟩
  | 28 => ⟨S128, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x128, .f32⟩
  | 38 => ⟨S_, .f32⟩
  | 39 => ⟨S50000x128, .f32⟩
  | 40 => ⟨S500000x1, .i32⟩
  | 41 => ⟨S50000x128, .f32⟩
  | 42 => ⟨S50000x128, .f32⟩
  | 43 => ⟨S50000x128, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S50000x128, .f32⟩
  | 51 => ⟨S1x1x128x128, .f32⟩
  | 52 => ⟨S128x128, .f32⟩
  | 53 => ⟨S1x1x128x128, .f32⟩
  | 54 => ⟨S128x128, .f32⟩
  | 55 => ⟨S1x1x128, .f32⟩
  | 56 => ⟨S128, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x128, .f32⟩
  | 66 => ⟨S_, .f32⟩
  | 67 => ⟨S50000x128, .f32⟩
  | 68 => ⟨S500000x1, .i32⟩
  | 69 => ⟨S50000x128, .f32⟩
  | 70 => ⟨S50000x128, .f32⟩
  | 71 => ⟨S50000x128, .f32⟩
  | 72 => ⟨S50000x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S50000x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S50000x128, .f32⟩
  | 86 => ⟨S1x50000x128, .f32⟩
  | 87 => ⟨S50000x128, .f32⟩
  | 88 => ⟨S1x1x128x128, .f32⟩
  | 89 => ⟨S128x128, .f32⟩
  | 90 => ⟨S1x1x128x128, .f32⟩
  | 91 => ⟨S128x128, .f32⟩
  | 92 => ⟨S1x1x128, .f32⟩
  | 93 => ⟨S128, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x128, .f32⟩
  | 103 => ⟨S_, .f32⟩
  | 104 => ⟨S50000x128, .f32⟩
  | 105 => ⟨S500000x1, .i32⟩
  | 106 => ⟨S50000x128, .f32⟩
  | 107 => ⟨S50000x128, .f32⟩
  | 108 => ⟨S50000x128, .f32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S1x1x128x128, .f32⟩
  | 116 => ⟨S128x128, .f32⟩
  | 117 => ⟨S1x1x128x128, .f32⟩
  | 118 => ⟨S128x128, .f32⟩
  | 119 => ⟨S1x1x128, .f32⟩
  | 120 => ⟨S128, .f32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S50000x128, .f32⟩

abbrev hbmTy0_2 (i : Nat) : BufTy := match i % 128 with
  | 0 => ⟨S500000x1, .i32⟩
  | 1 => ⟨S500000x128, .f32⟩
  | 2 => ⟨S_, .f32⟩
  | 3 => ⟨S50000x128, .f32⟩
  | 4 => ⟨S500000x1, .i32⟩
  | 5 => ⟨S50000x128, .f32⟩
  | 6 => ⟨S50000x128, .f32⟩
  | 7 => ⟨S50000x128, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S50000x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S1x1x128x128, .f32⟩
  | 24 => ⟨S128x128, .f32⟩
  | 25 => ⟨S1x1x128x128, .f32⟩
  | 26 => ⟨S128x128, .f32⟩
  | 27 => ⟨S1x1x128, .f32⟩
  | 28 => ⟨S128, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x128, .f32⟩
  | 38 => ⟨S_, .f32⟩
  | 39 => ⟨S50000x128, .f32⟩
  | 40 => ⟨S500000x1, .i32⟩
  | 41 => ⟨S50000x128, .f32⟩
  | 42 => ⟨S50000x128, .f32⟩
  | 43 => ⟨S50000x128, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S1x1x128x128, .f32⟩
  | 51 => ⟨S128x128, .f32⟩
  | 52 => ⟨S1x1x128x128, .f32⟩
  | 53 => ⟨S128x128, .f32⟩
  | 54 => ⟨S1x1x128, .f32⟩
  | 55 => ⟨S128, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x128, .f32⟩
  | 65 => ⟨S_, .f32⟩
  | 66 => ⟨S50000x128, .f32⟩
  | 67 => ⟨S500000x1, .i32⟩
  | 68 => ⟨S50000x128, .f32⟩
  | 69 => ⟨S50000x128, .f32⟩
  | 70 => ⟨S50000x128, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S50000x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S1x1x128x128, .f32⟩
  | 87 => ⟨S128x128, .f32⟩
  | 88 => ⟨S1x1x128x128, .f32⟩
  | 89 => ⟨S128x128, .f32⟩
  | 90 => ⟨S1x1x128, .f32⟩
  | 91 => ⟨S128, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x128, .f32⟩
  | 101 => ⟨S_, .f32⟩
  | 102 => ⟨S50000x128, .f32⟩
  | 103 => ⟨S500000x1, .i32⟩
  | 104 => ⟨S50000x128, .f32⟩
  | 105 => ⟨S50000x128, .f32⟩
  | 106 => ⟨S50000x128, .f32⟩
  | 107 => ⟨S50000x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S50000x128, .f32⟩
  | 114 => ⟨S1x1x128x128, .f32⟩
  | 115 => ⟨S128x128, .f32⟩
  | 116 => ⟨S1x1x128x128, .f32⟩
  | 117 => ⟨S128x128, .f32⟩
  | 118 => ⟨S1x1x128, .f32⟩
  | 119 => ⟨S128, .f32⟩
  | 120 => ⟨S_, .i32⟩
  | 121 => ⟨S500000, .i32⟩
  | 122 => ⟨S500000, .i1⟩
  | 123 => ⟨S_, .i32⟩
  | 124 => ⟨S500000, .i32⟩
  | 125 => ⟨S500000, .i32⟩
  | 126 => ⟨S500000, .i32⟩
  | 127 => ⟨S500000x1, .i32⟩
  | _ => ⟨S50000x128, .f32⟩

abbrev hbmTy0_3 (i : Nat) : BufTy := match i % 128 with
  | 0 => ⟨S500000x128, .f32⟩
  | 1 => ⟨S_, .f32⟩
  | 2 => ⟨S50000x128, .f32⟩
  | 3 => ⟨S500000x1, .i32⟩
  | 4 => ⟨S50000x128, .f32⟩
  | 5 => ⟨S50000x128, .f32⟩
  | 6 => ⟨S50000x128, .f32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S50000x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S50000x128, .f32⟩
  | 20 => ⟨S50000x128, .f32⟩
  | 21 => ⟨S1x50000x128, .f32⟩
  | 22 => ⟨S1x50000x128, .f32⟩
  | 23 => ⟨S2x50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_5 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_c_10 : Ref sig .tc := ⟨.hbm, 94, rfl⟩
abbrev main_v76 : Ref sig .tc := ⟨.hbm, 95, rfl⟩
abbrev main_v77 : Ref sig .tc := ⟨.hbm, 96, rfl⟩
abbrev main_c_11 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_12 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_c_13 : Ref sig .tc := ⟨.hbm, 121, rfl⟩
abbrev main_v100 : Ref sig .tc := ⟨.hbm, 122, rfl⟩
abbrev main_v101 : Ref sig .tc := ⟨.hbm, 123, rfl⟩
abbrev main_c_14 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_15 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_cst_16 : Ref sig .tc := ⟨.hbm, 145, rfl⟩
abbrev main_v121 : Ref sig .tc := ⟨.hbm, 146, rfl⟩
abbrev main_v122 : Ref sig .tc := ⟨.hbm, 147, rfl⟩
abbrev main_cst_17 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_c_18 : Ref sig .tc := ⟨.hbm, 157, rfl⟩
abbrev main_v131 : Ref sig .tc := ⟨.hbm, 158, rfl⟩
abbrev main_v132 : Ref sig .tc := ⟨.hbm, 159, rfl⟩
abbrev main_c_19 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst_20 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_c_21 : Ref sig .tc := ⟨.hbm, 185, rfl⟩
abbrev main_v156 : Ref sig .tc := ⟨.hbm, 186, rfl⟩
abbrev main_v157 : Ref sig .tc := ⟨.hbm, 187, rfl⟩
abbrev main_c_22 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_cst_23 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_cst_24 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_c_25 : Ref sig .tc := ⟨.hbm, 222, rfl⟩
abbrev main_v189 : Ref sig .tc := ⟨.hbm, 223, rfl⟩
abbrev main_v190 : Ref sig .tc := ⟨.hbm, 224, rfl⟩
abbrev main_c_26 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_cst_27 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_c_28 : Ref sig .tc := ⟨.hbm, 249, rfl⟩
abbrev main_v213 : Ref sig .tc := ⟨.hbm, 250, rfl⟩
abbrev main_v214 : Ref sig .tc := ⟨.hbm, 251, rfl⟩
abbrev main_c_29 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_cst_30 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_cst_31 : Ref sig .tc := ⟨.hbm, 273, rfl⟩
abbrev main_v234 : Ref sig .tc := ⟨.hbm, 274, rfl⟩
abbrev main_v235 : Ref sig .tc := ⟨.hbm, 275, rfl⟩
abbrev main_cst_32 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_c_33 : Ref sig .tc := ⟨.hbm, 285, rfl⟩
abbrev main_v244 : Ref sig .tc := ⟨.hbm, 286, rfl⟩
abbrev main_v245 : Ref sig .tc := ⟨.hbm, 287, rfl⟩
abbrev main_c_34 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_cst_35 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_c_36 : Ref sig .tc := ⟨.hbm, 312, rfl⟩
abbrev main_v268 : Ref sig .tc := ⟨.hbm, 313, rfl⟩
abbrev main_v269 : Ref sig .tc := ⟨.hbm, 314, rfl⟩
abbrev main_c_37 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_cst_38 : Ref sig .tc := ⟨.hbm, 321, rfl⟩
abbrev main_v275 : Ref sig .tc := ⟨.hbm, 322, rfl⟩
abbrev main_v276 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_v288 : Ref sig .tc := ⟨.hbm, 335, rfl⟩
abbrev main_cst_39 : Ref sig .tc := ⟨.hbm, 336, rfl⟩
abbrev main_v289 : Ref sig .tc := ⟨.hbm, 337, rfl⟩
abbrev main_v290 : Ref sig .tc := ⟨.hbm, 338, rfl⟩
abbrev main_cst_40 : Ref sig .tc := ⟨.hbm, 339, rfl⟩
abbrev main_v291 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_c_41 : Ref sig .tc := ⟨.hbm, 348, rfl⟩
abbrev main_v299 : Ref sig .tc := ⟨.hbm, 349, rfl⟩
abbrev main_v300 : Ref sig .tc := ⟨.hbm, 350, rfl⟩
abbrev main_c_42 : Ref sig .tc := ⟨.hbm, 351, rfl⟩
abbrev main_v301 : Ref sig .tc := ⟨.hbm, 352, rfl⟩
abbrev main_v302 : Ref sig .tc := ⟨.hbm, 353, rfl⟩
abbrev main_v303 : Ref sig .tc := ⟨.hbm, 354, rfl⟩
abbrev main_v304 : Ref sig .tc := ⟨.hbm, 355, rfl⟩
abbrev main_v305 : Ref sig .tc := ⟨.hbm, 356, rfl⟩
abbrev main_cst_43 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_c_44 : Ref sig .tc := ⟨.hbm, 376, rfl⟩
abbrev main_v324 : Ref sig .tc := ⟨.hbm, 377, rfl⟩
abbrev main_v325 : Ref sig .tc := ⟨.hbm, 378, rfl⟩
abbrev main_c_45 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_cst_46 : Ref sig .tc := ⟨.hbm, 385, rfl⟩
abbrev main_v331 : Ref sig .tc := ⟨.hbm, 386, rfl⟩
abbrev main_v332 : Ref sig .tc := ⟨.hbm, 387, rfl⟩
abbrev main_v333 : Ref sig .tc := ⟨.hbm, 388, rfl⟩
abbrev main_v334 : Ref sig .tc := ⟨.hbm, 389, rfl⟩
abbrev main_v335 : Ref sig .tc := ⟨.hbm, 390, rfl⟩
abbrev main_v336 : Ref sig .tc := ⟨.hbm, 391, rfl⟩
abbrev main_v337 : Ref sig .tc := ⟨.hbm, 392, rfl⟩
abbrev main_v338 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_v342 : Ref sig .tc := ⟨.hbm, 397, rfl⟩
abbrev main_v343 : Ref sig .tc := ⟨.hbm, 398, rfl⟩
abbrev main_v344 : Ref sig .tc := ⟨.hbm, 399, rfl⟩
abbrev main_cst_47 : Ref sig .tc := ⟨.hbm, 400, rfl⟩
abbrev main_v345 : Ref sig .tc := ⟨.hbm, 401, rfl⟩
abbrev main_v346 : Ref sig .tc := ⟨.hbm, 402, rfl⟩
abbrev main_v347 : Ref sig .tc := ⟨.hbm, 403, rfl⟩
abbrev main_v348 : Ref sig .tc := ⟨.hbm, 404, rfl⟩
abbrev main_v349 : Ref sig .tc := ⟨.hbm, 405, rfl⟩
abbrev main_v350 : Ref sig .tc := ⟨.hbm, 406, rfl⟩
abbrev main_v351 : Ref sig .tc := ⟨.hbm, 407, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  slices_S2x50000x128_S1x50000x128_0_0_0 : S2x50000x128.Slices ![0, 0, 0] S1x50000x128
  shapeCasts_S1x50000x128_S50000x128 : S1x50000x128.ShapeCasts S50000x128
  slices_S2x6x128x128_S1x1x128x128_0_0_0_0 : S2x6x128x128.Slices ![0, 0, 0, 0] S1x1x128x128
  shapeCasts_S1x1x128x128_S128x128 : S1x1x128x128.ShapeCasts S128x128
  slices_S2x6x128_S1x1x128_0_0_0 : S2x6x128.Slices ![0, 0, 0] S1x1x128
  shapeCasts_S1x1x128_S128 : S1x1x128.ShapeCasts S128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x6x128x128_S1x1x128x128_0_1_0_0 : S2x6x128x128.Slices ![0, 1, 0, 0] S1x1x128x128
  slices_S2x6x128_S1x1x128_0_1_0 : S2x6x128.Slices ![0, 1, 0] S1x1x128
  slices_S2x6x128x128_S1x1x128x128_0_2_0_0 : S2x6x128x128.Slices ![0, 2, 0, 0] S1x1x128x128
  slices_S2x6x128_S1x1x128_0_2_0 : S2x6x128.Slices ![0, 2, 0] S1x1x128
  slices_S2x6x128x128_S1x1x128x128_0_3_0_0 : S2x6x128x128.Slices ![0, 3, 0, 0] S1x1x128x128
  slices_S2x6x128_S1x1x128_0_3_0 : S2x6x128.Slices ![0, 3, 0] S1x1x128
  slices_S2x6x128x128_S1x1x128x128_0_4_0_0 : S2x6x128x128.Slices ![0, 4, 0, 0] S1x1x128x128
  slices_S2x6x128_S1x1x128_0_4_0 : S2x6x128.Slices ![0, 4, 0] S1x1x128
  slices_S2x6x128x128_S1x1x128x128_0_5_0_0 : S2x6x128x128.Slices ![0, 5, 0, 0] S1x1x128x128
  slices_S2x6x128_S1x1x128_0_5_0 : S2x6x128.Slices ![0, 5, 0] S1x1x128
  slices_S2x50000x128_S1x50000x128_1_0_0 : S2x50000x128.Slices ![1, 0, 0] S1x50000x128
  slices_S2x6x128x128_S1x1x128x128_1_0_0_0 : S2x6x128x128.Slices ![1, 0, 0, 0] S1x1x128x128
  slices_S2x6x128_S1x1x128_1_0_0 : S2x6x128.Slices ![1, 0, 0] S1x1x128
  slices_S2x6x128x128_S1x1x128x128_1_1_0_0 : S2x6x128x128.Slices ![1, 1, 0, 0] S1x1x128x128
  slices_S2x6x128_S1x1x128_1_1_0 : S2x6x128.Slices ![1, 1, 0] S1x1x128
  slices_S2x6x128x128_S1x1x128x128_1_2_0_0 : S2x6x128x128.Slices ![1, 2, 0, 0] S1x1x128x128
  slices_S2x6x128_S1x1x128_1_2_0 : S2x6x128.Slices ![1, 2, 0] S1x1x128
  slices_S2x6x128x128_S1x1x128x128_1_3_0_0 : S2x6x128x128.Slices ![1, 3, 0, 0] S1x1x128x128
  slices_S2x6x128_S1x1x128_1_3_0 : S2x6x128.Slices ![1, 3, 0] S1x1x128
  slices_S2x6x128x128_S1x1x128x128_1_4_0_0 : S2x6x128x128.Slices ![1, 4, 0, 0] S1x1x128x128
  slices_S2x6x128_S1x1x128_1_4_0 : S2x6x128.Slices ![1, 4, 0] S1x1x128
  slices_S2x6x128x128_S1x1x128x128_1_5_0_0 : S2x6x128x128.Slices ![1, 5, 0, 0] S1x1x128x128
  slices_S2x6x128_S1x1x128_1_5_0 : S2x6x128.Slices ![1, 5, 0] S1x1x128
  bcast_S50000x128_S1x50000x128_1_2 : S50000x128.BroadcastsInDim S1x50000x128 (![1, 2] : Fin 2 → Fin S1x50000x128.rank)
  concatenates_S1x50000x128_S1x50000x128_S2x50000x128_d0 : Shape.Concatenates [S1x50000x128, S1x50000x128] S2x50000x128 0
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x128_S50000x128_1_0_0_1_n_n_wf : DotDims.WF S50000x128 S128x128 S50000x128 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
import proofs.«136806_j48473000903511_1_alg».proof.Proof.Gen.KernelIdeal.Frame

/-!
# The kernel program's run with its result named

The kernel program is four TensorCore regions among five stretches of host operations. The
contents of every buffer at each boundary between two segments are a fold through the program
(`W0` at launch, …, `W9` at the return). This module reads the result buffer off that fold:

* `v96_kept`: the first layer's output, once written by the second region, is only ever READ
  afterwards (by the two regions of the second layer, as an input window, and by host operations),
  so it holds the same array from the second region's exit to the fourth region's exit;
* `result_eq`: the result is the two layers' outputs, each given a leading axis of extent one,
  stacked along that axis;
* `run_result`: every weakly fair execution terminates without a fault, with the result buffer at
  the fold's last contents and the six argument arrays as launched.
-/

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first layer's output array (the second region's result) is the same at the fourth region's
    exit as at the second region's exit: the third and the fourth region each read it through an
    input window, which a region leaves as it found it, and no host operation between them writes it. -/
theorem v96_kept (c : Dev nD) :
    W8 m ρ c (Proc.devRef .tc main_v96) = W4 m ρ c (Proc.devRef .tc main_v96) :=
  calc W8 m ρ c (Proc.devRef .tc main_v96)
    _ = W7 m ρ c (Proc.devRef .tc main_v96) :=
        (W8_arr m ρ c 1).trans (((dat3 (V7 m ρ) c).arrAt_in 1 rfl _).trans (A_eq3 (V7 m ρ) c 1))
    _ = W6 m ρ c (Proc.devRef .tc main_v96) := StableHlo.after_of_forall_not_mem (b := Proc.devRef .tc main_v96) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v96) :=
        (W6_arr m ρ c 1).trans (((dat2 (V5 m ρ) c).arrAt_in 1 rfl _).trans (A_eq2 (V5 m ρ) c 1))
    _ = W4 m ρ c (Proc.devRef .tc main_v96) := StableHlo.after_of_forall_not_mem (b := Proc.devRef .tc main_v96) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The result array is the two layers' outputs stacked: each layer's output (the second region's
    result for the first layer, the fourth region's for the second) is given a leading axis of
    extent one, and the two are joined along that axis. The last stretch of host operations is these
    three operations, and the first layer's output is still what the second region wrote. -/
theorem result_eq (c : Dev nD) : W9 m ρ c (Proc.devRef .tc main_v181)
      = concatenate S2x50000x128 0
          [⟨S1x50000x128, (broadcastInDim S1x50000x128 ![1, 2] bcast_S50000x128_S1x50000x128_1_2 (V4 m ρ c main_v96))⟩,
           ⟨S1x50000x128, (broadcastInDim S1x50000x128 ![1, 2] bcast_S50000x128_S1x50000x128_1_2 (V8 m ρ c main_v178))⟩]
          concatenates_S1x50000x128_S1x50000x128_S2x50000x128_d0 := by
  have h : W9 m ρ c (Proc.devRef .tc main_v181)
      = concatenate S2x50000x128 0
          [⟨S1x50000x128, (broadcastInDim S1x50000x128 ![1, 2] bcast_S50000x128_S1x50000x128_1_2 (W8 m ρ c (Proc.devRef .tc main_v96)))⟩,
           ⟨S1x50000x128, (broadcastInDim S1x50000x128 ![1, 2] bcast_S50000x128_S1x50000x128_1_2 (W8 m ρ c (Proc.devRef .tc main_v178)))⟩]
          concatenates_S1x50000x128_S1x50000x128_S2x50000x128_d0 := by
    show StableHlo.after hostOps4 _ (Proc.devRef .tc main_v181) = _
    after_results
  rw [h, v96_kept m ρ c]

set_option backward.isDefEq.respectTransparency.types false in
/-- The run with the result named: at the compiled mesh, from any memory with zero counters, every
    weakly fair execution of the program on the TensorCores terminates, nothing faulting, and in every
    final state the result buffer holds the last contents of the fold through the program (`W9`)
    while the six argument arrays are as launched. The program is run segment by segment, each
    segment from the contents the previous one leaves; the last thread state holds every unscoped
    buffer at `W9`, which is read against the final state. -/
theorem run_result : θ_run defs (onTc (τ := τ) (main (F := F))) ⟨m, fun _ => 0, ρ⟩ (fun r => ∀ c : Dev nD,
      r.2.mem ((c.tc : Thread nD τ).loc main_v181) = W9 m ρ c (Proc.devRef .tc main_v181)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v181 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Fold

end
-- ==== Proof.GruSpec.lean ====
/-
  The computation both programs perform, as functions of whole arrays.

  A node array is f32[50000, 128]; an edge list is two rows of 500000 node numbers, sources and destinations.
  `aggr` is the mean over incoming edges: gather the source rows, add each into its destination row, scale row
  `n` by `1 / max(deg n, 1)` where `deg` counts the edges arriving at `n`. `conv` is one graph convolution,
  `agg · Wl + a · Wr + b` with the bias a single row repeated down the nodes. `sigm` is the logistic function written
  out as `1 / (1 + exp (-p))`, `gate` the logistic of a sum of two convolutions, and `outOf` the GRU update
  `z · h + (1 - z) · tanh (c4 + c5)`.

  Everything is stated in the host operations' own words, over any float instance, so that a host program's composed
  term IS one of these by unfolding; the laws that read them at an index of the extended reals are in GruBlock.
-/
import proofs.«136806_j48473000903511_1_alg».proof.Proof.Gen.ReferenceIdeal
import Idealize.ShloMosaic.PureOps.Ideal

noncomputable section

namespace Cert.Gru

open Idealize.ShloMosaic Idealize.ShloMosaic.TcCoe Idealize.SL.Sem Cert.ReferenceIdeal Cert.ReferenceIdeal.Gen

variable {F : FTy → Type} [FloatOps F]

/-- The source row of the edge list. -/
def srcOf (e : (⟨S2x500000, .i32⟩ : BufTy).Contents (Elt F)) : (⟨S500000, .i32⟩ : BufTy).Contents (Elt F) :=
  shapeCast _ (extractStridedSlice S1x500000 ![0, 0] e slices_S2x500000_S1x500000_0_0) shapeCasts_S1x500000_S500000

/-- The destination row of the edge list. -/
def dstOf (e : (⟨S2x500000, .i32⟩ : BufTy).Contents (Elt F)) : (⟨S500000, .i32⟩ : BufTy).Contents (Elt F) :=
  shapeCast _ (extractStridedSlice S1x500000 ![1, 0] e slices_S2x500000_S1x500000_1_0) shapeCasts_S1x500000_S500000

/-- `1 / max(deg, 1)` as a column, `deg n` the number of edges whose destination is `n`. -/
def invDeg (dst : (⟨S500000, .i32⟩ : BufTy).Contents (Elt F)) : (⟨S50000x1, .f32⟩ : BufTy).Contents (Elt F) :=
  broadcastInDim S50000x1 ![0] bcast_S50000_S50000x1_0 (Host.divf (broadcastInDim S50000 ![] bcast_S_S50000 (constant S_ .f32 0x3F800000#32)) (maximumf (Host.scatterAdd scatter_S50000_S500000x1_S500000_n_0_0_1 (broadcastInDim S50000 ![] bcast_S_S50000 (constant S_ .f32 0x00000000#32)) (broadcastInDim S500000x1 ![0] bcast_S500000_S500000x1_0 dst) (broadcastInDim S500000 ![] bcast_S_S500000 (constant S_ .f32 0x3F800000#32))) (broadcastInDim S50000 ![] bcast_S_S50000 (constant S_ .f32 0x3F800000#32))))

/-- Where the gather reads: a source number, a negative one counted from the end. -/
def gatherIdx (src : (⟨S500000, .i32⟩ : BufTy).Contents (Elt F)) : (⟨S500000x1, .i32⟩ : BufTy).Contents (Elt F) :=
  broadcastInDim S500000x1 ![0] bcast_S500000_S500000x1_0 (select (cmpi .slt src (broadcastInDim S500000 ![] bcast_S_S500000 (constantI S_ 32 0#32))) (addi src (broadcastInDim S500000 ![] bcast_S_S500000 (constantI S_ 32 50000#32))) src)

/-- The mean of a node array over incoming edges. -/
def aggr (src dst : (⟨S500000, .i32⟩ : BufTy).Contents (Elt F)) (inv : (⟨S50000x1, .f32⟩ : BufTy).Contents (Elt F))
    (a : (⟨S50000x128, .f32⟩ : BufTy).Contents (Elt F)) : (⟨S50000x128, .f32⟩ : BufTy).Contents (Elt F) :=
  mulf (Host.scatterAdd scatter_S50000x128_S500000x1_S500000x128_1_0_0_1 (broadcastInDim S50000x128 ![] bcast_S_S50000x128 (constant S_ .f32 0x00000000#32)) (broadcastInDim S500000x1 ![0] bcast_S500000_S500000x1_0 dst) (Host.gather gather_S50000x128_S500000x1_S500000x128_1_0_n_n_0_1_1128 a (gatherIdx src))) (broadcastInDim S50000x128 ![0, 1] bcast_S50000x1_S50000x128_0_1 inv)

/-- One graph convolution: `agg · Wl + a · Wr + b`, the bias row `b` repeated down the nodes. -/
def conv (agg a : (⟨S50000x128, .f32⟩ : BufTy).Contents (Elt F)) (wl wr : (⟨S128x128, .f32⟩ : BufTy).Contents (Elt F))
    (b : (⟨S1x128, .f32⟩ : BufTy).Contents (Elt F)) : (⟨S50000x128, .f32⟩ : BufTy).Contents (Elt F) :=
  addf (addf (Host.dotGeneral dot_S50000x128_S128x128_S50000x128_1_0_0_1_n_n none agg wl) (Host.dotGeneral dot_S50000x128_S128x128_S50000x128_1_0_0_1_n_n none a wr)) (broadcastInDim S50000x128 ![0, 1] bcast_S1x128_S50000x128_0_1 b)

/-- The node array of ones. -/
def ones : (⟨S50000x128, .f32⟩ : BufTy).Contents (Elt F) :=
  broadcastInDim S50000x128 ![] bcast_S_S50000x128 (constant S_ .f32 0x3F800000#32)

/-- The logistic function written out: `1 / (1 + exp (-p))`. -/
def sigm (p : (⟨S50000x128, .f32⟩ : BufTy).Contents (Elt F)) : (⟨S50000x128, .f32⟩ : BufTy).Contents (Elt F) :=
  Host.divf ones (addf ones (Host.exp (Host.negf p)))

/-- A gate: the logistic of the sum of two convolutions. -/
def gate (c1 c2 : (⟨S50000x128, .f32⟩ : BufTy).Contents (Elt F)) : (⟨S50000x128, .f32⟩ : BufTy).Contents (Elt F) :=
  sigm (addf c1 c2)

/-- The GRU update `z · h + (1 - z) · tanh (c4 + c5)`. -/
def outOf (z h c4 c5 : (⟨S50000x128, .f32⟩ : BufTy).Contents (Elt F)) : (⟨S50000x128, .f32⟩ : BufTy).Contents (Elt F) :=
  addf (mulf z h) (mulf (subf ones z) (Host.tanh (addf c4 c5)))

end Cert.Gru

end
-- ==== Proof.GruLayer.lean ====
/-
  One layer of the graph GRU as a function of whole arrays, over the pieces of GruSpec.

  With `ax` and `ah` the means of the input `x` and of the state `h` over incoming edges,
    z   = logistic (conv ax x · 0 + conv ah h · 1)
    rh  = logistic (conv ax x · 2 + conv ah h · 3) · h
    out = z · h + (1 - z) · tanh (conv ax x · 4 + conv (mean of rh) rh · 5)
  where `conv a b · g` uses the layer's g-th pair of weight matrices and its g-th bias row.
-/
import proofs.«136806_j48473000903511_1_alg».proof.Proof.GruSpec

noncomputable section

namespace Cert.Gru

open Idealize.ShloMosaic Idealize.ShloMosaic.TcCoe Idealize.SL.Sem Cert.ReferenceIdeal Cert.ReferenceIdeal.Gen

variable {F : FTy → Type} [FloatOps F]

/-- The update gate `z` of a layer. -/
def zOf (ax x ah h : (⟨S50000x128, .f32⟩ : BufTy).Contents (Elt F)) (wl0 wr0 : (⟨S128x128, .f32⟩ : BufTy).Contents (Elt F)) (b0 : (⟨S1x128, .f32⟩ : BufTy).Contents (Elt F)) (wl1 wr1 : (⟨S128x128, .f32⟩ : BufTy).Contents (Elt F)) (b1 : (⟨S1x128, .f32⟩ : BufTy).Contents (Elt F)) : (⟨S50000x128, .f32⟩ : BufTy).Contents (Elt F) :=
  gate (conv ax x wl0 wr0 b0) (conv ah h wl1 wr1 b1)

/-- The reset gate applied to the state, `r · h`. -/
def rhOf (ax x ah h : (⟨S50000x128, .f32⟩ : BufTy).Contents (Elt F)) (wl2 wr2 : (⟨S128x128, .f32⟩ : BufTy).Contents (Elt F)) (b2 : (⟨S1x128, .f32⟩ : BufTy).Contents (Elt F)) (wl3 wr3 : (⟨S128x128, .f32⟩ : BufTy).Contents (Elt F)) (b3 : (⟨S1x128, .f32⟩ : BufTy).Contents (Elt F)) : (⟨S50000x128, .f32⟩ : BufTy).Contents (Elt F) :=
  mulf (gate (conv ax x wl2 wr2 b2) (conv ah h wl3 wr3 b3)) h

/-- The layer's new state from `z`, `h`, `r · h` and its mean `arh`. -/
def newOf (ax x arh rh z h : (⟨S50000x128, .f32⟩ : BufTy).Contents (Elt F)) (wl4 wr4 : (⟨S128x128, .f32⟩ : BufTy).Contents (Elt F)) (b4 : (⟨S1x128, .f32⟩ : BufTy).Contents (Elt F)) (wl5 wr5 : (⟨S128x128, .f32⟩ : BufTy).Contents (Elt F)) (b5 : (⟨S1x128, .f32⟩ : BufTy).Contents (Elt F)) : (⟨S50000x128, .f32⟩ : BufTy).Contents (Elt F) :=
  outOf z h (conv ax x wl4 wr4 b4) (conv arh rh wl5 wr5 b5)

/-- One whole layer: the new state from the input `x`, the state `h`, the edge data and the layer's six weight pairs and
    bias rows. -/
def layer (src dst : (⟨S500000, .i32⟩ : BufTy).Contents (Elt F)) (inv : (⟨S50000x1, .f32⟩ : BufTy).Contents (Elt F)) (x h : (⟨S50000x128, .f32⟩ : BufTy).Contents (Elt F))
    (wl0 wr0 : (⟨S128x128, .f32⟩ : BufTy).Contents (Elt F)) (b0 : (⟨S1x128, .f32⟩ : BufTy).Contents (Elt F)) (wl1 wr1 : (⟨S128x128, .f32⟩ : BufTy).Contents (Elt F)) (b1 : (⟨S1x128, .f32⟩ : BufTy).Contents (Elt F)) (wl2 wr2 : (⟨S128x128, .f32⟩ : BufTy).Contents (Elt F)) (b2 : (⟨S1x128, .f32⟩ : BufTy).Contents (Elt F))
    (wl3 wr3 : (⟨S128x128, .f32⟩ : BufTy).Contents (Elt F)) (b3 : (⟨S1x128, .f32⟩ : BufTy).Contents (Elt F)) (wl4 wr4 : (⟨S128x128, .f32⟩ : BufTy).Contents (Elt F)) (b4 : (⟨S1x128, .f32⟩ : BufTy).Contents (Elt F)) (wl5 wr5 : (⟨S128x128, .f32⟩ : BufTy).Contents (Elt F)) (b5 : (⟨S1x128, .f32⟩ : BufTy).Contents (Elt F)) : (⟨S50000x128, .f32⟩ : BufTy).Contents (Elt F) :=
  newOf (aggr src dst inv x) x
    (aggr src dst inv (rhOf (aggr src dst inv x) x (aggr src dst inv h) h wl2 wr2 b2 wl3 wr3 b3))
    (rhOf (aggr src dst inv x) x (aggr src dst inv h) h wl2 wr2 b2 wl3 wr3 b3)
    (zOf (aggr src dst inv x) x (aggr src dst inv h) h wl0 wr0 b0 wl1 wr1 b1) h wl4 wr4 b4 wl5 wr5 b5

end Cert.Gru

end
-- ==== Proof.RegionStmts.lean ====
/-
  What each of the four regions computes, stated once so that the region proofs and the proofs that thread the
  regions together can be written apart: each region's result arrays after its last grid point are the spec's gate
  functions (GruLayer) of the arrays the region reads, whatever the buffers hold when the region is entered.
  At the ideal instance a bf16 array and an f32 array are both arrays of extended reals, so the weight operands go
  into the spec's functions as they are.
-/
import proofs.«136806_j48473000903511_1_alg».proof.Proof.Gen.KernelIdeal.Frame
import proofs.«136806_j48473000903511_1_alg».proof.Proof.GruLayer

noncomputable section

namespace Cert.KernelIdeal.Regions

open Idealize.ShloMosaic Idealize.ShloMosaic.TcCoe Idealize.SL.Sem Cert.KernelIdeal Cert.KernelIdeal.Gen

/-- The TensorCore's buffer contents at some moment, at the ideal instance. -/
abbrev Contents := (c : Dev nD) → (b : Ref sig .tc) → Buf (Elt Ideal) ((c : Thread nD τ).loc b)

/-- What region 0 leaves in its two result arrays, from any entry contents `V`: the update gate and the reset gate times
    the state, of the arrays it reads. -/
def Zr0 : Prop := ∀ (V : Contents) (c : Dev nD),
    (dat0 (F := Ideal) V c).arrAt 16 cfg0.N = Gru.zOf (V c main_v28) (V c main_arg0) (V c main_v40) (V c main_v16) (V c main_v42) (V c main_v44) (V c main_v47) (V c main_v49) (V c main_v51) (V c main_v54)
    ∧ (dat0 (F := Ideal) V c).arrAt 17 cfg0.N = Gru.rhOf (V c main_v28) (V c main_arg0) (V c main_v40) (V c main_v16) (V c main_v56) (V c main_v58) (V c main_v61) (V c main_v63) (V c main_v65) (V c main_v68)

/-- What region 1 leaves in its result array, from any entry contents `V`: the layer's new state, of the arrays it
    reads (the means of the input and of `r · h`, `r · h`, `z`, the state). -/
def H1 : Prop := ∀ (V : Contents) (c : Dev nD),
    (dat1 (F := Ideal) V c).arrAt 12 cfg1.N = Gru.newOf (V c main_v28) (V c main_arg0) (V c main_v81) (V c main_v69_1) (V c main_v69_0) (V c main_v16) (V c main_v83) (V c main_v85) (V c main_v88) (V c main_v90) (V c main_v92) (V c main_v95)

/-- What region 2 leaves in its two result arrays, from any entry contents `V`: the update gate and the reset gate times
    the state, of the arrays it reads. -/
def Zr2 : Prop := ∀ (V : Contents) (c : Dev nD),
    (dat2 (F := Ideal) V c).arrAt 16 cfg2.N = Gru.zOf (V c main_v110) (V c main_v96) (V c main_v122) (V c main_v98) (V c main_v124) (V c main_v126) (V c main_v129) (V c main_v131) (V c main_v133) (V c main_v136)
    ∧ (dat2 (F := Ideal) V c).arrAt 17 cfg2.N = Gru.rhOf (V c main_v110) (V c main_v96) (V c main_v122) (V c main_v98) (V c main_v138) (V c main_v140) (V c main_v143) (V c main_v145) (V c main_v147) (V c main_v150)

/-- What region 3 leaves in its result array, from any entry contents `V`: the layer's new state, of the arrays it
    reads (the means of the input and of `r · h`, `r · h`, `z`, the state). -/
def H3 : Prop := ∀ (V : Contents) (c : Dev nD),
    (dat3 (F := Ideal) V c).arrAt 12 cfg3.N = Gru.newOf (V c main_v110) (V c main_v96) (V c main_v163) (V c main_v151_1) (V c main_v151_0) (V c main_v98) (V c main_v165) (V c main_v167) (V c main_v170) (V c main_v172) (V c main_v174) (V c main_v177)

end Cert.KernelIdeal.Regions

end
-- ==== Proof.GruResult.lean ====
/-
  The whole computation as a function of the six argument arrays: the node features `x`, the two layers' states `h`,
  the edge list `e`, the weights `Wl`, `Wr` and the biases `b`. Layer 0 updates `h[0]` from `x`; layer 1 updates `h[1]`
  from layer 0's result; the result stacks the two new states. Gate `g` of layer `i` uses `Wl[i, g]`, `Wr[i, g]` and
  the row `b[i, g]`.
-/
import proofs.«136806_j48473000903511_1_alg».proof.Proof.GruLayer

noncomputable section

namespace Cert.Gru

open Idealize.ShloMosaic Idealize.ShloMosaic.TcCoe Idealize.SL.Sem Cert.ReferenceIdeal Cert.ReferenceIdeal.Gen

variable {F : FTy → Type} [FloatOps F]

/-- Layer 0's new state. -/
def out0 (x : (⟨S50000x128, .f32⟩ : BufTy).Contents (Elt F)) (h : (⟨S2x50000x128, .f32⟩ : BufTy).Contents (Elt F)) (e : (⟨S2x500000, .i32⟩ : BufTy).Contents (Elt F))
    (Wl Wr : (⟨S2x6x128x128, .f32⟩ : BufTy).Contents (Elt F)) (b : (⟨S2x6x128, .f32⟩ : BufTy).Contents (Elt F)) : (⟨S50000x128, .f32⟩ : BufTy).Contents (Elt F) :=
  layer (srcOf e) (dstOf e) (invDeg (dstOf e)) x (shapeCast _ (extractStridedSlice S1x50000x128 ![0, 0, 0] h slices_S2x50000x128_S1x50000x128_0_0_0) shapeCasts_S1x50000x128_S50000x128)
      (shapeCast _ (extractStridedSlice S1x1x128x128 ![0, 0, 0, 0] Wl slices_S2x6x128x128_S1x1x128x128_0_0_0_0) shapeCasts_S1x1x128x128_S128x128) (shapeCast _ (extractStridedSlice S1x1x128x128 ![0, 0, 0, 0] Wr slices_S2x6x128x128_S1x1x128x128_0_0_0_0) shapeCasts_S1x1x128x128_S128x128) (broadcastInDim S1x128 ![1] bcast_S128_S1x128_1 (shapeCast _ (extractStridedSlice S1x1x128 ![0, 0, 0] b slices_S2x6x128_S1x1x128_0_0_0) shapeCasts_S1x1x128_S128))
      (shapeCast _ (extractStridedSlice S1x1x128x128 ![0, 1, 0, 0] Wl slices_S2x6x128x128_S1x1x128x128_0_1_0_0) shapeCasts_S1x1x128x128_S128x128) (shapeCast _ (extractStridedSlice S1x1x128x128 ![0, 1, 0, 0] Wr slices_S2x6x128x128_S1x1x128x128_0_1_0_0) shapeCasts_S1x1x128x128_S128x128) (broadcastInDim S1x128 ![1] bcast_S128_S1x128_1 (shapeCast _ (extractStridedSlice S1x1x128 ![0, 1, 0] b slices_S2x6x128_S1x1x128_0_1_0) shapeCasts_S1x1x128_S128))
      (shapeCast _ (extractStridedSlice S1x1x128x128 ![0, 2, 0, 0] Wl slices_S2x6x128x128_S1x1x128x128_0_2_0_0) shapeCasts_S1x1x128x128_S128x128) (shapeCast _ (extractStridedSlice S1x1x128x128 ![0, 2, 0, 0] Wr slices_S2x6x128x128_S1x1x128x128_0_2_0_0) shapeCasts_S1x1x128x128_S128x128) (broadcastInDim S1x128 ![1] bcast_S128_S1x128_1 (shapeCast _ (extractStridedSlice S1x1x128 ![0, 2, 0] b slices_S2x6x128_S1x1x128_0_2_0) shapeCasts_S1x1x128_S128))
      (shapeCast _ (extractStridedSlice S1x1x128x128 ![0, 3, 0, 0] Wl slices_S2x6x128x128_S1x1x128x128_0_3_0_0) shapeCasts_S1x1x128x128_S128x128) (shapeCast _ (extractStridedSlice S1x1x128x128 ![0, 3, 0, 0] Wr slices_S2x6x128x128_S1x1x128x128_0_3_0_0) shapeCasts_S1x1x128x128_S128x128) (broadcastInDim S1x128 ![1] bcast_S128_S1x128_1 (shapeCast _ (extractStridedSlice S1x1x128 ![0, 3, 0] b slices_S2x6x128_S1x1x128_0_3_0) shapeCasts_S1x1x128_S128))
      (shapeCast _ (extractStridedSlice S1x1x128x128 ![0, 4, 0, 0] Wl slices_S2x6x128x128_S1x1x128x128_0_4_0_0) shapeCasts_S1x1x128x128_S128x128) (shapeCast _ (extractStridedSlice S1x1x128x128 ![0, 4, 0, 0] Wr slices_S2x6x128x128_S1x1x128x128_0_4_0_0) shapeCasts_S1x1x128x128_S128x128) (broadcastInDim S1x128 ![1] bcast_S128_S1x128_1 (shapeCast _ (extractStridedSlice S1x1x128 ![0, 4, 0] b slices_S2x6x128_S1x1x128_0_4_0) shapeCasts_S1x1x128_S128))
      (shapeCast _ (extractStridedSlice S1x1x128x128 ![0, 5, 0, 0] Wl slices_S2x6x128x128_S1x1x128x128_0_5_0_0) shapeCasts_S1x1x128x128_S128x128) (shapeCast _ (extractStridedSlice S1x1x128x128 ![0, 5, 0, 0] Wr slices_S2x6x128x128_S1x1x128x128_0_5_0_0) shapeCasts_S1x1x128x128_S128x128) (broadcastInDim S1x128 ![1] bcast_S128_S1x128_1 (shapeCast _ (extractStridedSlice S1x1x128 ![0, 5, 0] b slices_S2x6x128_S1x1x128_0_5_0) shapeCasts_S1x1x128_S128))

/-- Layer 1's new state: the same layer function, of layer 0's new state and `h[1]`. -/
def out1 (x : (⟨S50000x128, .f32⟩ : BufTy).Contents (Elt F)) (h : (⟨S2x50000x128, .f32⟩ : BufTy).Contents (Elt F)) (e : (⟨S2x500000, .i32⟩ : BufTy).Contents (Elt F))
    (Wl Wr : (⟨S2x6x128x128, .f32⟩ : BufTy).Contents (Elt F)) (b : (⟨S2x6x128, .f32⟩ : BufTy).Contents (Elt F)) : (⟨S50000x128, .f32⟩ : BufTy).Contents (Elt F) :=
  layer (srcOf e) (dstOf e) (invDeg (dstOf e)) (out0 x h e Wl Wr b) (shapeCast _ (extractStridedSlice S1x50000x128 ![1, 0, 0] h slices_S2x50000x128_S1x50000x128_1_0_0) shapeCasts_S1x50000x128_S50000x128)
      (shapeCast _ (extractStridedSlice S1x1x128x128 ![1, 0, 0, 0] Wl slices_S2x6x128x128_S1x1x128x128_1_0_0_0) shapeCasts_S1x1x128x128_S128x128) (shapeCast _ (extractStridedSlice S1x1x128x128 ![1, 0, 0, 0] Wr slices_S2x6x128x128_S1x1x128x128_1_0_0_0) shapeCasts_S1x1x128x128_S128x128) (broadcastInDim S1x128 ![1] bcast_S128_S1x128_1 (shapeCast _ (extractStridedSlice S1x1x128 ![1, 0, 0] b slices_S2x6x128_S1x1x128_1_0_0) shapeCasts_S1x1x128_S128))
      (shapeCast _ (extractStridedSlice S1x1x128x128 ![1, 1, 0, 0] Wl slices_S2x6x128x128_S1x1x128x128_1_1_0_0) shapeCasts_S1x1x128x128_S128x128) (shapeCast _ (extractStridedSlice S1x1x128x128 ![1, 1, 0, 0] Wr slices_S2x6x128x128_S1x1x128x128_1_1_0_0) shapeCasts_S1x1x128x128_S128x128) (broadcastInDim S1x128 ![1] bcast_S128_S1x128_1 (shapeCast _ (extractStridedSlice S1x1x128 ![1, 1, 0] b slices_S2x6x128_S1x1x128_1_1_0) shapeCasts_S1x1x128_S128))
      (shapeCast _ (extractStridedSlice S1x1x128x128 ![1, 2, 0, 0] Wl slices_S2x6x128x128_S1x1x128x128_1_2_0_0) shapeCasts_S1x1x128x128_S128x128) (shapeCast _ (extractStridedSlice S1x1x128x128 ![1, 2, 0, 0] Wr slices_S2x6x128x128_S1x1x128x128_1_2_0_0) shapeCasts_S1x1x128x128_S128x128) (broadcastInDim S1x128 ![1] bcast_S128_S1x128_1 (shapeCast _ (extractStridedSlice S1x1x128 ![1, 2, 0] b slices_S2x6x128_S1x1x128_1_2_0) shapeCasts_S1x1x128_S128))
      (shapeCast _ (extractStridedSlice S1x1x128x128 ![1, 3, 0, 0] Wl slices_S2x6x128x128_S1x1x128x128_1_3_0_0) shapeCasts_S1x1x128x128_S128x128) (shapeCast _ (extractStridedSlice S1x1x128x128 ![1, 3, 0, 0] Wr slices_S2x6x128x128_S1x1x128x128_1_3_0_0) shapeCasts_S1x1x128x128_S128x128) (broadcastInDim S1x128 ![1] bcast_S128_S1x128_1 (shapeCast _ (extractStridedSlice S1x1x128 ![1, 3, 0] b slices_S2x6x128_S1x1x128_1_3_0) shapeCasts_S1x1x128_S128))
      (shapeCast _ (extractStridedSlice S1x1x128x128 ![1, 4, 0, 0] Wl slices_S2x6x128x128_S1x1x128x128_1_4_0_0) shapeCasts_S1x1x128x128_S128x128) (shapeCast _ (extractStridedSlice S1x1x128x128 ![1, 4, 0, 0] Wr slices_S2x6x128x128_S1x1x128x128_1_4_0_0) shapeCasts_S1x1x128x128_S128x128) (broadcastInDim S1x128 ![1] bcast_S128_S1x128_1 (shapeCast _ (extractStridedSlice S1x1x128 ![1, 4, 0] b slices_S2x6x128_S1x1x128_1_4_0) shapeCasts_S1x1x128_S128))
      (shapeCast _ (extractStridedSlice S1x1x128x128 ![1, 5, 0, 0] Wl slices_S2x6x128x128_S1x1x128x128_1_5_0_0) shapeCasts_S1x1x128x128_S128x128) (shapeCast _ (extractStridedSlice S1x1x128x128 ![1, 5, 0, 0] Wr slices_S2x6x128x128_S1x1x128x128_1_5_0_0) shapeCasts_S1x1x128x128_S128x128) (broadcastInDim S1x128 ![1] bcast_S128_S1x128_1 (shapeCast _ (extractStridedSlice S1x1x128 ![1, 5, 0] b slices_S2x6x128_S1x1x128_1_5_0) shapeCasts_S1x1x128_S128))

/-- The result: the two new states stacked. -/
def result (x : (⟨S50000x128, .f32⟩ : BufTy).Contents (Elt F)) (h : (⟨S2x50000x128, .f32⟩ : BufTy).Contents (Elt F)) (e : (⟨S2x500000, .i32⟩ : BufTy).Contents (Elt F))
    (Wl Wr : (⟨S2x6x128x128, .f32⟩ : BufTy).Contents (Elt F)) (b : (⟨S2x6x128, .f32⟩ : BufTy).Contents (Elt F)) : (⟨S2x50000x128, .f32⟩ : BufTy).Contents (Elt F) :=
  concatenate S2x50000x128 0 [⟨S1x50000x128, (broadcastInDim S1x50000x128 ![1, 2] bcast_S50000x128_S1x50000x128_1_2 (out0 x h e Wl Wr b))⟩, ⟨S1x50000x128, (broadcastInDim S1x50000x128 ![1, 2] bcast_S50000x128_S1x50000x128_1_2 (out1 x h e Wl Wr b))⟩] concatenates_S1x50000x128_S1x50000x128_S2x50000x128_d0

end Cert.Gru

end
-- ==== Proof.Layer0Entry.lean ====
/-
  What the first stretch of host operations leaves for the first region, array by array, as functions of the six
  launch arrays: the two rows of the edge list, the column of inverse in-degrees, the means of the input and of the
  first state over incoming edges, the first state itself, and the first four pairs of weight matrices and bias rows
  of layer 0. The weights pass through a change of float format, which at the ideal instance is the identity, so each
  weight operand is the plain slice of the launch array.
-/
import proofs.«136806_j48473000903511_1_alg».proof.Proof.RegionStmts
import proofs.«136806_j48473000903511_1_alg».proof.Proof.GruResult

noncomputable section

namespace Cert.KernelIdeal.Layer0

open Idealize.ShloMosaic Idealize.ShloMosaic.TcCoe Idealize.SL.Sem Cert.KernelIdeal Cert.KernelIdeal.Gen
open Idealize.ShloMosaic.StableHlo

variable (m : (ℓ : Loc nD τ sig) → Buf (Elt Ideal) ℓ) (ρ : Dev nD → PrngReg)

/-- The node features as core `c` is launched with them. -/
abbrev aX (c : Dev nD) : (⟨S50000x128, .f32⟩ : BufTy).Contents (Elt Ideal) := m ((c : Thread nD τ).loc main_arg0)
/-- The two layers' states at launch. -/
abbrev aH (c : Dev nD) : (⟨S2x50000x128, .f32⟩ : BufTy).Contents (Elt Ideal) := m ((c : Thread nD τ).loc main_arg1)
/-- The edge list at launch. -/
abbrev aE (c : Dev nD) : (⟨S2x500000, .i32⟩ : BufTy).Contents (Elt Ideal) := m ((c : Thread nD τ).loc main_arg2)
/-- The weights applied to the aggregated operand, at launch. -/
abbrev aWl (c : Dev nD) : (⟨S2x6x128x128, .f32⟩ : BufTy).Contents (Elt Ideal) := m ((c : Thread nD τ).loc main_arg3)
/-- The weights applied to the plain operand, at launch. -/
abbrev aWr (c : Dev nD) : (⟨S2x6x128x128, .f32⟩ : BufTy).Contents (Elt Ideal) := m ((c : Thread nD τ).loc main_arg4)
/-- The biases at launch. -/
abbrev aB (c : Dev nD) : (⟨S2x6x128, .f32⟩ : BufTy).Contents (Elt Ideal) := m ((c : Thread nD τ).loc main_arg5)

/-! ## The first region's entry contents -/

set_option maxRecDepth 8192 in
set_option maxHeartbeats 4000000 in
/-- The node features are not written. -/
theorem entry_x (c : Dev nD) : V1 (F := Ideal) m ρ c main_arg0 = (aX m c) := by
  show StableHlo.after hostOps0 (W0 m ρ c) (Proc.devRef .tc main_arg0) = _
  simp only [hostOps0]
  after_results_simp
set_option maxRecDepth 8192 in
set_option maxHeartbeats 4000000 in
/-- The biases are not written. -/
theorem entry_b (c : Dev nD) : V1 (F := Ideal) m ρ c main_arg5 = (aB m c) := by
  show StableHlo.after hostOps0 (W0 m ρ c) (Proc.devRef .tc main_arg5) = _
  simp only [hostOps0]
  after_results_simp
set_option maxRecDepth 8192 in
set_option maxHeartbeats 4000000 in
/-- The source row of the edge list. -/
theorem entry_src (c : Dev nD) : V1 (F := Ideal) m ρ c main_v1 = (Gru.srcOf (aE m c)) := by
  show StableHlo.after hostOps0 (W0 m ρ c) (Proc.devRef .tc main_v1) = _
  simp only [hostOps0]
  after_results_simp
  rfl
set_option maxRecDepth 8192 in
set_option maxHeartbeats 4000000 in
/-- The destination row of the edge list. -/
theorem entry_dst (c : Dev nD) : V1 (F := Ideal) m ρ c main_v3 = (Gru.dstOf (aE m c)) := by
  show StableHlo.after hostOps0 (W0 m ρ c) (Proc.devRef .tc main_v3) = _
  simp only [hostOps0]
  after_results_simp
  rfl
set_option maxRecDepth 8192 in
set_option maxHeartbeats 4000000 in
/-- The column of inverse in-degrees. -/
theorem entry_inv (c : Dev nD) : V1 (F := Ideal) m ρ c main_v12 = (Gru.invDeg (Gru.dstOf (aE m c))) := by
  show StableHlo.after hostOps0 (W0 m ρ c) (Proc.devRef .tc main_v12) = _
  simp only [hostOps0]
  after_results_simp
  rfl
set_option maxRecDepth 8192 in
set_option maxHeartbeats 4000000 in
/-- The first weight array after its change of format: itself. -/
theorem entry_wl (c : Dev nD) : V1 (F := Ideal) m ρ c main_v13 = (aWl m c) := by
  show StableHlo.after hostOps0 (W0 m ρ c) (Proc.devRef .tc main_v13) = _
  simp only [hostOps0]
  after_results_simp
  rfl
set_option maxRecDepth 8192 in
set_option maxHeartbeats 4000000 in
/-- The second weight array after its change of format: itself. -/
theorem entry_wr (c : Dev nD) : V1 (F := Ideal) m ρ c main_v14 = (aWr m c) := by
  show StableHlo.after hostOps0 (W0 m ρ c) (Proc.devRef .tc main_v14) = _
  simp only [hostOps0]
  after_results_simp
  rfl
set_option maxRecDepth 8192 in
set_option maxHeartbeats 4000000 in
/-- Layer 0's state. -/
theorem entry_h (c : Dev nD) : V1 (F := Ideal) m ρ c main_v16 = (shapeCast S50000x128 (extractStridedSlice S1x50000x128 ![0, 0, 0] (aH m c) slices_S2x50000x128_S1x50000x128_0_0_0) shapeCasts_S1x50000x128_S50000x128) := by
  show StableHlo.after hostOps0 (W0 m ρ c) (Proc.devRef .tc main_v16) = _
  simp only [hostOps0]
  after_results_simp
  rfl
set_option maxRecDepth 8192 in
set_option maxHeartbeats 4000000 in
/-- The mean of the node features over incoming edges. -/
theorem entry_ax (c : Dev nD) : V1 (F := Ideal) m ρ c main_v28 = Gru.aggr (Gru.srcOf (aE m c)) (Gru.dstOf (aE m c)) (Gru.invDeg (Gru.dstOf (aE m c))) (aX m c) := by
  show StableHlo.after hostOps0 (W0 m ρ c) (Proc.devRef .tc main_v28) = _
  simp only [hostOps0]
  after_results_simp
  rfl
set_option maxRecDepth 8192 in
set_option maxHeartbeats 4000000 in
/-- The mean of layer 0's state over incoming edges. -/
theorem entry_ah (c : Dev nD) : V1 (F := Ideal) m ρ c main_v40 = Gru.aggr (Gru.srcOf (aE m c)) (Gru.dstOf (aE m c)) (Gru.invDeg (Gru.dstOf (aE m c))) (shapeCast S50000x128 (extractStridedSlice S1x50000x128 ![0, 0, 0] (aH m c) slices_S2x50000x128_S1x50000x128_0_0_0) shapeCasts_S1x50000x128_S50000x128) := by
  show StableHlo.after hostOps0 (W0 m ρ c) (Proc.devRef .tc main_v40) = _
  simp only [hostOps0]
  after_results_simp
  rfl
set_option maxRecDepth 8192 in
set_option maxHeartbeats 4000000 in
/-- Weight matrix 0 of layer 0 for the aggregated operand. -/
theorem entry_wl0 (c : Dev nD) : V1 (F := Ideal) m ρ c main_v42 = (shapeCast S128x128 (extractStridedSlice S1x1x128x128 ![0, 0, 0, 0] (aWl m c) slices_S2x6x128x128_S1x1x128x128_0_0_0_0) shapeCasts_S1x1x128x128_S128x128) := by
  show StableHlo.after hostOps0 (W0 m ρ c) (Proc.devRef .tc main_v42) = _
  simp only [hostOps0]
  after_results_simp
  rfl
set_option maxRecDepth 8192 in
set_option maxHeartbeats 4000000 in
/-- Weight matrix 0 of layer 0 for the plain operand. -/
theorem entry_wr0 (c : Dev nD) : V1 (F := Ideal) m ρ c main_v44 = (shapeCast S128x128 (extractStridedSlice S1x1x128x128 ![0, 0, 0, 0] (aWr m c) slices_S2x6x128x128_S1x1x128x128_0_0_0_0) shapeCasts_S1x1x128x128_S128x128) := by
  show StableHlo.after hostOps0 (W0 m ρ c) (Proc.devRef .tc main_v44) = _
  simp only [hostOps0]
  after_results_simp
  rfl
set_option maxRecDepth 8192 in
set_option maxHeartbeats 4000000 in
/-- Bias row 0 of layer 0. -/
theorem entry_b0 (c : Dev nD) : V1 (F := Ideal) m ρ c main_v47 = (broadcastInDim S1x128 ![1] bcast_S128_S1x128_1 (shapeCast S128 (extractStridedSlice S1x1x128 ![0, 0, 0] (aB m c) slices_S2x6x128_S1x1x128_0_0_0) shapeCasts_S1x1x128_S128)) := by
  show StableHlo.after hostOps0 (W0 m ρ c) (Proc.devRef .tc main_v47) = _
  simp only [hostOps0]
  after_results_simp
  rfl
set_option maxRecDepth 8192 in
set_option maxHeartbeats 4000000 in
/-- Weight matrix 1 of layer 0 for the aggregated operand. -/
theorem entry_wl1 (c : Dev nD) : V1 (F := Ideal) m ρ c main_v49 = (shapeCast S128x128 (extractStridedSlice S1x1x128x128 ![0, 1, 0, 0] (aWl m c) slices_S2x6x128x128_S1x1x128x128_0_1_0_0) shapeCasts_S1x1x128x128_S128x128) := by
  show StableHlo.after hostOps0 (W0 m ρ c) (Proc.devRef .tc main_v49) = _
  simp only [hostOps0]
  after_results_simp
  rfl
set_option maxRecDepth 8192 in
set_option maxHeartbeats 4000000 in
/-- Weight matrix 1 of layer 0 for the plain operand. -/
theorem entry_wr1 (c : Dev nD) : V1 (F := Ideal) m ρ c main_v51 = (shapeCast S128x128 (extractStridedSlice S1x1x128x128 ![0, 1, 0, 0] (aWr m c) slices_S2x6x128x128_S1x1x128x128_0_1_0_0) shapeCasts_S1x1x128x128_S128x128) := by
  show StableHlo.after hostOps0 (W0 m ρ c) (Proc.devRef .tc main_v51) = _
  simp only [hostOps0]
  after_results_simp
  rfl
set_option maxRecDepth 8192 in
set_option maxHeartbeats 4000000 in
/-- Bias row 1 of layer 0. -/
theorem entry_b1 (c : Dev nD) : V1 (F := Ideal) m ρ c main_v54 = (broadcastInDim S1x128 ![1] bcast_S128_S1x128_1 (shapeCast S128 (extractStridedSlice S1x1x128 ![0, 1, 0] (aB m c) slices_S2x6x128_S1x1x128_0_1_0) shapeCasts_S1x1x128_S128)) := by
  show StableHlo.after hostOps0 (W0 m ρ c) (Proc.devRef .tc main_v54) = _
  simp only [hostOps0]
  after_results_simp
  rfl
set_option maxRecDepth 8192 in
set_option maxHeartbeats 4000000 in
/-- Weight matrix 2 of layer 0 for the aggregated operand. -/
theorem entry_wl2 (c : Dev nD) : V1 (F := Ideal) m ρ c main_v56 = (shapeCast S128x128 (extractStridedSlice S1x1x128x128 ![0, 2, 0, 0] (aWl m c) slices_S2x6x128x128_S1x1x128x128_0_2_0_0) shapeCasts_S1x1x128x128_S128x128) := by
  show StableHlo.after hostOps0 (W0 m ρ c) (Proc.devRef .tc main_v56) = _
  simp only [hostOps0]
  after_results_simp
  rfl
set_option maxRecDepth 8192 in
set_option maxHeartbeats 4000000 in
/-- Weight matrix 2 of layer 0 for the plain operand. -/
theorem entry_wr2 (c : Dev nD) : V1 (F := Ideal) m ρ c main_v58 = (shapeCast S128x128 (extractStridedSlice S1x1x128x128 ![0, 2, 0, 0] (aWr m c) slices_S2x6x128x128_S1x1x128x128_0_2_0_0) shapeCasts_S1x1x128x128_S128x128) := by
  show StableHlo.after hostOps0 (W0 m ρ c) (Proc.devRef .tc main_v58) = _
  simp only [hostOps0]
  after_results_simp
  rfl
set_option maxRecDepth 8192 in
set_option maxHeartbeats 4000000 in
/-- Bias row 2 of layer 0. -/
theorem entry_b2 (c : Dev nD) : V1 (F := Ideal) m ρ c main_v61 = (broadcastInDim S1x128 ![1] bcast_S128_S1x128_1 (shapeCast S128 (extractStridedSlice S1x1x128 ![0, 2, 0] (aB m c) slices_S2x6x128_S1x1x128_0_2_0) shapeCasts_S1x1x128_S128)) := by
  show StableHlo.after hostOps0 (W0 m ρ c) (Proc.devRef .tc main_v61) = _
  simp only [hostOps0]
  after_results_simp
  rfl
set_option maxRecDepth 8192 in
set_option maxHeartbeats 4000000 in
/-- Weight matrix 3 of layer 0 for the aggregated operand. -/
theorem entry_wl3 (c : Dev nD) : V1 (F := Ideal) m ρ c main_v63 = (shapeCast S128x128 (extractStridedSlice S1x1x128x128 ![0, 3, 0, 0] (aWl m c) slices_S2x6x128x128_S1x1x128x128_0_3_0_0) shapeCasts_S1x1x128x128_S128x128) := by
  show StableHlo.after hostOps0 (W0 m ρ c) (Proc.devRef .tc main_v63) = _
  simp only [hostOps0]
  after_results_simp
  rfl
set_option maxRecDepth 8192 in
set_option maxHeartbeats 4000000 in
/-- Weight matrix 3 of layer 0 for the plain operand. -/
theorem entry_wr3 (c : Dev nD) : V1 (F := Ideal) m ρ c main_v65 = (shapeCast S128x128 (extractStridedSlice S1x1x128x128 ![0, 3, 0, 0] (aWr m c) slices_S2x6x128x128_S1x1x128x128_0_3_0_0) shapeCasts_S1x1x128x128_S128x128) := by
  show StableHlo.after hostOps0 (W0 m ρ c) (Proc.devRef .tc main_v65) = _
  simp only [hostOps0]
  after_results_simp
  rfl
set_option maxRecDepth 8192 in
set_option maxHeartbeats 4000000 in
/-- Bias row 3 of layer 0. -/
theorem entry_b3 (c : Dev nD) : V1 (F := Ideal) m ρ c main_v68 = (broadcastInDim S1x128 ![1] bcast_S128_S1x128_1 (shapeCast S128 (extractStridedSlice S1x1x128 ![0, 3, 0] (aB m c) slices_S2x6x128_S1x1x128_0_3_0) shapeCasts_S1x1x128_S128)) := by
  show StableHlo.after hostOps0 (W0 m ρ c) (Proc.devRef .tc main_v68) = _
  simp only [hostOps0]
  after_results_simp
  rfl

end Cert.KernelIdeal.Layer0

end
-- ==== Proof.Layer0.lean ====
/-
  Layer 0 threaded through the program: from the launch arrays to the array the second region leaves.

  The first stretch of host operations prepares the first region's operands (Layer0Entry). The first region leaves the
  update gate `z` and the product `r · h` of the reset gate with the state; it reads its other arrays without writing
  them, and every array that is not one of its windows is untouched. The second stretch of host operations takes the
  mean of `r · h` over incoming edges and cuts the last two pairs of weight matrices and bias rows; it writes none of
  the arrays the second region reads besides. The second region then leaves the layer's new state, which is the
  specification's layer function of the launch arrays once every operand is replaced by what it was shown to hold.
-/
import proofs.«136806_j48473000903511_1_alg».proof.Proof.Layer0Entry

noncomputable section

namespace Cert.KernelIdeal.Layer0

open Idealize.ShloMosaic Idealize.ShloMosaic.TcCoe Idealize.SL.Sem Cert.KernelIdeal Cert.KernelIdeal.Gen
open Idealize.ShloMosaic.StableHlo

variable (m : (ℓ : Loc nD τ sig) → Buf (Elt Ideal) ℓ) (ρ : Dev nD → PrngReg)

/-! ## When the first region has finished

An array that is no window of the region holds what it held at entry; an array the region reads through an input
window is handed back as it was found; the two result arrays hold the gates, by the region's own statement. -/

/-- The source row is not a window of the first region. -/
theorem mid_src (c : Dev nD) : W2 (F := Ideal) m ρ c (Proc.devRef .tc main_v1) = (Gru.srcOf (aE m c)) :=
  (W2_of_ne m ρ c main_v1 (by decide)).trans (entry_src m ρ c)
/-- The destination row is not a window of the first region. -/
theorem mid_dst (c : Dev nD) : W2 (F := Ideal) m ρ c (Proc.devRef .tc main_v3) = (Gru.dstOf (aE m c)) :=
  (W2_of_ne m ρ c main_v3 (by decide)).trans (entry_dst m ρ c)
/-- The inverse in-degrees are not a window of the first region. -/
theorem mid_inv (c : Dev nD) : W2 (F := Ideal) m ρ c (Proc.devRef .tc main_v12) = (Gru.invDeg (Gru.dstOf (aE m c))) :=
  (W2_of_ne m ρ c main_v12 (by decide)).trans (entry_inv m ρ c)
/-- The whole first weight array is not a window of the first region. -/
theorem mid_wl (c : Dev nD) : W2 (F := Ideal) m ρ c (Proc.devRef .tc main_v13) = (aWl m c) :=
  (W2_of_ne m ρ c main_v13 (by decide)).trans (entry_wl m ρ c)
/-- The whole second weight array is not a window of the first region. -/
theorem mid_wr (c : Dev nD) : W2 (F := Ideal) m ρ c (Proc.devRef .tc main_v14) = (aWr m c) :=
  (W2_of_ne m ρ c main_v14 (by decide)).trans (entry_wr m ρ c)
/-- The biases are not a window of the first region. -/
theorem mid_b (c : Dev nD) : W2 (F := Ideal) m ρ c (Proc.devRef .tc main_arg5) = (aB m c) :=
  (W2_of_ne m ρ c main_arg5 (by decide)).trans (entry_b m ρ c)
/-- The mean of the node features is read, not written. -/
theorem mid_ax (c : Dev nD) : W2 (F := Ideal) m ρ c (Proc.devRef .tc main_v28) = (Gru.aggr (Gru.srcOf (aE m c)) (Gru.dstOf (aE m c)) (Gru.invDeg (Gru.dstOf (aE m c))) (aX m c)) :=
  ((W2_arr m ρ c 0).trans (((dat0 (V1 m ρ) c).arrAt_in 0 rfl _).trans (A_eq0 (V1 m ρ) c 0))).trans (entry_ax m ρ c)
/-- The node features are read, not written. -/
theorem mid_x (c : Dev nD) : W2 (F := Ideal) m ρ c (Proc.devRef .tc main_arg0) = (aX m c) :=
  ((W2_arr m ρ c 1).trans (((dat0 (V1 m ρ) c).arrAt_in 1 rfl _).trans (A_eq0 (V1 m ρ) c 1))).trans (entry_x m ρ c)
/-- Layer 0's state is read, not written. -/
theorem mid_h (c : Dev nD) : W2 (F := Ideal) m ρ c (Proc.devRef .tc main_v16) = (shapeCast S50000x128 (extractStridedSlice S1x50000x128 ![0, 0, 0] (aH m c) slices_S2x50000x128_S1x50000x128_0_0_0) shapeCasts_S1x50000x128_S50000x128) :=
  ((W2_arr m ρ c 3).trans (((dat0 (V1 m ρ) c).arrAt_in 3 rfl _).trans (A_eq0 (V1 m ρ) c 3))).trans (entry_h m ρ c)

/-- The update gate `z` of layer 0, as a function of the launch arrays. -/
theorem mid_z (hZr : Regions.Zr0) (c : Dev nD) : W2 (F := Ideal) m ρ c (Proc.devRef .tc main_v69_0) = (Gru.zOf (Gru.aggr (Gru.srcOf (aE m c)) (Gru.dstOf (aE m c)) (Gru.invDeg (Gru.dstOf (aE m c))) (aX m c)) (aX m c) (Gru.aggr (Gru.srcOf (aE m c)) (Gru.dstOf (aE m c)) (Gru.invDeg (Gru.dstOf (aE m c))) (shapeCast S50000x128 (extractStridedSlice S1x50000x128 ![0, 0, 0] (aH m c) slices_S2x50000x128_S1x50000x128_0_0_0) shapeCasts_S1x50000x128_S50000x128)) (shapeCast S50000x128 (extractStridedSlice S1x50000x128 ![0, 0, 0] (aH m c) slices_S2x50000x128_S1x50000x128_0_0_0) shapeCasts_S1x50000x128_S50000x128) (shapeCast S128x128 (extractStridedSlice S1x1x128x128 ![0, 0, 0, 0] (aWl m c) slices_S2x6x128x128_S1x1x128x128_0_0_0_0) shapeCasts_S1x1x128x128_S128x128) (shapeCast S128x128 (extractStridedSlice S1x1x128x128 ![0, 0, 0, 0] (aWr m c) slices_S2x6x128x128_S1x1x128x128_0_0_0_0) shapeCasts_S1x1x128x128_S128x128) (broadcastInDim S1x128 ![1] bcast_S128_S1x128_1 (shapeCast S128 (extractStridedSlice S1x1x128 ![0, 0, 0] (aB m c) slices_S2x6x128_S1x1x128_0_0_0) shapeCasts_S1x1x128_S128)) (shapeCast S128x128 (extractStridedSlice S1x1x128x128 ![0, 1, 0, 0] (aWl m c) slices_S2x6x128x128_S1x1x128x128_0_1_0_0) shapeCasts_S1x1x128x128_S128x128) (shapeCast S128x128 (extractStridedSlice S1x1x128x128 ![0, 1, 0, 0] (aWr m c) slices_S2x6x128x128_S1x1x128x128_0_1_0_0) shapeCasts_S1x1x128x128_S128x128) (broadcastInDim S1x128 ![1] bcast_S128_S1x128_1 (shapeCast S128 (extractStridedSlice S1x1x128 ![0, 1, 0] (aB m c) slices_S2x6x128_S1x1x128_0_1_0) shapeCasts_S1x1x128_S128))) := by
  have h := (hZr (V1 (F := Ideal) m ρ) c).1
  rw [entry_ax m ρ c, entry_x m ρ c, entry_ah m ρ c, entry_h m ρ c, entry_wl0 m ρ c, entry_wr0 m ρ c, entry_b0 m ρ c,
    entry_wl1 m ρ c, entry_wr1 m ρ c, entry_b1 m ρ c] at h
  exact (W2_arr m ρ c 16).trans h

/-- The reset gate times the state, `r · h`, of layer 0, as a function of the launch arrays. -/
theorem mid_rh (hZr : Regions.Zr0) (c : Dev nD) : W2 (F := Ideal) m ρ c (Proc.devRef .tc main_v69_1) = (Gru.rhOf (Gru.aggr (Gru.srcOf (aE m c)) (Gru.dstOf (aE m c)) (Gru.invDeg (Gru.dstOf (aE m c))) (aX m c)) (aX m c) (Gru.aggr (Gru.srcOf (aE m c)) (Gru.dstOf (aE m c)) (Gru.invDeg (Gru.dstOf (aE m c))) (shapeCast S50000x128 (extractStridedSlice S1x50000x128 ![0, 0, 0] (aH m c) slices_S2x50000x128_S1x50000x128_0_0_0) shapeCasts_S1x50000x128_S50000x128)) (shapeCast S50000x128 (extractStridedSlice S1x50000x128 ![0, 0, 0] (aH m c) slices_S2x50000x128_S1x50000x128_0_0_0) shapeCasts_S1x50000x128_S50000x128) (shapeCast S128x128 (extractStridedSlice S1x1x128x128 ![0, 2, 0, 0] (aWl m c) slices_S2x6x128x128_S1x1x128x128_0_2_0_0) shapeCasts_S1x1x128x128_S128x128) (shapeCast S128x128 (extractStridedSlice S1x1x128x128 ![0, 2, 0, 0] (aWr m c) slices_S2x6x128x128_S1x1x128x128_0_2_0_0) shapeCasts_S1x1x128x128_S128x128) (broadcastInDim S1x128 ![1] bcast_S128_S1x128_1 (shapeCast S128 (extractStridedSlice S1x1x128 ![0, 2, 0] (aB m c) slices_S2x6x128_S1x1x128_0_2_0) shapeCasts_S1x1x128_S128)) (shapeCast S128x128 (extractStridedSlice S1x1x128x128 ![0, 3, 0, 0] (aWl m c) slices_S2x6x128x128_S1x1x128x128_0_3_0_0) shapeCasts_S1x1x128x128_S128x128) (shapeCast S128x128 (extractStridedSlice S1x1x128x128 ![0, 3, 0, 0] (aWr m c) slices_S2x6x128x128_S1x1x128x128_0_3_0_0) shapeCasts_S1x1x128x128_S128x128) (broadcastInDim S1x128 ![1] bcast_S128_S1x128_1 (shapeCast S128 (extractStridedSlice S1x1x128 ![0, 3, 0] (aB m c) slices_S2x6x128_S1x1x128_0_3_0) shapeCasts_S1x1x128_S128))) := by
  have h := (hZr (V1 (F := Ideal) m ρ) c).2
  rw [entry_ax m ρ c, entry_x m ρ c, entry_ah m ρ c, entry_h m ρ c, entry_wl2 m ρ c, entry_wr2 m ρ c, entry_b2 m ρ c,
    entry_wl3 m ρ c, entry_wr3 m ρ c, entry_b3 m ρ c] at h
  exact (W2_arr m ρ c 17).trans h

/-! ## The second stretch of host operations, from any contents

Each array the second region reads, after the stretch, in terms of the contents `V0` before it: five are not written by
the stretch; the mean of `r · h` is the aggregation of the array holding `r · h`; the weight operands are slices of the
two weight arrays and of the biases. -/

set_option maxRecDepth 8192 in
set_option maxHeartbeats 4000000 in
/-- The stretch does not write the mean of the node features. -/
theorem ops1_ax (V0 : Valuation τ sig (Elt Ideal)) :
    StableHlo.after (hostOps1 (F := Ideal)) V0 (Proc.devRef .tc main_v28) = V0 (Proc.devRef .tc main_v28) := by
  simp only [hostOps1]
  after_results_simp
set_option maxRecDepth 8192 in
set_option maxHeartbeats 4000000 in
/-- The stretch does not write the node features. -/
theorem ops1_x (V0 : Valuation τ sig (Elt Ideal)) :
    StableHlo.after (hostOps1 (F := Ideal)) V0 (Proc.devRef .tc main_arg0) = V0 (Proc.devRef .tc main_arg0) := by
  simp only [hostOps1]
  after_results_simp
set_option maxRecDepth 8192 in
set_option maxHeartbeats 4000000 in
/-- The stretch does not write `r · h`. -/
theorem ops1_rh (V0 : Valuation τ sig (Elt Ideal)) :
    StableHlo.after (hostOps1 (F := Ideal)) V0 (Proc.devRef .tc main_v69_1) = V0 (Proc.devRef .tc main_v69_1) := by
  simp only [hostOps1]
  after_results_simp
set_option maxRecDepth 8192 in
set_option maxHeartbeats 4000000 in
/-- The stretch does not write `z`. -/
theorem ops1_z (V0 : Valuation τ sig (Elt Ideal)) :
    StableHlo.after (hostOps1 (F := Ideal)) V0 (Proc.devRef .tc main_v69_0) = V0 (Proc.devRef .tc main_v69_0) := by
  simp only [hostOps1]
  after_results_simp
set_option maxRecDepth 8192 in
set_option maxHeartbeats 4000000 in
/-- The stretch does not write the state. -/
theorem ops1_h (V0 : Valuation τ sig (Elt Ideal)) :
    StableHlo.after (hostOps1 (F := Ideal)) V0 (Proc.devRef .tc main_v16) = V0 (Proc.devRef .tc main_v16) := by
  simp only [hostOps1]
  after_results_simp
set_option maxRecDepth 8192 in
set_option maxHeartbeats 4000000 in
/-- The mean over incoming edges of the array holding `r · h`. -/
theorem ops1_arh (V0 : Valuation τ sig (Elt Ideal)) :
    StableHlo.after (hostOps1 (F := Ideal)) V0 (Proc.devRef .tc main_v81) = Gru.aggr (V0 (Proc.devRef .tc main_v1)) (V0 (Proc.devRef .tc main_v3)) (V0 (Proc.devRef .tc main_v12)) (V0 (Proc.devRef .tc main_v69_1)) := by
  simp only [hostOps1]
  after_results_simp
  rfl
set_option maxRecDepth 8192 in
set_option maxHeartbeats 4000000 in
/-- Weight matrix 4 of layer 0 for the aggregated operand. -/
theorem ops1_wl4 (V0 : Valuation τ sig (Elt Ideal)) :
    StableHlo.after (hostOps1 (F := Ideal)) V0 (Proc.devRef .tc main_v83) = (shapeCast S128x128 (extractStridedSlice S1x1x128x128 ![0, 4, 0, 0] (V0 (Proc.devRef .tc main_v13)) slices_S2x6x128x128_S1x1x128x128_0_4_0_0) shapeCasts_S1x1x128x128_S128x128) := by
  simp only [hostOps1]
  after_results_simp
  rfl
set_option maxRecDepth 8192 in
set_option maxHeartbeats 4000000 in
/-- Weight matrix 4 of layer 0 for the plain operand. -/
theorem ops1_wr4 (V0 : Valuation τ sig (Elt Ideal)) :
    StableHlo.after (hostOps1 (F := Ideal)) V0 (Proc.devRef .tc main_v85) = (shapeCast S128x128 (extractStridedSlice S1x1x128x128 ![0, 4, 0, 0] (V0 (Proc.devRef .tc main_v14)) slices_S2x6x128x128_S1x1x128x128_0_4_0_0) shapeCasts_S1x1x128x128_S128x128) := by
  simp only [hostOps1]
  after_results_simp
  rfl
set_option maxRecDepth 8192 in
set_option maxHeartbeats 4000000 in
/-- Bias row 4 of layer 0. -/
theorem ops1_b4 (V0 : Valuation τ sig (Elt Ideal)) :
    StableHlo.after (hostOps1 (F := Ideal)) V0 (Proc.devRef .tc main_v88) = (broadcastInDim S1x128 ![1] bcast_S128_S1x128_1 (shapeCast S128 (extractStridedSlice S1x1x128 ![0, 4, 0] (V0 (Proc.devRef .tc main_arg5)) slices_S2x6x128_S1x1x128_0_4_0) shapeCasts_S1x1x128_S128)) := by
  simp only [hostOps1]
  after_results_simp
  rfl
set_option maxRecDepth 8192 in
set_option maxHeartbeats 4000000 in
/-- Weight matrix 5 of layer 0 for the aggregated operand. -/
theorem ops1_wl5 (V0 : Valuation τ sig (Elt Ideal)) :
    StableHlo.after (hostOps1 (F := Ideal)) V0 (Proc.devRef .tc main_v90) = (shapeCast S128x128 (extractStridedSlice S1x1x128x128 ![0, 5, 0, 0] (V0 (Proc.devRef .tc main_v13)) slices_S2x6x128x128_S1x1x128x128_0_5_0_0) shapeCasts_S1x1x128x128_S128x128) := by
  simp only [hostOps1]
  after_results_simp
  rfl
set_option maxRecDepth 8192 in
set_option maxHeartbeats 4000000 in
/-- Weight matrix 5 of layer 0 for the plain operand. -/
theorem ops1_wr5 (V0 : Valuation τ sig (Elt Ideal)) :
    StableHlo.after (hostOps1 (F := Ideal)) V0 (Proc.devRef .tc main_v92) = (shapeCast S128x128 (extractStridedSlice S1x1x128x128 ![0, 5, 0, 0] (V0 (Proc.devRef .tc main_v14)) slices_S2x6x128x128_S1x1x128x128_0_5_0_0) shapeCasts_S1x1x128x128_S128x128) := by
  simp only [hostOps1]
  after_results_simp
  rfl
set_option maxRecDepth 8192 in
set_option maxHeartbeats 4000000 in
/-- Bias row 5 of layer 0. -/
theorem ops1_b5 (V0 : Valuation τ sig (Elt Ideal)) :
    StableHlo.after (hostOps1 (F := Ideal)) V0 (Proc.devRef .tc main_v95) = (broadcastInDim S1x128 ![1] bcast_S128_S1x128_1 (shapeCast S128 (extractStridedSlice S1x1x128 ![0, 5, 0] (V0 (Proc.devRef .tc main_arg5)) slices_S2x6x128_S1x1x128_0_5_0) shapeCasts_S1x1x128_S128)) := by
  simp only [hostOps1]
  after_results_simp
  rfl

/-! ## The second region's entry contents, as functions of the launch arrays -/

theorem entry1_ax (c : Dev nD) : V3 (F := Ideal) m ρ c main_v28 = (Gru.aggr (Gru.srcOf (aE m c)) (Gru.dstOf (aE m c)) (Gru.invDeg (Gru.dstOf (aE m c))) (aX m c)) :=
  (ops1_ax (W2 m ρ c)).trans (mid_ax m ρ c)
theorem entry1_x (c : Dev nD) : V3 (F := Ideal) m ρ c main_arg0 = (aX m c) :=
  (ops1_x (W2 m ρ c)).trans (mid_x m ρ c)
theorem entry1_h (c : Dev nD) : V3 (F := Ideal) m ρ c main_v16 = (shapeCast S50000x128 (extractStridedSlice S1x50000x128 ![0, 0, 0] (aH m c) slices_S2x50000x128_S1x50000x128_0_0_0) shapeCasts_S1x50000x128_S50000x128) :=
  (ops1_h (W2 m ρ c)).trans (mid_h m ρ c)
theorem entry1_z (hZr : Regions.Zr0) (c : Dev nD) : V3 (F := Ideal) m ρ c main_v69_0 = (Gru.zOf (Gru.aggr (Gru.srcOf (aE m c)) (Gru.dstOf (aE m c)) (Gru.invDeg (Gru.dstOf (aE m c))) (aX m c)) (aX m c) (Gru.aggr (Gru.srcOf (aE m c)) (Gru.dstOf (aE m c)) (Gru.invDeg (Gru.dstOf (aE m c))) (shapeCast S50000x128 (extractStridedSlice S1x50000x128 ![0, 0, 0] (aH m c) slices_S2x50000x128_S1x50000x128_0_0_0) shapeCasts_S1x50000x128_S50000x128)) (shapeCast S50000x128 (extractStridedSlice S1x50000x128 ![0, 0, 0] (aH m c) slices_S2x50000x128_S1x50000x128_0_0_0) shapeCasts_S1x50000x128_S50000x128) (shapeCast S128x128 (extractStridedSlice S1x1x128x128 ![0, 0, 0, 0] (aWl m c) slices_S2x6x128x128_S1x1x128x128_0_0_0_0) shapeCasts_S1x1x128x128_S128x128) (shapeCast S128x128 (extractStridedSlice S1x1x128x128 ![0, 0, 0, 0] (aWr m c) slices_S2x6x128x128_S1x1x128x128_0_0_0_0) shapeCasts_S1x1x128x128_S128x128) (broadcastInDim S1x128 ![1] bcast_S128_S1x128_1 (shapeCast S128 (extractStridedSlice S1x1x128 ![0, 0, 0] (aB m c) slices_S2x6x128_S1x1x128_0_0_0) shapeCasts_S1x1x128_S128)) (shapeCast S128x128 (extractStridedSlice S1x1x128x128 ![0, 1, 0, 0] (aWl m c) slices_S2x6x128x128_S1x1x128x128_0_1_0_0) shapeCasts_S1x1x128x128_S128x128) (shapeCast S128x128 (extractStridedSlice S1x1x128x128 ![0, 1, 0, 0] (aWr m c) slices_S2x6x128x128_S1x1x128x128_0_1_0_0) shapeCasts_S1x1x128x128_S128x128) (broadcastInDim S1x128 ![1] bcast_S128_S1x128_1 (shapeCast S128 (extractStridedSlice S1x1x128 ![0, 1, 0] (aB m c) slices_S2x6x128_S1x1x128_0_1_0) shapeCasts_S1x1x128_S128))) :=
  (ops1_z (W2 m ρ c)).trans (mid_z m ρ hZr c)
theorem entry1_rh (hZr : Regions.Zr0) (c : Dev nD) : V3 (F := Ideal) m ρ c main_v69_1 = (Gru.rhOf (Gru.aggr (Gru.srcOf (aE m c)) (Gru.dstOf (aE m c)) (Gru.invDeg (Gru.dstOf (aE m c))) (aX m c)) (aX m c) (Gru.aggr (Gru.srcOf (aE m c)) (Gru.dstOf (aE m c)) (Gru.invDeg (Gru.dstOf (aE m c))) (shapeCast S50000x128 (extractStridedSlice S1x50000x128 ![0, 0, 0] (aH m c) slices_S2x50000x128_S1x50000x128_0_0_0) shapeCasts_S1x50000x128_S50000x128)) (shapeCast S50000x128 (extractStridedSlice S1x50000x128 ![0, 0, 0] (aH m c) slices_S2x50000x128_S1x50000x128_0_0_0) shapeCasts_S1x50000x128_S50000x128) (shapeCast S128x128 (extractStridedSlice S1x1x128x128 ![0, 2, 0, 0] (aWl m c) slices_S2x6x128x128_S1x1x128x128_0_2_0_0) shapeCasts_S1x1x128x128_S128x128) (shapeCast S128x128 (extractStridedSlice S1x1x128x128 ![0, 2, 0, 0] (aWr m c) slices_S2x6x128x128_S1x1x128x128_0_2_0_0) shapeCasts_S1x1x128x128_S128x128) (broadcastInDim S1x128 ![1] bcast_S128_S1x128_1 (shapeCast S128 (extractStridedSlice S1x1x128 ![0, 2, 0] (aB m c) slices_S2x6x128_S1x1x128_0_2_0) shapeCasts_S1x1x128_S128)) (shapeCast S128x128 (extractStridedSlice S1x1x128x128 ![0, 3, 0, 0] (aWl m c) slices_S2x6x128x128_S1x1x128x128_0_3_0_0) shapeCasts_S1x1x128x128_S128x128) (shapeCast S128x128 (extractStridedSlice S1x1x128x128 ![0, 3, 0, 0] (aWr m c) slices_S2x6x128x128_S1x1x128x128_0_3_0_0) shapeCasts_S1x1x128x128_S128x128) (broadcastInDim S1x128 ![1] bcast_S128_S1x128_1 (shapeCast S128 (extractStridedSlice S1x1x128 ![0, 3, 0] (aB m c) slices_S2x6x128_S1x1x128_0_3_0) shapeCasts_S1x1x128_S128))) :=
  (ops1_rh (W2 m ρ c)).trans (mid_rh m ρ hZr c)
/-- The mean of `r · h` over incoming edges. -/
theorem entry1_arh (hZr : Regions.Zr0) (c : Dev nD) : V3 (F := Ideal) m ρ c main_v81 = (Gru.aggr (Gru.srcOf (aE m c)) (Gru.dstOf (aE m c)) (Gru.invDeg (Gru.dstOf (aE m c))) (Gru.rhOf (Gru.aggr (Gru.srcOf (aE m c)) (Gru.dstOf (aE m c)) (Gru.invDeg (Gru.dstOf (aE m c))) (aX m c)) (aX m c) (Gru.aggr (Gru.srcOf (aE m c)) (Gru.dstOf (aE m c)) (Gru.invDeg (Gru.dstOf (aE m c))) (shapeCast S50000x128 (extractStridedSlice S1x50000x128 ![0, 0, 0] (aH m c) slices_S2x50000x128_S1x50000x128_0_0_0) shapeCasts_S1x50000x128_S50000x128)) (shapeCast S50000x128 (extractStridedSlice S1x50000x128 ![0, 0, 0] (aH m c) slices_S2x50000x128_S1x50000x128_0_0_0) shapeCasts_S1x50000x128_S50000x128) (shapeCast S128x128 (extractStridedSlice S1x1x128x128 ![0, 2, 0, 0] (aWl m c) slices_S2x6x128x128_S1x1x128x128_0_2_0_0) shapeCasts_S1x1x128x128_S128x128) (shapeCast S128x128 (extractStridedSlice S1x1x128x128 ![0, 2, 0, 0] (aWr m c) slices_S2x6x128x128_S1x1x128x128_0_2_0_0) shapeCasts_S1x1x128x128_S128x128) (broadcastInDim S1x128 ![1] bcast_S128_S1x128_1 (shapeCast S128 (extractStridedSlice S1x1x128 ![0, 2, 0] (aB m c) slices_S2x6x128_S1x1x128_0_2_0) shapeCasts_S1x1x128_S128)) (shapeCast S128x128 (extractStridedSlice S1x1x128x128 ![0, 3, 0, 0] (aWl m c) slices_S2x6x128x128_S1x1x128x128_0_3_0_0) shapeCasts_S1x1x128x128_S128x128) (shapeCast S128x128 (extractStridedSlice S1x1x128x128 ![0, 3, 0, 0] (aWr m c) slices_S2x6x128x128_S1x1x128x128_0_3_0_0) shapeCasts_S1x1x128x128_S128x128) (broadcastInDim S1x128 ![1] bcast_S128_S1x128_1 (shapeCast S128 (extractStridedSlice S1x1x128 ![0, 3, 0] (aB m c) slices_S2x6x128_S1x1x128_0_3_0) shapeCasts_S1x1x128_S128)))) :=
  (ops1_arh (W2 m ρ c)).trans (by rw [mid_src m ρ c, mid_dst m ρ c, mid_inv m ρ c, mid_rh m ρ hZr c])
theorem entry1_wl4 (c : Dev nD) : V3 (F := Ideal) m ρ c main_v83 = (shapeCast S128x128 (extractStridedSlice S1x1x128x128 ![0, 4, 0, 0] (aWl m c) slices_S2x6x128x128_S1x1x128x128_0_4_0_0) shapeCasts_S1x1x128x128_S128x128) :=
  (ops1_wl4 (W2 m ρ c)).trans (by rw [mid_wl m ρ c])
theorem entry1_wr4 (c : Dev nD) : V3 (F := Ideal) m ρ c main_v85 = (shapeCast S128x128 (extractStridedSlice S1x1x128x128 ![0, 4, 0, 0] (aWr m c) slices_S2x6x128x128_S1x1x128x128_0_4_0_0) shapeCasts_S1x1x128x128_S128x128) :=
  (ops1_wr4 (W2 m ρ c)).trans (by rw [mid_wr m ρ c])
theorem entry1_b4 (c : Dev nD) : V3 (F := Ideal) m ρ c main_v88 = (broadcastInDim S1x128 ![1] bcast_S128_S1x128_1 (shapeCast S128 (extractStridedSlice S1x1x128 ![0, 4, 0] (aB m c) slices_S2x6x128_S1x1x128_0_4_0) shapeCasts_S1x1x128_S128)) :=
  (ops1_b4 (W2 m ρ c)).trans (by rw [mid_b m ρ c])
theorem entry1_wl5 (c : Dev nD) : V3 (F := Ideal) m ρ c main_v90 = (shapeCast S128x128 (extractStridedSlice S1x1x128x128 ![0, 5, 0, 0] (aWl m c) slices_S2x6x128x128_S1x1x128x128_0_5_0_0) shapeCasts_S1x1x128x128_S128x128) :=
  (ops1_wl5 (W2 m ρ c)).trans (by rw [mid_wl m ρ c])
theorem entry1_wr5 (c : Dev nD) : V3 (F := Ideal) m ρ c main_v92 = (shapeCast S128x128 (extractStridedSlice S1x1x128x128 ![0, 5, 0, 0] (aWr m c) slices_S2x6x128x128_S1x1x128x128_0_5_0_0) shapeCasts_S1x1x128x128_S128x128) :=
  (ops1_wr5 (W2 m ρ c)).trans (by rw [mid_wr m ρ c])
theorem entry1_b5 (c : Dev nD) : V3 (F := Ideal) m ρ c main_v95 = (broadcastInDim S1x128 ![1] bcast_S128_S1x128_1 (shapeCast S128 (extractStridedSlice S1x1x128 ![0, 5, 0] (aB m c) slices_S2x6x128_S1x1x128_0_5_0) shapeCasts_S1x1x128_S128)) :=
  (ops1_b5 (W2 m ρ c)).trans (by rw [mid_b m ρ c])

/-! ## Layer 0's new state -/

/-- When the second region has finished, its result array holds the specification's layer-0 state of the six launch
    arrays: the region's own statement, with each operand replaced by what it holds at the region's entry, is the
    layer function unfolded. -/
theorem out0_eq (hZr : Regions.Zr0) (hH : Regions.H1) (c : Dev nD) :
    V4 (F := Ideal) m ρ c main_v96 = Gru.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h := hH (V3 (F := Ideal) m ρ) c
  rw [entry1_ax m ρ c, entry1_x m ρ c, entry1_arh m ρ hZr c, entry1_rh m ρ hZr c, entry1_z m ρ hZr c, entry1_h m ρ c,
    entry1_wl4 m ρ c, entry1_wr4 m ρ c, entry1_b4 m ρ c, entry1_wl5 m ρ c, entry1_wr5 m ρ c, entry1_b5 m ρ c] at h
  exact (W4_arr m ρ c 12).trans h

end Cert.KernelIdeal.Layer0

end
-- ==== Proof.Layer1Carry.lean ====
/-
  Layer 1 reads, besides what its own host operations compute, five arrays that the first stretch of host operations
  wrote — the two rows of the edge list, the column 1 / max(deg, 1), and the two weight arrays in their narrower format —
  and three of the arguments. None of them is an operand of any kernel launch and no later host operation writes them,
  so each still holds, when layer 1 starts and again between its two launches, what it held after the first stretch
  (or at the start): this module says so, buffer by buffer.
-/
import proofs.«136806_j48473000903511_1_alg».proof.Proof.RegionStmts
import proofs.«136806_j48473000903511_1_alg».proof.Proof.GruResult

noncomputable section

namespace Cert.KernelIdeal.Layer1

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-! ## What each stretch of host operations writes, and that it leaves every other buffer alone -/

/-- The buffers that host stretch 0 writes. -/
abbrev hostOps0_W : List (Ref sig .tc) := [main_v0, main_v1, main_v2, main_v3, main_cst, main_v4, main_cst_0, main_v5, main_v6, main_v7, main_cst_1, main_v8, main_v9, main_cst_2, main_v10, main_v11, main_v12, main_v13, main_v14, main_v15, main_v16, main_c, main_v17, main_v18, main_c_3, main_v19, main_v20, main_v21, main_v22, main_v23, main_cst_4, main_v24, main_v25, main_v26, main_v27, main_v28, main_c_5, main_v29, main_v30, main_c_6, main_v31, main_v32, main_v33, main_v34, main_v35, main_cst_7, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68]

set_option maxRecDepth 8192 in
set_option maxHeartbeats 2000000 in
theorem hostOps0_writes : (hostOps0 : List (HloOp τ sig (Elt Ideal))).Forall fun op => op.writes ⊆ (hostOps0_W.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that host stretch 0 does not write keeps its contents through it. -/
theorem keep0 (c : Dev nD) (r : Ref sig .tc) (h : r ∉ hostOps0_W) :
    W1 (F := Ideal) m ρ c (Proc.devRef .tc r) = W0 m ρ c (Proc.devRef .tc r) :=
  StableHlo.after_of_writes_sub hostOps0 _ hostOps0_writes h

/-- The buffers that host stretch 1 writes. -/
abbrev hostOps1_W : List (Ref sig .tc) := [main_c_8, main_v70, main_v71, main_c_9, main_v72, main_v73, main_v74, main_v75, main_v76, main_cst_10, main_v77, main_v78, main_v79, main_v80, main_v81, main_v82, main_v83, main_v84, main_v85, main_v86, main_v87, main_v88, main_v89, main_v90, main_v91, main_v92, main_v93, main_v94, main_v95]

set_option maxRecDepth 8192 in
set_option maxHeartbeats 2000000 in
theorem hostOps1_writes : (hostOps1 : List (HloOp τ sig (Elt Ideal))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that host stretch 1 does not write keeps its contents through it. -/
theorem keep1 (c : Dev nD) (r : Ref sig .tc) (h : r ∉ hostOps1_W) :
    W3 (F := Ideal) m ρ c (Proc.devRef .tc r) = W2 m ρ c (Proc.devRef .tc r) :=
  StableHlo.after_of_writes_sub hostOps1 _ hostOps1_writes h

/-- The buffers that host stretch 2 writes. -/
abbrev hostOps2_W : List (Ref sig .tc) := [main_v97, main_v98, main_c_11, main_v99, main_v100, main_c_12, main_v101, main_v102, main_v103, main_v104, main_v105, main_cst_13, main_v106, main_v107, main_v108, main_v109, main_v110, main_c_14, main_v111, main_v112, main_c_15, main_v113, main_v114, main_v115, main_v116, main_v117, main_cst_16, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150]

set_option maxRecDepth 8192 in
set_option maxHeartbeats 2000000 in
theorem hostOps2_writes : (hostOps2 : List (HloOp τ sig (Elt Ideal))).Forall fun op => op.writes ⊆ (hostOps2_W.map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that host stretch 2 does not write keeps its contents through it. -/
theorem keep2 (c : Dev nD) (r : Ref sig .tc) (h : r ∉ hostOps2_W) :
    W5 (F := Ideal) m ρ c (Proc.devRef .tc r) = W4 m ρ c (Proc.devRef .tc r) :=
  StableHlo.after_of_writes_sub hostOps2 _ hostOps2_writes h

/-- The buffers that host stretch 3 writes. -/
abbrev hostOps3_W : List (Ref sig .tc) := [main_c_17, main_v152, main_v153, main_c_18, main_v154, main_v155, main_v156, main_v157, main_v158, main_cst_19, main_v159, main_v160, main_v161, main_v162, main_v163, main_v164, main_v165, main_v166, main_v167, main_v168, main_v169, main_v170, main_v171, main_v172, main_v173, main_v174, main_v175, main_v176, main_v177]

set_option maxRecDepth 8192 in
set_option maxHeartbeats 2000000 in
theorem hostOps3_writes : (hostOps3 : List (HloOp τ sig (Elt Ideal))).Forall fun op => op.writes ⊆ (hostOps3_W.map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that host stretch 3 does not write keeps its contents through it. -/
theorem keep3 (c : Dev nD) (r : Ref sig .tc) (h : r ∉ hostOps3_W) :
    W7 (F := Ideal) m ρ c (Proc.devRef .tc r) = W6 m ρ c (Proc.devRef .tc r) :=
  StableHlo.after_of_writes_sub hostOps3 _ hostOps3_writes h

/-! ## After the first stretch: the edge rows, the inverse degrees, the weights -/

set_option maxRecDepth 8192 in
set_option maxHeartbeats 2000000 in
theorem W1_v1 (c : Dev nD) :
    W1 (F := Ideal) m ρ c (Proc.devRef .tc main_v1) = (Gru.srcOf (m ((c : Thread nD τ).loc main_arg2))) := by
  show StableHlo.after hostOps0 (W0 (F := Ideal) m ρ c) (Proc.devRef .tc main_v1) = _
  simp only [hostOps0]
  after_results_simp
  rfl

set_option maxRecDepth 8192 in
set_option maxHeartbeats 2000000 in
theorem W1_v3 (c : Dev nD) :
    W1 (F := Ideal) m ρ c (Proc.devRef .tc main_v3) = (Gru.dstOf (m ((c : Thread nD τ).loc main_arg2))) := by
  show StableHlo.after hostOps0 (W0 (F := Ideal) m ρ c) (Proc.devRef .tc main_v3) = _
  simp only [hostOps0]
  after_results_simp
  rfl

set_option maxRecDepth 8192 in
set_option maxHeartbeats 2000000 in
theorem W1_v12 (c : Dev nD) :
    W1 (F := Ideal) m ρ c (Proc.devRef .tc main_v12) = (Gru.invDeg (Gru.dstOf (m ((c : Thread nD τ).loc main_arg2)))) := by
  show StableHlo.after hostOps0 (W0 (F := Ideal) m ρ c) (Proc.devRef .tc main_v12) = _
  simp only [hostOps0]
  after_results_simp
  rfl

set_option maxRecDepth 8192 in
set_option maxHeartbeats 2000000 in
theorem W1_v13 (c : Dev nD) :
    W1 (F := Ideal) m ρ c (Proc.devRef .tc main_v13) = (m ((c : Thread nD τ).loc main_arg3)) := by
  show StableHlo.after hostOps0 (W0 (F := Ideal) m ρ c) (Proc.devRef .tc main_v13) = _
  simp only [hostOps0]
  after_results_simp
  rfl

set_option maxRecDepth 8192 in
set_option maxHeartbeats 2000000 in
theorem W1_v14 (c : Dev nD) :
    W1 (F := Ideal) m ρ c (Proc.devRef .tc main_v14) = (m ((c : Thread nD τ).loc main_arg4)) := by
  show StableHlo.after hostOps0 (W0 (F := Ideal) m ρ c) (Proc.devRef .tc main_v14) = _
  simp only [hostOps0]
  after_results_simp
  rfl

/-! ## From the first stretch to layer 1's entry, and on to between its two launches -/

/-- A buffer that is no operand of the first two launches and that the second stretch does not write holds at layer 1's
    entry what it held after the first stretch. -/
theorem W4_of_W1 (c : Dev nD) (b : Ref sig .tc) (h0 : ∀ w, Pipeline.arrRef spec0 w ≠ b) (h1 : b ∉ hostOps1_W)
    (h2 : ∀ w, Pipeline.arrRef spec1 w ≠ b) :
    W4 (F := Ideal) m ρ c (Proc.devRef .tc b) = W1 m ρ c (Proc.devRef .tc b) :=
  (W4_of_ne m ρ c b h2).trans ((keep1 m ρ c b h1).trans (W2_of_ne m ρ c b h0))

/-- A buffer that the third stretch does not write and that is no operand of the third launch holds after that launch
    what it held at layer 1's entry. -/
theorem W6_of_W4 (c : Dev nD) (b : Ref sig .tc) (h2 : b ∉ hostOps2_W) (h : ∀ w, Pipeline.arrRef spec2 w ≠ b) :
    W6 (F := Ideal) m ρ c (Proc.devRef .tc b) = W4 m ρ c (Proc.devRef .tc b) :=
  (W6_of_ne m ρ c b h).trans (keep2 m ρ c b h2)

theorem W4_v1 (c : Dev nD) : W4 (F := Ideal) m ρ c (Proc.devRef .tc main_v1) = (Gru.srcOf (m ((c : Thread nD τ).loc main_arg2))) :=
  (W4_of_W1 m ρ c main_v1 (by decide) (by decide) (by decide)).trans (W1_v1 m ρ c)
theorem W6_v1 (c : Dev nD) : W6 (F := Ideal) m ρ c (Proc.devRef .tc main_v1) = (Gru.srcOf (m ((c : Thread nD τ).loc main_arg2))) :=
  (W6_of_W4 m ρ c main_v1 (by decide) (by decide)).trans (W4_v1 m ρ c)

theorem W4_v3 (c : Dev nD) : W4 (F := Ideal) m ρ c (Proc.devRef .tc main_v3) = (Gru.dstOf (m ((c : Thread nD τ).loc main_arg2))) :=
  (W4_of_W1 m ρ c main_v3 (by decide) (by decide) (by decide)).trans (W1_v3 m ρ c)
theorem W6_v3 (c : Dev nD) : W6 (F := Ideal) m ρ c (Proc.devRef .tc main_v3) = (Gru.dstOf (m ((c : Thread nD τ).loc main_arg2))) :=
  (W6_of_W4 m ρ c main_v3 (by decide) (by decide)).trans (W4_v3 m ρ c)

theorem W4_v12 (c : Dev nD) : W4 (F := Ideal) m ρ c (Proc.devRef .tc main_v12) = (Gru.invDeg (Gru.dstOf (m ((c : Thread nD τ).loc main_arg2)))) :=
  (W4_of_W1 m ρ c main_v12 (by decide) (by decide) (by decide)).trans (W1_v12 m ρ c)
theorem W6_v12 (c : Dev nD) : W6 (F := Ideal) m ρ c (Proc.devRef .tc main_v12) = (Gru.invDeg (Gru.dstOf (m ((c : Thread nD τ).loc main_arg2)))) :=
  (W6_of_W4 m ρ c main_v12 (by decide) (by decide)).trans (W4_v12 m ρ c)

theorem W4_v13 (c : Dev nD) : W4 (F := Ideal) m ρ c (Proc.devRef .tc main_v13) = (m ((c : Thread nD τ).loc main_arg3)) :=
  (W4_of_W1 m ρ c main_v13 (by decide) (by decide) (by decide)).trans (W1_v13 m ρ c)
theorem W6_v13 (c : Dev nD) : W6 (F := Ideal) m ρ c (Proc.devRef .tc main_v13) = (m ((c : Thread nD τ).loc main_arg3)) :=
  (W6_of_W4 m ρ c main_v13 (by decide) (by decide)).trans (W4_v13 m ρ c)

theorem W4_v14 (c : Dev nD) : W4 (F := Ideal) m ρ c (Proc.devRef .tc main_v14) = (m ((c : Thread nD τ).loc main_arg4)) :=
  (W4_of_W1 m ρ c main_v14 (by decide) (by decide) (by decide)).trans (W1_v14 m ρ c)
theorem W6_v14 (c : Dev nD) : W6 (F := Ideal) m ρ c (Proc.devRef .tc main_v14) = (m ((c : Thread nD τ).loc main_arg4)) :=
  (W6_of_W4 m ρ c main_v14 (by decide) (by decide)).trans (W4_v14 m ρ c)

theorem W4_arg1 (c : Dev nD) : W4 (F := Ideal) m ρ c (Proc.devRef .tc main_arg1) = (m ((c : Thread nD τ).loc main_arg1)) :=
  (W4_of_W1 m ρ c main_arg1 (by decide) (by decide) (by decide)).trans (keep0 m ρ c main_arg1 (by decide))
theorem W6_arg1 (c : Dev nD) : W6 (F := Ideal) m ρ c (Proc.devRef .tc main_arg1) = (m ((c : Thread nD τ).loc main_arg1)) :=
  (W6_of_W4 m ρ c main_arg1 (by decide) (by decide)).trans (W4_arg1 m ρ c)

theorem W4_arg5 (c : Dev nD) : W4 (F := Ideal) m ρ c (Proc.devRef .tc main_arg5) = (m ((c : Thread nD τ).loc main_arg5)) :=
  (W4_of_W1 m ρ c main_arg5 (by decide) (by decide) (by decide)).trans (keep0 m ρ c main_arg5 (by decide))
theorem W6_arg5 (c : Dev nD) : W6 (F := Ideal) m ρ c (Proc.devRef .tc main_arg5) = (m ((c : Thread nD τ).loc main_arg5)) :=
  (W6_of_W4 m ρ c main_arg5 (by decide) (by decide)).trans (W4_arg5 m ρ c)

end Cert.KernelIdeal.Layer1

end
-- ==== Proof.Layer1Zr.lean ====
/-
  The first launch of layer 1 (the two gates). Every array it reads was computed by the stretch of host operations
  before it from layer 0's result, the second slice of the state, the edge rows, the inverse degrees and the weights:
  the means of layer 0's result and of the state over incoming edges, and the layer's first four weight pairs and bias
  rows. With the launch's own statement this gives its two results — the update gate, and the reset gate times the
  state — as the specification's functions of those arrays.
-/
import proofs.«136806_j48473000903511_1_alg».proof.Proof.Layer1Carry

noncomputable section

namespace Cert.KernelIdeal.Layer1

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-! ## What the launch reads -/

theorem V5_v96 (c : Dev nD) : V5 (F := Ideal) m ρ c main_v96 = V4 (F := Ideal) m ρ c main_v96 :=
  keep2 m ρ c main_v96 (by decide)

set_option maxRecDepth 8192 in
set_option maxHeartbeats 2000000 in
theorem V5_v98 (c : Dev nD) :
    V5 (F := Ideal) m ρ c main_v98 = (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128) := by
  show StableHlo.after hostOps2 (W4 (F := Ideal) m ρ c) (Proc.devRef .tc main_v98) = _
  simp only [hostOps2]
  after_results_simp
  rw [W4_arg1 m ρ c]
  rfl

set_option maxRecDepth 8192 in
set_option maxHeartbeats 2000000 in
theorem V5_v110 (c : Dev nD) :
    V5 (F := Ideal) m ρ c main_v110 = (Gru.aggr (Gru.srcOf (m ((c : Thread nD τ).loc main_arg2))) (Gru.dstOf (m ((c : Thread nD τ).loc main_arg2))) (Gru.invDeg (Gru.dstOf (m ((c : Thread nD τ).loc main_arg2)))) (V4 (F := Ideal) m ρ c main_v96)) := by
  show StableHlo.after hostOps2 (W4 (F := Ideal) m ρ c) (Proc.devRef .tc main_v110) = _
  simp only [hostOps2]
  after_results_simp
  rw [W4_v1 m ρ c, W4_v3 m ρ c, W4_v12 m ρ c]
  rfl

set_option maxRecDepth 8192 in
set_option maxHeartbeats 2000000 in
theorem V5_v122 (c : Dev nD) :
    V5 (F := Ideal) m ρ c main_v122 = (Gru.aggr (Gru.srcOf (m ((c : Thread nD τ).loc main_arg2))) (Gru.dstOf (m ((c : Thread nD τ).loc main_arg2))) (Gru.invDeg (Gru.dstOf (m ((c : Thread nD τ).loc main_arg2)))) (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128)) := by
  show StableHlo.after hostOps2 (W4 (F := Ideal) m ρ c) (Proc.devRef .tc main_v122) = _
  simp only [hostOps2]
  after_results_simp
  rw [W4_v1 m ρ c, W4_v3 m ρ c, W4_v12 m ρ c, W4_arg1 m ρ c]
  rfl

set_option maxRecDepth 8192 in
set_option maxHeartbeats 2000000 in
theorem V5_v124 (c : Dev nD) :
    V5 (F := Ideal) m ρ c main_v124 = (shapeCast _ (extractStridedSlice Cert.ReferenceIdeal.S1x1x128x128 ![1, 0, 0, 0] (m ((c : Thread nD τ).loc main_arg3)) Cert.ReferenceIdeal.Gen.slices_S2x6x128x128_S1x1x128x128_1_0_0_0) Cert.ReferenceIdeal.Gen.shapeCasts_S1x1x128x128_S128x128) := by
  show StableHlo.after hostOps2 (W4 (F := Ideal) m ρ c) (Proc.devRef .tc main_v124) = _
  simp only [hostOps2]
  after_results_simp
  rw [W4_v13 m ρ c]
  rfl

set_option maxRecDepth 8192 in
set_option maxHeartbeats 2000000 in
theorem V5_v126 (c : Dev nD) :
    V5 (F := Ideal) m ρ c main_v126 = (shapeCast _ (extractStridedSlice Cert.ReferenceIdeal.S1x1x128x128 ![1, 0, 0, 0] (m ((c : Thread nD τ).loc main_arg4)) Cert.ReferenceIdeal.Gen.slices_S2x6x128x128_S1x1x128x128_1_0_0_0) Cert.ReferenceIdeal.Gen.shapeCasts_S1x1x128x128_S128x128) := by
  show StableHlo.after hostOps2 (W4 (F := Ideal) m ρ c) (Proc.devRef .tc main_v126) = _
  simp only [hostOps2]
  after_results_simp
  rw [W4_v14 m ρ c]
  rfl

set_option maxRecDepth 8192 in
set_option maxHeartbeats 2000000 in
theorem V5_v129 (c : Dev nD) :
    V5 (F := Ideal) m ρ c main_v129 = (broadcastInDim Cert.ReferenceIdeal.S1x128 ![1] Cert.ReferenceIdeal.Gen.bcast_S128_S1x128_1 (shapeCast _ (extractStridedSlice Cert.ReferenceIdeal.S1x1x128 ![1, 0, 0] (m ((c : Thread nD τ).loc main_arg5)) Cert.ReferenceIdeal.Gen.slices_S2x6x128_S1x1x128_1_0_0) Cert.ReferenceIdeal.Gen.shapeCasts_S1x1x128_S128)) := by
  show StableHlo.after hostOps2 (W4 (F := Ideal) m ρ c) (Proc.devRef .tc main_v129) = _
  simp only [hostOps2]
  after_results_simp
  rw [W4_arg5 m ρ c]
  rfl

set_option maxRecDepth 8192 in
set_option maxHeartbeats 2000000 in
theorem V5_v131 (c : Dev nD) :
    V5 (F := Ideal) m ρ c main_v131 = (shapeCast _ (extractStridedSlice Cert.ReferenceIdeal.S1x1x128x128 ![1, 1, 0, 0] (m ((c : Thread nD τ).loc main_arg3)) Cert.ReferenceIdeal.Gen.slices_S2x6x128x128_S1x1x128x128_1_1_0_0) Cert.ReferenceIdeal.Gen.shapeCasts_S1x1x128x128_S128x128) := by
  show StableHlo.after hostOps2 (W4 (F := Ideal) m ρ c) (Proc.devRef .tc main_v131) = _
  simp only [hostOps2]
  after_results_simp
  rw [W4_v13 m ρ c]
  rfl

set_option maxRecDepth 8192 in
set_option maxHeartbeats 2000000 in
theorem V5_v133 (c : Dev nD) :
    V5 (F := Ideal) m ρ c main_v133 = (shapeCast _ (extractStridedSlice Cert.ReferenceIdeal.S1x1x128x128 ![1, 1, 0, 0] (m ((c : Thread nD τ).loc main_arg4)) Cert.ReferenceIdeal.Gen.slices_S2x6x128x128_S1x1x128x128_1_1_0_0) Cert.ReferenceIdeal.Gen.shapeCasts_S1x1x128x128_S128x128) := by
  show StableHlo.after hostOps2 (W4 (F := Ideal) m ρ c) (Proc.devRef .tc main_v133) = _
  simp only [hostOps2]
  after_results_simp
  rw [W4_v14 m ρ c]
  rfl

set_option maxRecDepth 8192 in
set_option maxHeartbeats 2000000 in
theorem V5_v136 (c : Dev nD) :
    V5 (F := Ideal) m ρ c main_v136 = (broadcastInDim Cert.ReferenceIdeal.S1x128 ![1] Cert.ReferenceIdeal.Gen.bcast_S128_S1x128_1 (shapeCast _ (extractStridedSlice Cert.ReferenceIdeal.S1x1x128 ![1, 1, 0] (m ((c : Thread nD τ).loc main_arg5)) Cert.ReferenceIdeal.Gen.slices_S2x6x128_S1x1x128_1_1_0) Cert.ReferenceIdeal.Gen.shapeCasts_S1x1x128_S128)) := by
  show StableHlo.after hostOps2 (W4 (F := Ideal) m ρ c) (Proc.devRef .tc main_v136) = _
  simp only [hostOps2]
  after_results_simp
  rw [W4_arg5 m ρ c]
  rfl

set_option maxRecDepth 8192 in
set_option maxHeartbeats 2000000 in
theorem V5_v138 (c : Dev nD) :
    V5 (F := Ideal) m ρ c main_v138 = (shapeCast _ (extractStridedSlice Cert.ReferenceIdeal.S1x1x128x128 ![1, 2, 0, 0] (m ((c : Thread nD τ).loc main_arg3)) Cert.ReferenceIdeal.Gen.slices_S2x6x128x128_S1x1x128x128_1_2_0_0) Cert.ReferenceIdeal.Gen.shapeCasts_S1x1x128x128_S128x128) := by
  show StableHlo.after hostOps2 (W4 (F := Ideal) m ρ c) (Proc.devRef .tc main_v138) = _
  simp only [hostOps2]
  after_results_simp
  rw [W4_v13 m ρ c]
  rfl

set_option maxRecDepth 8192 in
set_option maxHeartbeats 2000000 in
theorem V5_v140 (c : Dev nD) :
    V5 (F := Ideal) m ρ c main_v140 = (shapeCast _ (extractStridedSlice Cert.ReferenceIdeal.S1x1x128x128 ![1, 2, 0, 0] (m ((c : Thread nD τ).loc main_arg4)) Cert.ReferenceIdeal.Gen.slices_S2x6x128x128_S1x1x128x128_1_2_0_0) Cert.ReferenceIdeal.Gen.shapeCasts_S1x1x128x128_S128x128) := by
  show StableHlo.after hostOps2 (W4 (F := Ideal) m ρ c) (Proc.devRef .tc main_v140) = _
  simp only [hostOps2]
  after_results_simp
  rw [W4_v14 m ρ c]
  rfl

set_option maxRecDepth 8192 in
set_option maxHeartbeats 2000000 in
theorem V5_v143 (c : Dev nD) :
    V5 (F := Ideal) m ρ c main_v143 = (broadcastInDim Cert.ReferenceIdeal.S1x128 ![1] Cert.ReferenceIdeal.Gen.bcast_S128_S1x128_1 (shapeCast _ (extractStridedSlice Cert.ReferenceIdeal.S1x1x128 ![1, 2, 0] (m ((c : Thread nD τ).loc main_arg5)) Cert.ReferenceIdeal.Gen.slices_S2x6x128_S1x1x128_1_2_0) Cert.ReferenceIdeal.Gen.shapeCasts_S1x1x128_S128)) := by
  show StableHlo.after hostOps2 (W4 (F := Ideal) m ρ c) (Proc.devRef .tc main_v143) = _
  simp only [hostOps2]
  after_results_simp
  rw [W4_arg5 m ρ c]
  rfl

set_option maxRecDepth 8192 in
set_option maxHeartbeats 2000000 in
theorem V5_v145 (c : Dev nD) :
    V5 (F := Ideal) m ρ c main_v145 = (shapeCast _ (extractStridedSlice Cert.ReferenceIdeal.S1x1x128x128 ![1, 3, 0, 0] (m ((c : Thread nD τ).loc main_arg3)) Cert.ReferenceIdeal.Gen.slices_S2x6x128x128_S1x1x128x128_1_3_0_0) Cert.ReferenceIdeal.Gen.shapeCasts_S1x1x128x128_S128x128) := by
  show StableHlo.after hostOps2 (W4 (F := Ideal) m ρ c) (Proc.devRef .tc main_v145) = _
  simp only [hostOps2]
  after_results_simp
  rw [W4_v13 m ρ c]
  rfl

set_option maxRecDepth 8192 in
set_option maxHeartbeats 2000000 in
theorem V5_v147 (c : Dev nD) :
    V5 (F := Ideal) m ρ c main_v147 = (shapeCast _ (extractStridedSlice Cert.ReferenceIdeal.S1x1x128x128 ![1, 3, 0, 0] (m ((c : Thread nD τ).loc main_arg4)) Cert.ReferenceIdeal.Gen.slices_S2x6x128x128_S1x1x128x128_1_3_0_0) Cert.ReferenceIdeal.Gen.shapeCasts_S1x1x128x128_S128x128) := by
  show StableHlo.after hostOps2 (W4 (F := Ideal) m ρ c) (Proc.devRef .tc main_v147) = _
  simp only [hostOps2]
  after_results_simp
  rw [W4_v14 m ρ c]
  rfl

set_option maxRecDepth 8192 in
set_option maxHeartbeats 2000000 in
theorem V5_v150 (c : Dev nD) :
    V5 (F := Ideal) m ρ c main_v150 = (broadcastInDim Cert.ReferenceIdeal.S1x128 ![1] Cert.ReferenceIdeal.Gen.bcast_S128_S1x128_1 (shapeCast _ (extractStridedSlice Cert.ReferenceIdeal.S1x1x128 ![1, 3, 0] (m ((c : Thread nD τ).loc main_arg5)) Cert.ReferenceIdeal.Gen.slices_S2x6x128_S1x1x128_1_3_0) Cert.ReferenceIdeal.Gen.shapeCasts_S1x1x128_S128)) := by
  show StableHlo.after hostOps2 (W4 (F := Ideal) m ρ c) (Proc.devRef .tc main_v150) = _
  simp only [hostOps2]
  after_results_simp
  rw [W4_arg5 m ρ c]
  rfl

/-! ## What the launch leaves -/

/-- The update gate of layer 1. -/
theorem W6_z (hZr : Regions.Zr2) (c : Dev nD) :
    W6 (F := Ideal) m ρ c (Proc.devRef .tc main_v151_0) = (Gru.zOf (Gru.aggr (Gru.srcOf (m ((c : Thread nD τ).loc main_arg2))) (Gru.dstOf (m ((c : Thread nD τ).loc main_arg2))) (Gru.invDeg (Gru.dstOf (m ((c : Thread nD τ).loc main_arg2)))) (V4 (F := Ideal) m ρ c main_v96)) (V4 (F := Ideal) m ρ c main_v96) (Gru.aggr (Gru.srcOf (m ((c : Thread nD τ).loc main_arg2))) (Gru.dstOf (m ((c : Thread nD τ).loc main_arg2))) (Gru.invDeg (Gru.dstOf (m ((c : Thread nD τ).loc main_arg2)))) (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128)) (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128) (shapeCast _ (extractStridedSlice Cert.ReferenceIdeal.S1x1x128x128 ![1, 0, 0, 0] (m ((c : Thread nD τ).loc main_arg3)) Cert.ReferenceIdeal.Gen.slices_S2x6x128x128_S1x1x128x128_1_0_0_0) Cert.ReferenceIdeal.Gen.shapeCasts_S1x1x128x128_S128x128) (shapeCast _ (extractStridedSlice Cert.ReferenceIdeal.S1x1x128x128 ![1, 0, 0, 0] (m ((c : Thread nD τ).loc main_arg4)) Cert.ReferenceIdeal.Gen.slices_S2x6x128x128_S1x1x128x128_1_0_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 0, 0] (m ((c : Thread nD τ).loc main_arg5)) Cert.ReferenceIdeal.Gen.slices_S2x6x128_S1x1x128_1_0_0) Cert.ReferenceIdeal.Gen.shapeCasts_S1x1x128_S128)) (shapeCast _ (extractStridedSlice Cert.ReferenceIdeal.S1x1x128x128 ![1, 1, 0, 0] (m ((c : Thread nD τ).loc main_arg3)) Cert.ReferenceIdeal.Gen.slices_S2x6x128x128_S1x1x128x128_1_1_0_0) Cert.ReferenceIdeal.Gen.shapeCasts_S1x1x128x128_S128x128) (shapeCast _ (extractStridedSlice Cert.ReferenceIdeal.S1x1x128x128 ![1, 1, 0, 0] (m ((c : Thread nD τ).loc main_arg4)) Cert.ReferenceIdeal.Gen.slices_S2x6x128x128_S1x1x128x128_1_1_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 1, 0] (m ((c : Thread nD τ).loc main_arg5)) Cert.ReferenceIdeal.Gen.slices_S2x6x128_S1x1x128_1_1_0) Cert.ReferenceIdeal.Gen.shapeCasts_S1x1x128_S128))) := by
  have h := (hZr (V5 (F := Ideal) m ρ) c).1
  rw [V5_v110 m ρ c, V5_v96 m ρ c, V5_v122 m ρ c, V5_v98 m ρ c, V5_v124 m ρ c, V5_v126 m ρ c, V5_v129 m ρ c, V5_v131 m ρ c, V5_v133 m ρ c, V5_v136 m ρ c] at h
  exact (W6_arr m ρ c 16).trans h

/-- The reset gate of layer 1 times the state. -/
theorem W6_rh (hZr : Regions.Zr2) (c : Dev nD) :
    W6 (F := Ideal) m ρ c (Proc.devRef .tc main_v151_1) = (Gru.rhOf (Gru.aggr (Gru.srcOf (m ((c : Thread nD τ).loc main_arg2))) (Gru.dstOf (m ((c : Thread nD τ).loc main_arg2))) (Gru.invDeg (Gru.dstOf (m ((c : Thread nD τ).loc main_arg2)))) (V4 (F := Ideal) m ρ c main_v96)) (V4 (F := Ideal) m ρ c main_v96) (Gru.aggr (Gru.srcOf (m ((c : Thread nD τ).loc main_arg2))) (Gru.dstOf (m ((c : Thread nD τ).loc main_arg2))) (Gru.invDeg (Gru.dstOf (m ((c : Thread nD τ).loc main_arg2)))) (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128)) (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128) (shapeCast _ (extractStridedSlice Cert.ReferenceIdeal.S1x1x128x128 ![1, 2, 0, 0] (m ((c : Thread nD τ).loc main_arg3)) Cert.ReferenceIdeal.Gen.slices_S2x6x128x128_S1x1x128x128_1_2_0_0) Cert.ReferenceIdeal.Gen.shapeCasts_S1x1x128x128_S128x128) (shapeCast _ (extractStridedSlice Cert.ReferenceIdeal.S1x1x128x128 ![1, 2, 0, 0] (m ((c : Thread nD τ).loc main_arg4)) Cert.ReferenceIdeal.Gen.slices_S2x6x128x128_S1x1x128x128_1_2_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 2, 0] (m ((c : Thread nD τ).loc main_arg5)) Cert.ReferenceIdeal.Gen.slices_S2x6x128_S1x1x128_1_2_0) Cert.ReferenceIdeal.Gen.shapeCasts_S1x1x128_S128)) (shapeCast _ (extractStridedSlice Cert.ReferenceIdeal.S1x1x128x128 ![1, 3, 0, 0] (m ((c : Thread nD τ).loc main_arg3)) Cert.ReferenceIdeal.Gen.slices_S2x6x128x128_S1x1x128x128_1_3_0_0) Cert.ReferenceIdeal.Gen.shapeCasts_S1x1x128x128_S128x128) (shapeCast _ (extractStridedSlice Cert.ReferenceIdeal.S1x1x128x128 ![1, 3, 0, 0] (m ((c : Thread nD τ).loc main_arg4)) Cert.ReferenceIdeal.Gen.slices_S2x6x128x128_S1x1x128x128_1_3_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 3, 0] (m ((c : Thread nD τ).loc main_arg5)) Cert.ReferenceIdeal.Gen.slices_S2x6x128_S1x1x128_1_3_0) Cert.ReferenceIdeal.Gen.shapeCasts_S1x1x128_S128))) := by
  have h := (hZr (V5 (F := Ideal) m ρ) c).2
  rw [V5_v110 m ρ c, V5_v96 m ρ c, V5_v122 m ρ c, V5_v98 m ρ c, V5_v138 m ρ c, V5_v140 m ρ c, V5_v143 m ρ c, V5_v145 m ρ c, V5_v147 m ρ c, V5_v150 m ρ c] at h
  exact (W6_arr m ρ c 17).trans h

/-! ## The launch's inputs are still there after it -/

theorem W6_v110 (c : Dev nD) : W6 (F := Ideal) m ρ c (Proc.devRef .tc main_v110) = (Gru.aggr (Gru.srcOf (m ((c : Thread nD τ).loc main_arg2))) (Gru.dstOf (m ((c : Thread nD τ).loc main_arg2))) (Gru.invDeg (Gru.dstOf (m ((c : Thread nD τ).loc main_arg2)))) (V4 (F := Ideal) m ρ c main_v96)) :=
  ((W6_arr m ρ c 0).trans (((dat2 (V5 m ρ) c).arrAt_in 0 rfl _).trans (A_eq2 (V5 m ρ) c 0))).trans (V5_v110 m ρ c)
theorem W6_v96 (c : Dev nD) : W6 (F := Ideal) m ρ c (Proc.devRef .tc main_v96) = V4 (F := Ideal) m ρ c main_v96 :=
  ((W6_arr m ρ c 1).trans (((dat2 (V5 m ρ) c).arrAt_in 1 rfl _).trans (A_eq2 (V5 m ρ) c 1))).trans (V5_v96 m ρ c)
theorem W6_v98 (c : Dev nD) : W6 (F := Ideal) m ρ c (Proc.devRef .tc main_v98) = (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128) :=
  ((W6_arr m ρ c 3).trans (((dat2 (V5 m ρ) c).arrAt_in 3 rfl _).trans (A_eq2 (V5 m ρ) c 3))).trans (V5_v98 m ρ c)

end Cert.KernelIdeal.Layer1

end
-- ==== Proof.Layer1.lean ====
/-
  The second launch of layer 1 and the layer as a whole. Between the two launches the host operations compute the mean
  of (reset gate · state) over incoming edges and slice out the layer's last two weight pairs and bias rows; everything
  else the second launch reads — the mean of layer 0's result, that result itself, the two results of the first launch,
  the state — is where the first launch found or left it. With the second launch's own statement, its result is
  z · h + (1 - z) · tanh (conv (mean x) x · 4 + conv (mean (r · h)) (r · h) · 5): the specification's layer function
  of layer 0's result, the second slice of the state, the edge data and layer 1's weights.
-/
import proofs.«136806_j48473000903511_1_alg».proof.Proof.Layer1Zr

noncomputable section

namespace Cert.KernelIdeal.Layer1

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-! ## What the second launch reads -/

theorem V7_v110 (c : Dev nD) : V7 (F := Ideal) m ρ c main_v110 = (Gru.aggr (Gru.srcOf (m ((c : Thread nD τ).loc main_arg2))) (Gru.dstOf (m ((c : Thread nD τ).loc main_arg2))) (Gru.invDeg (Gru.dstOf (m ((c : Thread nD τ).loc main_arg2)))) (V4 (F := Ideal) m ρ c main_v96)) :=
  (keep3 m ρ c main_v110 (by decide)).trans (W6_v110 m ρ c)
theorem V7_v96 (c : Dev nD) : V7 (F := Ideal) m ρ c main_v96 = V4 (F := Ideal) m ρ c main_v96 :=
  (keep3 m ρ c main_v96 (by decide)).trans (W6_v96 m ρ c)
theorem V7_v98 (c : Dev nD) : V7 (F := Ideal) m ρ c main_v98 = (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128) :=
  (keep3 m ρ c main_v98 (by decide)).trans (W6_v98 m ρ c)
theorem V7_v151_0 (hZr : Regions.Zr2) (c : Dev nD) : V7 (F := Ideal) m ρ c main_v151_0 = (Gru.zOf (Gru.aggr (Gru.srcOf (m ((c : Thread nD τ).loc main_arg2))) (Gru.dstOf (m ((c : Thread nD τ).loc main_arg2))) (Gru.invDeg (Gru.dstOf (m ((c : Thread nD τ).loc main_arg2)))) (V4 (F := Ideal) m ρ c main_v96)) (V4 (F := Ideal) m ρ c main_v96) (Gru.aggr (Gru.srcOf (m ((c : Thread nD τ).loc main_arg2))) (Gru.dstOf (m ((c : Thread nD τ).loc main_arg2))) (Gru.invDeg (Gru.dstOf (m ((c : Thread nD τ).loc main_arg2)))) (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128)) (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128) (shapeCast _ (extractStridedSlice Cert.ReferenceIdeal.S1x1x128x128 ![1, 0, 0, 0] (m ((c : Thread nD τ).loc main_arg3)) Cert.ReferenceIdeal.Gen.slices_S2x6x128x128_S1x1x128x128_1_0_0_0) Cert.ReferenceIdeal.Gen.shapeCasts_S1x1x128x128_S128x128) (shapeCast _ (extractStridedSlice Cert.ReferenceIdeal.S1x1x128x128 ![1, 0, 0, 0] (m ((c : Thread nD τ).loc main_arg4)) Cert.ReferenceIdeal.Gen.slices_S2x6x128x128_S1x1x128x128_1_0_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 0, 0] (m ((c : Thread nD τ).loc main_arg5)) Cert.ReferenceIdeal.Gen.slices_S2x6x128_S1x1x128_1_0_0) Cert.ReferenceIdeal.Gen.shapeCasts_S1x1x128_S128)) (shapeCast _ (extractStridedSlice Cert.ReferenceIdeal.S1x1x128x128 ![1, 1, 0, 0] (m ((c : Thread nD τ).loc main_arg3)) Cert.ReferenceIdeal.Gen.slices_S2x6x128x128_S1x1x128x128_1_1_0_0) Cert.ReferenceIdeal.Gen.shapeCasts_S1x1x128x128_S128x128) (shapeCast _ (extractStridedSlice Cert.ReferenceIdeal.S1x1x128x128 ![1, 1, 0, 0] (m ((c : Thread nD τ).loc main_arg4)) Cert.ReferenceIdeal.Gen.slices_S2x6x128x128_S1x1x128x128_1_1_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 1, 0] (m ((c : Thread nD τ).loc main_arg5)) Cert.ReferenceIdeal.Gen.slices_S2x6x128_S1x1x128_1_1_0) Cert.ReferenceIdeal.Gen.shapeCasts_S1x1x128_S128))) :=
  (keep3 m ρ c main_v151_0 (by decide)).trans (W6_z m ρ hZr c)
theorem V7_v151_1 (hZr : Regions.Zr2) (c : Dev nD) : V7 (F := Ideal) m ρ c main_v151_1 = (Gru.rhOf (Gru.aggr (Gru.srcOf (m ((c : Thread nD τ).loc main_arg2))) (Gru.dstOf (m ((c : Thread nD τ).loc main_arg2))) (Gru.invDeg (Gru.dstOf (m ((c : Thread nD τ).loc main_arg2)))) (V4 (F := Ideal) m ρ c main_v96)) (V4 (F := Ideal) m ρ c main_v96) (Gru.aggr (Gru.srcOf (m ((c : Thread nD τ).loc main_arg2))) (Gru.dstOf (m ((c : Thread nD τ).loc main_arg2))) (Gru.invDeg (Gru.dstOf (m ((c : Thread nD τ).loc main_arg2)))) (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128)) (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128) (shapeCast _ (extractStridedSlice Cert.ReferenceIdeal.S1x1x128x128 ![1, 2, 0, 0] (m ((c : Thread nD τ).loc main_arg3)) Cert.ReferenceIdeal.Gen.slices_S2x6x128x128_S1x1x128x128_1_2_0_0) Cert.ReferenceIdeal.Gen.shapeCasts_S1x1x128x128_S128x128) (shapeCast _ (extractStridedSlice Cert.ReferenceIdeal.S1x1x128x128 ![1, 2, 0, 0] (m ((c : Thread nD τ).loc main_arg4)) Cert.ReferenceIdeal.Gen.slices_S2x6x128x128_S1x1x128x128_1_2_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 2, 0] (m ((c : Thread nD τ).loc main_arg5)) Cert.ReferenceIdeal.Gen.slices_S2x6x128_S1x1x128_1_2_0) Cert.ReferenceIdeal.Gen.shapeCasts_S1x1x128_S128)) (shapeCast _ (extractStridedSlice Cert.ReferenceIdeal.S1x1x128x128 ![1, 3, 0, 0] (m ((c : Thread nD τ).loc main_arg3)) Cert.ReferenceIdeal.Gen.slices_S2x6x128x128_S1x1x128x128_1_3_0_0) Cert.ReferenceIdeal.Gen.shapeCasts_S1x1x128x128_S128x128) (shapeCast _ (extractStridedSlice Cert.ReferenceIdeal.S1x1x128x128 ![1, 3, 0, 0] (m ((c : Thread nD τ).loc main_arg4)) Cert.ReferenceIdeal.Gen.slices_S2x6x128x128_S1x1x128x128_1_3_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 3, 0] (m ((c : Thread nD τ).loc main_arg5)) Cert.ReferenceIdeal.Gen.slices_S2x6x128_S1x1x128_1_3_0) Cert.ReferenceIdeal.Gen.shapeCasts_S1x1x128_S128))) :=
  (keep3 m ρ c main_v151_1 (by decide)).trans (W6_rh m ρ hZr c)

set_option maxRecDepth 8192 in
set_option maxHeartbeats 2000000 in
/-- The mean of (reset gate · state) over incoming edges. -/
theorem V7_v163 (hZr : Regions.Zr2) (c : Dev nD) :
    V7 (F := Ideal) m ρ c main_v163 = (Gru.aggr (Gru.srcOf (m ((c : Thread nD τ).loc main_arg2))) (Gru.dstOf (m ((c : Thread nD τ).loc main_arg2))) (Gru.invDeg (Gru.dstOf (m ((c : Thread nD τ).loc main_arg2)))) (Gru.rhOf (Gru.aggr (Gru.srcOf (m ((c : Thread nD τ).loc main_arg2))) (Gru.dstOf (m ((c : Thread nD τ).loc main_arg2))) (Gru.invDeg (Gru.dstOf (m ((c : Thread nD τ).loc main_arg2)))) (V4 (F := Ideal) m ρ c main_v96)) (V4 (F := Ideal) m ρ c main_v96) (Gru.aggr (Gru.srcOf (m ((c : Thread nD τ).loc main_arg2))) (Gru.dstOf (m ((c : Thread nD τ).loc main_arg2))) (Gru.invDeg (Gru.dstOf (m ((c : Thread nD τ).loc main_arg2)))) (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128)) (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128) (shapeCast _ (extractStridedSlice Cert.ReferenceIdeal.S1x1x128x128 ![1, 2, 0, 0] (m ((c : Thread nD τ).loc main_arg3)) Cert.ReferenceIdeal.Gen.slices_S2x6x128x128_S1x1x128x128_1_2_0_0) Cert.ReferenceIdeal.Gen.shapeCasts_S1x1x128x128_S128x128) (shapeCast _ (extractStridedSlice Cert.ReferenceIdeal.S1x1x128x128 ![1, 2, 0, 0] (m ((c : Thread nD τ).loc main_arg4)) Cert.ReferenceIdeal.Gen.slices_S2x6x128x128_S1x1x128x128_1_2_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 2, 0] (m ((c : Thread nD τ).loc main_arg5)) Cert.ReferenceIdeal.Gen.slices_S2x6x128_S1x1x128_1_2_0) Cert.ReferenceIdeal.Gen.shapeCasts_S1x1x128_S128)) (shapeCast _ (extractStridedSlice Cert.ReferenceIdeal.S1x1x128x128 ![1, 3, 0, 0] (m ((c : Thread nD τ).loc main_arg3)) Cert.ReferenceIdeal.Gen.slices_S2x6x128x128_S1x1x128x128_1_3_0_0) Cert.ReferenceIdeal.Gen.shapeCasts_S1x1x128x128_S128x128) (shapeCast _ (extractStridedSlice Cert.ReferenceIdeal.S1x1x128x128 ![1, 3, 0, 0] (m ((c : Thread nD τ).loc main_arg4)) Cert.ReferenceIdeal.Gen.slices_S2x6x128x128_S1x1x128x128_1_3_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 3, 0] (m ((c : Thread nD τ).loc main_arg5)) Cert.ReferenceIdeal.Gen.slices_S2x6x128_S1x1x128_1_3_0) Cert.ReferenceIdeal.Gen.shapeCasts_S1x1x128_S128)))) := by
  show StableHlo.after hostOps3 (W6 (F := Ideal) m ρ c) (Proc.devRef .tc main_v163) = _
  simp only [hostOps3]
  after_results_simp
  rw [W6_v1 m ρ c, W6_v3 m ρ c, W6_v12 m ρ c, W6_rh m ρ hZr c]
  rfl

set_option maxRecDepth 8192 in
set_option maxHeartbeats 2000000 in
theorem V7_v165 (c : Dev nD) :
    V7 (F := Ideal) m ρ c main_v165 = (shapeCast _ (extractStridedSlice Cert.ReferenceIdeal.S1x1x128x128 ![1, 4, 0, 0] (m ((c : Thread nD τ).loc main_arg3)) Cert.ReferenceIdeal.Gen.slices_S2x6x128x128_S1x1x128x128_1_4_0_0) Cert.ReferenceIdeal.Gen.shapeCasts_S1x1x128x128_S128x128) := by
  show StableHlo.after hostOps3 (W6 (F := Ideal) m ρ c) (Proc.devRef .tc main_v165) = _
  simp only [hostOps3]
  after_results_simp
  rw [W6_v13 m ρ c]
  rfl

set_option maxRecDepth 8192 in
set_option maxHeartbeats 2000000 in
theorem V7_v167 (c : Dev nD) :
    V7 (F := Ideal) m ρ c main_v167 = (shapeCast _ (extractStridedSlice Cert.ReferenceIdeal.S1x1x128x128 ![1, 4, 0, 0] (m ((c : Thread nD τ).loc main_arg4)) Cert.ReferenceIdeal.Gen.slices_S2x6x128x128_S1x1x128x128_1_4_0_0) Cert.ReferenceIdeal.Gen.shapeCasts_S1x1x128x128_S128x128) := by
  show StableHlo.after hostOps3 (W6 (F := Ideal) m ρ c) (Proc.devRef .tc main_v167) = _
  simp only [hostOps3]
  after_results_simp
  rw [W6_v14 m ρ c]
  rfl

set_option maxRecDepth 8192 in
set_option maxHeartbeats 2000000 in
theorem V7_v170 (c : Dev nD) :
    V7 (F := Ideal) m ρ c main_v170 = (broadcastInDim Cert.ReferenceIdeal.S1x128 ![1] Cert.ReferenceIdeal.Gen.bcast_S128_S1x128_1 (shapeCast _ (extractStridedSlice Cert.ReferenceIdeal.S1x1x128 ![1, 4, 0] (m ((c : Thread nD τ).loc main_arg5)) Cert.ReferenceIdeal.Gen.slices_S2x6x128_S1x1x128_1_4_0) Cert.ReferenceIdeal.Gen.shapeCasts_S1x1x128_S128)) := by
  show StableHlo.after hostOps3 (W6 (F := Ideal) m ρ c) (Proc.devRef .tc main_v170) = _
  simp only [hostOps3]
  after_results_simp
  rw [W6_arg5 m ρ c]
  rfl

set_option maxRecDepth 8192 in
set_option maxHeartbeats 2000000 in
theorem V7_v172 (c : Dev nD) :
    V7 (F := Ideal) m ρ c main_v172 = (shapeCast _ (extractStridedSlice Cert.ReferenceIdeal.S1x1x128x128 ![1, 5, 0, 0] (m ((c : Thread nD τ).loc main_arg3)) Cert.ReferenceIdeal.Gen.slices_S2x6x128x128_S1x1x128x128_1_5_0_0) Cert.ReferenceIdeal.Gen.shapeCasts_S1x1x128x128_S128x128) := by
  show StableHlo.after hostOps3 (W6 (F := Ideal) m ρ c) (Proc.devRef .tc main_v172) = _
  simp only [hostOps3]
  after_results_simp
  rw [W6_v13 m ρ c]
  rfl

set_option maxRecDepth 8192 in
set_option maxHeartbeats 2000000 in
theorem V7_v174 (c : Dev nD) :
    V7 (F := Ideal) m ρ c main_v174 = (shapeCast _ (extractStridedSlice Cert.ReferenceIdeal.S1x1x128x128 ![1, 5, 0, 0] (m ((c : Thread nD τ).loc main_arg4)) Cert.ReferenceIdeal.Gen.slices_S2x6x128x128_S1x1x128x128_1_5_0_0) Cert.ReferenceIdeal.Gen.shapeCasts_S1x1x128x128_S128x128) := by
  show StableHlo.after hostOps3 (W6 (F := Ideal) m ρ c) (Proc.devRef .tc main_v174) = _
  simp only [hostOps3]
  after_results_simp
  rw [W6_v14 m ρ c]
  rfl

set_option maxRecDepth 8192 in
set_option maxHeartbeats 2000000 in
theorem V7_v177 (c : Dev nD) :
    V7 (F := Ideal) m ρ c main_v177 = (broadcastInDim Cert.ReferenceIdeal.S1x128 ![1] Cert.ReferenceIdeal.Gen.bcast_S128_S1x128_1 (shapeCast _ (extractStridedSlice Cert.ReferenceIdeal.S1x1x128 ![1, 5, 0] (m ((c : Thread nD τ).loc main_arg5)) Cert.ReferenceIdeal.Gen.slices_S2x6x128_S1x1x128_1_5_0) Cert.ReferenceIdeal.Gen.shapeCasts_S1x1x128_S128)) := by
  show StableHlo.after hostOps3 (W6 (F := Ideal) m ρ c) (Proc.devRef .tc main_v177) = _
  simp only [hostOps3]
  after_results_simp
  rw [W6_arg5 m ρ c]
  rfl

/-! ## The layer -/

/-- Layer 1's new state, as the second launch leaves it. -/
theorem out1_eq (hZr : Regions.Zr2) (hH : Regions.H3) (c : Dev nD) :
    V8 (F := Ideal) m ρ c main_v178 = Gru.layer (Gru.srcOf (m ((c : Thread nD τ).loc main_arg2))) (Gru.dstOf (m ((c : Thread nD τ).loc main_arg2))) (Gru.invDeg (Gru.dstOf (m ((c : Thread nD τ).loc main_arg2)))) (V4 (F := Ideal) m ρ c main_v96) (shapeCast _ (extractStridedSlice Cert.ReferenceIdeal.S1x50000x128 ![1, 0, 0] (m ((c : Thread nD τ).loc main_arg1)) Cert.ReferenceIdeal.Gen.slices_S2x50000x128_S1x50000x128_1_0_0) Cert.ReferenceIdeal.Gen.shapeCasts_S1x50000x128_S50000x128)
      (shapeCast _ (extractStridedSlice Cert.ReferenceIdeal.S1x1x128x128 ![1, 0, 0, 0] (m ((c : Thread nD τ).loc main_arg3)) Cert.ReferenceIdeal.Gen.slices_S2x6x128x128_S1x1x128x128_1_0_0_0) Cert.ReferenceIdeal.Gen.shapeCasts_S1x1x128x128_S128x128) (shapeCast _ (extractStridedSlice Cert.ReferenceIdeal.S1x1x128x128 ![1, 0, 0, 0] (m ((c : Thread nD τ).loc main_arg4)) Cert.ReferenceIdeal.Gen.slices_S2x6x128x128_S1x1x128x128_1_0_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 0, 0] (m ((c : Thread nD τ).loc main_arg5)) Cert.ReferenceIdeal.Gen.slices_S2x6x128_S1x1x128_1_0_0) Cert.ReferenceIdeal.Gen.shapeCasts_S1x1x128_S128))
      (shapeCast _ (extractStridedSlice Cert.ReferenceIdeal.S1x1x128x128 ![1, 1, 0, 0] (m ((c : Thread nD τ).loc main_arg3)) Cert.ReferenceIdeal.Gen.slices_S2x6x128x128_S1x1x128x128_1_1_0_0) Cert.ReferenceIdeal.Gen.shapeCasts_S1x1x128x128_S128x128) (shapeCast _ (extractStridedSlice Cert.ReferenceIdeal.S1x1x128x128 ![1, 1, 0, 0] (m ((c : Thread nD τ).loc main_arg4)) Cert.ReferenceIdeal.Gen.slices_S2x6x128x128_S1x1x128x128_1_1_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 1, 0] (m ((c : Thread nD τ).loc main_arg5)) Cert.ReferenceIdeal.Gen.slices_S2x6x128_S1x1x128_1_1_0) Cert.ReferenceIdeal.Gen.shapeCasts_S1x1x128_S128))
      (shapeCast _ (extractStridedSlice Cert.ReferenceIdeal.S1x1x128x128 ![1, 2, 0, 0] (m ((c : Thread nD τ).loc main_arg3)) Cert.ReferenceIdeal.Gen.slices_S2x6x128x128_S1x1x128x128_1_2_0_0) Cert.ReferenceIdeal.Gen.shapeCasts_S1x1x128x128_S128x128) (shapeCast _ (extractStridedSlice Cert.ReferenceIdeal.S1x1x128x128 ![1, 2, 0, 0] (m ((c : Thread nD τ).loc main_arg4)) Cert.ReferenceIdeal.Gen.slices_S2x6x128x128_S1x1x128x128_1_2_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 2, 0] (m ((c : Thread nD τ).loc main_arg5)) Cert.ReferenceIdeal.Gen.slices_S2x6x128_S1x1x128_1_2_0) Cert.ReferenceIdeal.Gen.shapeCasts_S1x1x128_S128))
      (shapeCast _ (extractStridedSlice Cert.ReferenceIdeal.S1x1x128x128 ![1, 3, 0, 0] (m ((c : Thread nD τ).loc main_arg3)) Cert.ReferenceIdeal.Gen.slices_S2x6x128x128_S1x1x128x128_1_3_0_0) Cert.ReferenceIdeal.Gen.shapeCasts_S1x1x128x128_S128x128) (shapeCast _ (extractStridedSlice Cert.ReferenceIdeal.S1x1x128x128 ![1, 3, 0, 0] (m ((c : Thread nD τ).loc main_arg4)) Cert.ReferenceIdeal.Gen.slices_S2x6x128x128_S1x1x128x128_1_3_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 3, 0] (m ((c : Thread nD τ).loc main_arg5)) Cert.ReferenceIdeal.Gen.slices_S2x6x128_S1x1x128_1_3_0) Cert.ReferenceIdeal.Gen.shapeCasts_S1x1x128_S128))
      (shapeCast _ (extractStridedSlice Cert.ReferenceIdeal.S1x1x128x128 ![1, 4, 0, 0] (m ((c : Thread nD τ).loc main_arg3)) Cert.ReferenceIdeal.Gen.slices_S2x6x128x128_S1x1x128x128_1_4_0_0) Cert.ReferenceIdeal.Gen.shapeCasts_S1x1x128x128_S128x128) (shapeCast _ (extractStridedSlice Cert.ReferenceIdeal.S1x1x128x128 ![1, 4, 0, 0] (m ((c : Thread nD τ).loc main_arg4)) Cert.ReferenceIdeal.Gen.slices_S2x6x128x128_S1x1x128x128_1_4_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 4, 0] (m ((c : Thread nD τ).loc main_arg5)) Cert.ReferenceIdeal.Gen.slices_S2x6x128_S1x1x128_1_4_0) Cert.ReferenceIdeal.Gen.shapeCasts_S1x1x128_S128))
      (shapeCast _ (extractStridedSlice Cert.ReferenceIdeal.S1x1x128x128 ![1, 5, 0, 0] (m ((c : Thread nD τ).loc main_arg3)) Cert.ReferenceIdeal.Gen.slices_S2x6x128x128_S1x1x128x128_1_5_0_0) Cert.ReferenceIdeal.Gen.shapeCasts_S1x1x128x128_S128x128) (shapeCast _ (extractStridedSlice Cert.ReferenceIdeal.S1x1x128x128 ![1, 5, 0, 0] (m ((c : Thread nD τ).loc main_arg4)) Cert.ReferenceIdeal.Gen.slices_S2x6x128x128_S1x1x128x128_1_5_0_0) Cert.ReferenceIdeal.Gen.shapeCasts_S1x1x128x128_S128x128) (broadcastInDim Cert.ReferenceIdeal.S1x128 ![1] Cert.ReferenceIdeal.Gen.bcast_S128_S1x128_1 (shapeCast _ (extractStridedSlice Cert.ReferenceIdeal.S1x1x128 ![1, 5, 0] (m ((c : Thread nD τ).loc main_arg5)) Cert.ReferenceIdeal.Gen.slices_S2x6x128_S1x1x128_1_5_0) Cert.ReferenceIdeal.Gen.shapeCasts_S1x1x128_S128)) := by
  have h := hH (V7 (F := Ideal) m ρ) c
  rw [V7_v110 m ρ c, V7_v96 m ρ c, V7_v163 m ρ hZr c, V7_v151_1 m ρ hZr c, V7_v151_0 m ρ hZr c, V7_v98 m ρ c, V7_v165 m ρ c, V7_v167 m ρ c, V7_v170 m ρ c, V7_v172 m ρ c, V7_v174 m ρ c, V7_v177 m ρ c] at h
  exact (W8_arr m ρ c 12).trans h

end Cert.KernelIdeal.Layer1

end
-- ==== Proof.GruBlock.lean ====
/-
  A block of rows against the whole array, at the ideal instance.

  A region works on blocks of 2000 rows of the 50000-row node arrays. Let `e` embed a block's indices into the array's:
  row `r` of the block is row `off + r` of the array, the column is kept. Then, for node arrays `A`, `X` read through
  `e`, at a block index `y`:
    * the matrix unit's product of the block `A ∘ e` with a weight matrix, from a zero accumulator, is the host's product
      of the whole `A` with that matrix at `e y` — both are `∑ k, A (row, k) · w (k, column)`, the row being `off + r` on
      both sides (`mm_block`);
    * a bias row repeated down the block is the same row repeated down the array (`bias_block`);
    * so one convolution of the block is the spec's `conv` at `e y` (`conv_block`).
  The logistic function written out, `1 / (1 + exp (-p))` with `1` the f32 word `0x3F800000`, is the extended reals'
  `logistic` (`sigm_apply`).
-/
import proofs.«136806_j48473000903511_1_alg».proof.Proof.RegionStmts
import Idealize.ShloMosaic.Lib.Pipeline.Value
import Idealize.ShloMosaic.Lib.ValueIdx
import Idealize.ShloMosaic.PureOps.Ideal.Laws
import Idealize.ShloMosaic.Lib.IdealHost

noncomputable section

namespace Cert.KernelIdeal.Block

open Idealize.ShloMosaic Idealize.ShloMosaic.TcCoe Idealize.SL.Sem Cert.KernelIdeal Cert.KernelIdeal.Gen

/-- `1 / (1 + exp (-p))` at an index is the logistic of `p` there. -/
theorem sigm_apply (p : FVec Ideal S50000x128 .f32) (i : S50000x128.Idx) : Gru.sigm (F := Ideal) p i = Ideal.logistic (p i) := by
  unfold Gru.sigm Gru.ones
  simp only [Host.divf, addf, Host.exp, Host.negf, broadcastInDim, constant, Ideal.hostDivf_def, Ideal.ofBits_def]
  rw [Ideal.ofBits_one_f32]
  rfl

variable (e : S2000x128.Idx → S50000x128.Idx) (off : ℕ)
  (he0 : ∀ y, (e y 0).val = off + (y 0).val) (he1 : ∀ y, (e y 1).val = (y 1).val)
include he0 he1

/-- The block's product with a weight matrix is the whole array's product, read at the embedded index. -/
theorem mm_block (A : FVec Ideal S50000x128 .f32) (w : FVec Ideal S128x128 .bf16) (y : S2000x128.Idx) :
    Idealize.ShloMosaic.matmul dot_S2000x128_S128x128_S2000x128_1_0_0_1_n_n none (fun y' => A (e y')) w (constant S2000x128 .f32 0x00000000#32) y
      = Host.dotGeneral ReferenceIdeal.dot_S50000x128_S128x128_S50000x128_1_0_0_1_n_n none A w (e y) := by
  refine (Ideal.matmul_constant_zero_apply _ _ _ _ _).trans ?_
  refine Eq.trans ?_ (Ideal.dotGeneral_apply _ _ _ _ _ _).symm
  refine Finset.sum_congr rfl fun k _ => ?_
  have hl : e (dot_S2000x128_S128x128_S2000x128_1_0_0_1_n_n.lhsIdx y k) = ReferenceIdeal.dot_S50000x128_S128x128_S50000x128_1_0_0_1_n_n.lhsIdx (e y) k := by
    funext a; apply Fin.ext
    match a with
    | ⟨0, _⟩ => exact (he0 _).trans (he0 y).symm
    | ⟨1, _⟩ => exact he1 _
  have hr : dot_S2000x128_S128x128_S2000x128_1_0_0_1_n_n.rhsIdx y k = ReferenceIdeal.dot_S50000x128_S128x128_S50000x128_1_0_0_1_n_n.rhsIdx (e y) k := by
    funext a; apply Fin.ext
    match a with
    | ⟨0, _⟩ => rfl
    | ⟨1, _⟩ => exact (he1 y).symm
  rw [hl, hr]

omit he0 in
/-- A bias row repeated down the block is the row repeated down the array, read at the embedded index. -/
theorem bias_block (b : FVec Ideal S1x128 .f32) (y : S2000x128.Idx) :
    broadcastTo S2000x128 b broadcasts_S1x128_S2000x128 y
      = broadcastInDim ReferenceIdeal.S50000x128 ![0, 1] ReferenceIdeal.Gen.bcast_S1x128_S50000x128_0_1 b (e y) := by
  unfold broadcastTo
  simp only [broadcastInDim]
  refine congrArg b (funext fun a => Fin.ext ?_)
  match a with
  | ⟨0, _⟩ => rfl
  | ⟨1, _⟩ => exact (he1 y).symm

/-- One convolution of a block of rows is the spec's convolution of the whole arrays, read at the embedded index. -/
theorem conv_block (A X : FVec Ideal S50000x128 .f32) (wl wr : FVec Ideal S128x128 .bf16) (b : FVec Ideal S1x128 .f32) (y : S2000x128.Idx) :
    addf (addf (Idealize.ShloMosaic.matmul dot_S2000x128_S128x128_S2000x128_1_0_0_1_n_n none (fun y' => A (e y')) wl (constant S2000x128 .f32 0x00000000#32))
        (Idealize.ShloMosaic.matmul dot_S2000x128_S128x128_S2000x128_1_0_0_1_n_n none (fun y' => X (e y')) wr (constant S2000x128 .f32 0x00000000#32)))
      (broadcastTo S2000x128 b broadcasts_S1x128_S2000x128) y
      = Gru.conv (F := Ideal) A X wl wr b (e y) := by
  unfold Gru.conv
  show _ + _ + _ = _ + _ + _
  rw [mm_block e off he0 he1 A wl y, mm_block e off he0 he1 X wr y, bias_block e he1 b y]
  rfl

/-- The update gate's payload, of four node arrays read through `e` and the two convolutions' weights, is the spec's
    `zOf` at the embedded index. -/
theorem zr0_z_point (A0 A1 A2 A3 : FVec Ideal S50000x128 .f32) (w4 w5 : FVec Ideal S128x128 .bf16) (b6 : FVec Ideal S1x128 .f32)
    (w7 w8 : FVec Ideal S128x128 .bf16) (b9 : FVec Ideal S1x128 .f32) (y : S2000x128.Idx) :
    k0_pay5 (F := Ideal) (fun y' => A0 (e y')) (fun y' => A1 (e y')) (fun y' => A2 (e y')) (fun y' => A3 (e y')) w4 w5 b6 w7 w8 b9 y
      = Gru.zOf (F := Ideal) A0 A1 A2 A3 w4 w5 b6 w7 w8 b9 (e y) := by
  unfold k0_pay5 k0_pay2 k0_pay3 k0_pay4 Gru.zOf Gru.gate
  simp only [shapeCast_self]
  rw [sigm_apply]
  refine congrArg Ideal.logistic ?_
  exact congrArg₂ (· + ·) (conv_block e off he0 he1 A0 A1 w4 w5 b6 y) (conv_block e off he0 he1 A2 A3 w7 w8 b9 y)

end Cert.KernelIdeal.Block

end
-- ==== Proof.GruPoints.lean ====
/-
  What each payload of the four region bodies computes at a block index, at the ideal instance: with the node arrays
  read through a row-block embedding `e` (GruBlock), the update gate's payload at `y` is the spec's `zOf` at `e y`, the
  reset gate's payload times the state is `rhOf` at `e y`, and the new-state payload is `newOf` at `e y`. Each body is
  logistic or tanh of a sum of two block convolutions (`conv_block`), then pointwise products; the two layers' bodies
  differ only in how their text was cut into pieces.
-/
import proofs.«136806_j48473000903511_1_alg».proof.Proof.GruBlock

noncomputable section

namespace Cert.KernelIdeal.Block

open Idealize.ShloMosaic Idealize.ShloMosaic.TcCoe Idealize.SL.Sem Cert.KernelIdeal Cert.KernelIdeal.Gen

variable (e : S2000x128.Idx → S50000x128.Idx) (off : ℕ)
  (he0 : ∀ y, (e y 0).val = off + (y 0).val) (he1 : ∀ y, (e y 1).val = (y 1).val)
include he0 he1

/-- Region 0's second payload: the reset gate times the state is the spec's `rhOf` at the embedded index. -/
theorem zr0_rh_point (A0 A1 A2 A3 : FVec Ideal S50000x128 .f32) (w10 w11 : FVec Ideal S128x128 .bf16) (b12 : FVec Ideal S1x128 .f32) (w13 w14 : FVec Ideal S128x128 .bf16) (b15 : FVec Ideal S1x128 .f32) (y : S2000x128.Idx) :
    k0_pay1 (F := Ideal) (k0_pay2 (F := Ideal) (fun y' => A0 (e y'))) (fun y' => A1 (e y')) (k0_pay3 (F := Ideal) (fun y' => A2 (e y'))) (k0_pay4 (F := Ideal) (fun y' => A3 (e y'))) w10 w11 b12 w13 w14 b15 y
      = Gru.rhOf (F := Ideal) A0 A1 A2 A3 w10 w11 b12 w13 w14 b15 (e y) := by
  unfold k0_pay1 k0_pay2 k0_pay3 k0_pay4 Gru.rhOf Gru.gate
  simp only [shapeCast_self]
  show _ = Gru.sigm (F := Ideal) _ (e y) * A3 (e y)
  rw [sigm_apply]
  exact congrArg₂ (· * ·) (congrArg Ideal.logistic (congrArg₂ (· + ·) (conv_block e off he0 he1 A0 A1 w10 w11 b12 y) (conv_block e off he0 he1 A2 A3 w13 w14 b15 y))) rfl

/-- Region 2's first payload: the update gate is the spec's `zOf` at the embedded index. -/
theorem zr2_z_point (A0 A1 A2 A3 : FVec Ideal S50000x128 .f32) (w4 w5 : FVec Ideal S128x128 .bf16) (b6 : FVec Ideal S1x128 .f32) (w7 w8 : FVec Ideal S128x128 .bf16) (b9 : FVec Ideal S1x128 .f32) (y : S2000x128.Idx) :
    k2_pay1 (F := Ideal) (k2_pay7 (F := Ideal) (fun y' => A0 (e y')) (fun y' => A1 (e y')) (fun y' => A2 (e y')) (fun y' => A3 (e y')) w4 w5 b6 w7 w8 b9) y
      = Gru.zOf (F := Ideal) A0 A1 A2 A3 w4 w5 b6 w7 w8 b9 (e y) := by
  unfold k2_pay1 k2_pay7 k2_pay3 k2_pay4 k2_pay5 k2_pay6 Gru.zOf Gru.gate
  simp only [shapeCast_self]
  rw [sigm_apply]
  refine congrArg Ideal.logistic ?_
  exact congrArg₂ (· + ·) (conv_block e off he0 he1 A0 A1 w4 w5 b6 y) (conv_block e off he0 he1 A2 A3 w7 w8 b9 y)

/-- Region 2's second payload: the reset gate times the state is the spec's `rhOf` at the embedded index. -/
theorem zr2_rh_point (A0 A1 A2 A3 : FVec Ideal S50000x128 .f32) (w10 w11 : FVec Ideal S128x128 .bf16) (b12 : FVec Ideal S1x128 .f32) (w13 w14 : FVec Ideal S128x128 .bf16) (b15 : FVec Ideal S1x128 .f32) (y : S2000x128.Idx) :
    k2_pay2 (F := Ideal) (k2_pay3 (F := Ideal) (fun y' => A0 (e y'))) (k2_pay4 (F := Ideal) (fun y' => A1 (e y'))) (k2_pay5 (F := Ideal) (fun y' => A2 (e y'))) (k2_pay6 (F := Ideal) (fun y' => A3 (e y'))) w10 w11 b12 w13 w14 b15 y
      = Gru.rhOf (F := Ideal) A0 A1 A2 A3 w10 w11 b12 w13 w14 b15 (e y) := by
  unfold k2_pay2 k2_pay3 k2_pay4 k2_pay5 k2_pay6 Gru.rhOf Gru.gate
  simp only [shapeCast_self]
  show _ = Gru.sigm (F := Ideal) _ (e y) * A3 (e y)
  rw [sigm_apply]
  exact congrArg₂ (· * ·) (congrArg Ideal.logistic (congrArg₂ (· + ·) (conv_block e off he0 he1 A0 A1 w10 w11 b12 y) (conv_block e off he0 he1 A2 A3 w13 w14 b15 y))) rfl

omit he0 he1 in
/-- The f32 word `0x3F800000` repeated over a block is the array of ones at any index. -/
theorem ones_point (y : S2000x128.Idx) :
    broadcast S2000x128 (Scalar.ofBits (F := Ideal) .f32 0x3F800000#32) y = Gru.ones (F := Ideal) (e y) := rfl

/-- Region 1's payload: from `z`, the state, and the two convolutions' blocks, the new state is the spec's `newOf` at the
    embedded index. The operands arrive as: mean of the input, input, mean of `r · h`, `r · h`, `z`, state. -/
theorem h1_point (A0 A1 A2 A3 A4 A5 : FVec Ideal S50000x128 .f32) (w6 w7 : FVec Ideal S128x128 .bf16) (b8 : FVec Ideal S1x128 .f32) (w9 w10 : FVec Ideal S128x128 .bf16) (b11 : FVec Ideal S1x128 .f32) (y : S2000x128.Idx) :
    k1_pay1 (F := Ideal) (k1_pay2 (F := Ideal) (fun y' => A4 (e y'))) (k1_pay3 (F := Ideal) (fun y' => A5 (e y'))) (k1_pay4 (F := Ideal) (fun y' => A0 (e y')) (fun y' => A1 (e y')) w6 w7 b8) (k1_pay5 (F := Ideal) (fun y' => A2 (e y')) (fun y' => A3 (e y')) w9 w10) b11 y
      = Gru.newOf (F := Ideal) A0 A1 A2 A3 A4 A5 w6 w7 b8 w9 w10 b11 (e y) := by
  unfold k1_pay1 k1_pay2 k1_pay3 k1_pay4 k1_pay5 Gru.newOf Gru.outOf
  simp only [shapeCast_self]
  exact congrArg₂ (· + ·) rfl (congrArg₂ (· * ·) (congrArg₂ (· - ·) (ones_point e y) rfl)
    (congrArg Ideal.tanh (congrArg₂ (· + ·) (conv_block e off he0 he1 A0 A1 w6 w7 b8 y) (conv_block e off he0 he1 A2 A3 w9 w10 b11 y))))

/-- Region 3's payload, likewise; its second convolution's two products are separate pieces. -/
theorem h3_point (A0 A1 A2 A3 A4 A5 : FVec Ideal S50000x128 .f32) (w6 w7 : FVec Ideal S128x128 .bf16) (b8 : FVec Ideal S1x128 .f32) (w9 w10 : FVec Ideal S128x128 .bf16) (b11 : FVec Ideal S1x128 .f32) (y : S2000x128.Idx) :
    k3_pay1 (F := Ideal) (k3_pay2 (F := Ideal) (fun y' => A4 (e y'))) (k3_pay3 (F := Ideal) (fun y' => A5 (e y'))) (k3_pay4 (F := Ideal) (fun y' => A0 (e y')) (fun y' => A1 (e y')) w6 w7 b8) (k3_pay5 (F := Ideal) (fun y' => A2 (e y')) w9) (k3_pay6 (F := Ideal) (fun y' => A3 (e y')) w10) b11 y
      = Gru.newOf (F := Ideal) A0 A1 A2 A3 A4 A5 w6 w7 b8 w9 w10 b11 (e y) := by
  unfold k3_pay1 k3_pay2 k3_pay3 k3_pay4 k3_pay5 k3_pay6 Gru.newOf Gru.outOf
  simp only [shapeCast_self]
  exact congrArg₂ (· + ·) rfl (congrArg₂ (· * ·) (congrArg₂ (· - ·) (ones_point e y) rfl)
    (congrArg Ideal.tanh (congrArg₂ (· + ·) (conv_block e off he0 he1 A0 A1 w6 w7 b8 y) (conv_block e off he0 he1 A2 A3 w9 w10 b11 y))))

end Cert.KernelIdeal.Block

end
-- ==== Proof.Region0.lean ====
/-
  Region 0 (the two gates of layer 0), from any entry contents `V`.

  The grid has 25 points; point `t` works on rows `2000 t … 2000 t + 1999` of every node array it reads or writes and on
  the whole of each weight matrix and bias row. So each input block is its array read through the result block's
  embedding (row `r` of the block is row `2000 t + r` of the array), what point `t` writes back is block `t` of the spec's
  function of the arrays read (GruPoints), the 25 blocks cover the 50000 rows, and the result array ends as that function.
-/
import proofs.«136806_j48473000903511_1_alg».proof.Proof.GruPoints

noncomputable section

namespace Cert.KernelIdeal.Region0

open Idealize.ShloMosaic Idealize.ShloMosaic.TcCoe Idealize.SL.Sem Cert.KernelIdeal Cert.KernelIdeal.Gen
open Idealize.ShloMosaic.Pipeline (Dat)

variable (V : Regions.Contents)

theorem hz : (![0, 0] : Fin 2 → Nat) = fun _ => 0 := funext fun a => by fin_cases a <;> rfl

/-- The index maps over the grid: every tiled window is at block row `t`, block column 0. -/
theorem idx_facts : ∀ t : Fin cfg0.N, win0_0.index t (0 : Fin 2) = win0_16.index t (0 : Fin 2)
    ∧ win0_0.index t (1 : Fin 2) = 0
    ∧ win0_1.index t (0 : Fin 2) = win0_16.index t (0 : Fin 2)
    ∧ win0_1.index t (1 : Fin 2) = 0
    ∧ win0_2.index t (0 : Fin 2) = win0_16.index t (0 : Fin 2)
    ∧ win0_2.index t (1 : Fin 2) = 0
    ∧ win0_3.index t (0 : Fin 2) = win0_16.index t (0 : Fin 2)
    ∧ win0_3.index t (1 : Fin 2) = 0
    ∧ win0_17.index t (0 : Fin 2) = win0_16.index t (0 : Fin 2)
    ∧ win0_17.index t (1 : Fin 2) = 0
    ∧ win0_16.index t (1 : Fin 2) = 0
    ∧ win0_16.index t (0 : Fin 2) = t.val :=
  (by decide +kernel : ∀ t : Fin grid0.N, _)

/-- The weight and bias windows are at block (0, 0) at every point. -/
theorem widx_facts : ∀ t : Fin cfg0.N, win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0 :=
  (by decide +kernel : ∀ t : Fin grid0.N, _)

/-- Row `r` of the result block at point `t` is row `2000 · (block row) + r` of the array. -/
theorem emb_row (t : Fin cfg0.N) (y : S2000x128.Idx) : ((((cfg0.win 16).blk t).view.emb y) 0).val = win0_16.index t (0 : Fin 2) * 2000 + (y 0).val := by
  show win0_16.index t (0 : Fin 2) * 2000 + 1 * (y 0).val = _
  omega

/-- The column is kept. -/
theorem emb_col (t : Fin cfg0.N) (y : S2000x128.Idx) : ((((cfg0.win 16).blk t).view.emb y) 1).val = (y 1).val := by
  show win0_16.index t (1 : Fin 2) * 128 + 1 * (y 1).val = _
  have h := idx_facts t
  omega

/-- Tiled window 0's block at point `t` is its array read through the result block's embedding. -/
theorem iblk_0 (c : Dev nD) (t : Fin cfg0.N) : (iblk0 V c 0 t : Vec Ideal S2000x128 .f32) = fun y => V c main_v28 (((cfg0.win 16).blk t).view.emb y) := by
  funext y
  show V c main_v28 (((cfg0.win 0).blk t).view.emb y) = V c main_v28 (((cfg0.win 16).blk t).view.emb y)
  refine congrArg (V c main_v28) (funext fun a => Fin.ext ?_)
  have h := idx_facts t
  match a with
  | ⟨0, _⟩ => show win0_0.index t (0 : Fin 2) * 2000 + 1 * (y 0).val = win0_16.index t (0 : Fin 2) * 2000 + 1 * (y 0).val; omega
  | ⟨1, _⟩ => show win0_0.index t (1 : Fin 2) * 128 + 1 * (y 1).val = win0_16.index t (1 : Fin 2) * 128 + 1 * (y 1).val; omega

/-- Tiled window 1's block at point `t` is its array read through the result block's embedding. -/
theorem iblk_1 (c : Dev nD) (t : Fin cfg0.N) : (iblk0 V c 1 t : Vec Ideal S2000x128 .f32) = fun y => V c main_arg0 (((cfg0.win 16).blk t).view.emb y) := by
  funext y
  show V c main_arg0 (((cfg0.win 1).blk t).view.emb y) = V c main_arg0 (((cfg0.win 16).blk t).view.emb y)
  refine congrArg (V c main_arg0) (funext fun a => Fin.ext ?_)
  have h := idx_facts t
  match a with
  | ⟨0, _⟩ => show win0_1.index t (0 : Fin 2) * 2000 + 1 * (y 0).val = win0_16.index t (0 : Fin 2) * 2000 + 1 * (y 0).val; omega
  | ⟨1, _⟩ => show win0_1.index t (1 : Fin 2) * 128 + 1 * (y 1).val = win0_16.index t (1 : Fin 2) * 128 + 1 * (y 1).val; omega

/-- Tiled window 2's block at point `t` is its array read through the result block's embedding. -/
theorem iblk_2 (c : Dev nD) (t : Fin cfg0.N) : (iblk0 V c 2 t : Vec Ideal S2000x128 .f32) = fun y => V c main_v40 (((cfg0.win 16).blk t).view.emb y) := by
  funext y
  show V c main_v40 (((cfg0.win 2).blk t).view.emb y) = V c main_v40 (((cfg0.win 16).blk t).view.emb y)
  refine congrArg (V c main_v40) (funext fun a => Fin.ext ?_)
  have h := idx_facts t
  match a with
  | ⟨0, _⟩ => show win0_2.index t (0 : Fin 2) * 2000 + 1 * (y 0).val = win0_16.index t (0 : Fin 2) * 2000 + 1 * (y 0).val; omega
  | ⟨1, _⟩ => show win0_2.index t (1 : Fin 2) * 128 + 1 * (y 1).val = win0_16.index t (1 : Fin 2) * 128 + 1 * (y 1).val; omega

/-- Tiled window 3's block at point `t` is its array read through the result block's embedding. -/
theorem iblk_3 (c : Dev nD) (t : Fin cfg0.N) : (iblk0 V c 3 t : Vec Ideal S2000x128 .f32) = fun y => V c main_v16 (((cfg0.win 16).blk t).view.emb y) := by
  funext y
  show V c main_v16 (((cfg0.win 3).blk t).view.emb y) = V c main_v16 (((cfg0.win 16).blk t).view.emb y)
  refine congrArg (V c main_v16) (funext fun a => Fin.ext ?_)
  have h := idx_facts t
  match a with
  | ⟨0, _⟩ => show win0_3.index t (0 : Fin 2) * 2000 + 1 * (y 0).val = win0_16.index t (0 : Fin 2) * 2000 + 1 * (y 0).val; omega
  | ⟨1, _⟩ => show win0_3.index t (1 : Fin 2) * 128 + 1 * (y 1).val = win0_16.index t (1 : Fin 2) * 128 + 1 * (y 1).val; omega

/-- Window 4's block at every point is its whole array. -/
theorem iblk_4 (c : Dev nD) (t : Fin cfg0.N) : (iblk0 V c 4 t : Vec Ideal S128x128 .bf16) = V c main_v42 := by
  funext y
  show V c main_v42 (((cfg0.win 4).blk t).view.emb y) = V c main_v42 y
  refine congrArg (V c main_v42) (funext fun a => Fin.ext ?_)
  have h := widx_facts t
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block at every point is its whole array. -/
theorem iblk_5 (c : Dev nD) (t : Fin cfg0.N) : (iblk0 V c 5 t : Vec Ideal S128x128 .bf16) = V c main_v44 := by
  funext y
  show V c main_v44 (((cfg0.win 5).blk t).view.emb y) = V c main_v44 y
  refine congrArg (V c main_v44) (funext fun a => Fin.ext ?_)
  have h := widx_facts t
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block at every point is its whole array. -/
theorem iblk_6 (c : Dev nD) (t : Fin cfg0.N) : (iblk0 V c 6 t : Vec Ideal S1x128 .f32) = V c main_v47 := by
  funext y
  show V c main_v47 (((cfg0.win 6).blk t).view.emb y) = V c main_v47 y
  refine congrArg (V c main_v47) (funext fun a => Fin.ext ?_)
  have h := widx_facts t
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block at every point is its whole array. -/
theorem iblk_7 (c : Dev nD) (t : Fin cfg0.N) : (iblk0 V c 7 t : Vec Ideal S128x128 .bf16) = V c main_v49 := by
  funext y
  show V c main_v49 (((cfg0.win 7).blk t).view.emb y) = V c main_v49 y
  refine congrArg (V c main_v49) (funext fun a => Fin.ext ?_)
  have h := widx_facts t
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8's block at every point is its whole array. -/
theorem iblk_8 (c : Dev nD) (t : Fin cfg0.N) : (iblk0 V c 8 t : Vec Ideal S128x128 .bf16) = V c main_v51 := by
  funext y
  show V c main_v51 (((cfg0.win 8).blk t).view.emb y) = V c main_v51 y
  refine congrArg (V c main_v51) (funext fun a => Fin.ext ?_)
  have h := widx_facts t
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Window 9's block at every point is its whole array. -/
theorem iblk_9 (c : Dev nD) (t : Fin cfg0.N) : (iblk0 V c 9 t : Vec Ideal S1x128 .f32) = V c main_v54 := by
  funext y
  show V c main_v54 (((cfg0.win 9).blk t).view.emb y) = V c main_v54 y
  refine congrArg (V c main_v54) (funext fun a => Fin.ext ?_)
  have h := widx_facts t
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Window 10's block at every point is its whole array. -/
theorem iblk_10 (c : Dev nD) (t : Fin cfg0.N) : (iblk0 V c 10 t : Vec Ideal S128x128 .bf16) = V c main_v56 := by
  funext y
  show V c main_v56 (((cfg0.win 10).blk t).view.emb y) = V c main_v56 y
  refine congrArg (V c main_v56) (funext fun a => Fin.ext ?_)
  have h := widx_facts t
  match a with
  | ⟨0, _⟩ => show win0_10.index t (0 : Fin 2) * 128 + 1 * (y 0).val = (y 0).val; omega
  | ⟨1, _⟩ => show win0_10.index t (1 : Fin 2) * 128 + 1 * (y 1).val = (y 1).val; omega

/-- Window 11's block at every point is its whole array. -/
theorem iblk_11 (c : Dev nD) (t : Fin cfg0.N) : (iblk0 V c 11 t : Vec Ideal S128x128 .bf16) = V c main_v58 := by
  funext y
  show V c main_v58 (((cfg0.win 11).blk t).view.emb y) = V c main_v58 y
  refine congrArg (V c main_v58) (funext fun a => Fin.ext ?_)
  have h := widx_facts t
  match a with
  | ⟨0, _⟩ => show win0_11.index t (0 : Fin 2) * 128 + 1 * (y 0).val = (y 0).val; omega
  | ⟨1, _⟩ => show win0_11.index t (1 : Fin 2) * 128 + 1 * (y 1).val = (y 1).val; omega

/-- Window 12's block at every point is its whole array. -/
theorem iblk_12 (c : Dev nD) (t : Fin cfg0.N) : (iblk0 V c 12 t : Vec Ideal S1x128 .f32) = V c main_v61 := by
  funext y
  show V c main_v61 (((cfg0.win 12).blk t).view.emb y) = V c main_v61 y
  refine congrArg (V c main_v61) (funext fun a => Fin.ext ?_)
  have h := widx_facts t
  match a with
  | ⟨0, _⟩ => show win0_12.index t (0 : Fin 2) * 1 + 1 * (y 0).val = (y 0).val; omega
  | ⟨1, _⟩ => show win0_12.index t (1 : Fin 2) * 128 + 1 * (y 1).val = (y 1).val; omega

/-- Window 13's block at every point is its whole array. -/
theorem iblk_13 (c : Dev nD) (t : Fin cfg0.N) : (iblk0 V c 13 t : Vec Ideal S128x128 .bf16) = V c main_v63 := by
  funext y
  show V c main_v63 (((cfg0.win 13).blk t).view.emb y) = V c main_v63 y
  refine congrArg (V c main_v63) (funext fun a => Fin.ext ?_)
  have h := widx_facts t
  match a with
  | ⟨0, _⟩ => show win0_13.index t (0 : Fin 2) * 128 + 1 * (y 0).val = (y 0).val; omega
  | ⟨1, _⟩ => show win0_13.index t (1 : Fin 2) * 128 + 1 * (y 1).val = (y 1).val; omega

/-- Window 14's block at every point is its whole array. -/
theorem iblk_14 (c : Dev nD) (t : Fin cfg0.N) : (iblk0 V c 14 t : Vec Ideal S128x128 .bf16) = V c main_v65 := by
  funext y
  show V c main_v65 (((cfg0.win 14).blk t).view.emb y) = V c main_v65 y
  refine congrArg (V c main_v65) (funext fun a => Fin.ext ?_)
  have h := widx_facts t
  match a with
  | ⟨0, _⟩ => show win0_14.index t (0 : Fin 2) * 128 + 1 * (y 0).val = (y 0).val; omega
  | ⟨1, _⟩ => show win0_14.index t (1 : Fin 2) * 128 + 1 * (y 1).val = (y 1).val; omega

/-- Window 15's block at every point is its whole array. -/
theorem iblk_15 (c : Dev nD) (t : Fin cfg0.N) : (iblk0 V c 15 t : Vec Ideal S1x128 .f32) = V c main_v68 := by
  funext y
  show V c main_v68 (((cfg0.win 15).blk t).view.emb y) = V c main_v68 y
  refine congrArg (V c main_v68) (funext fun a => Fin.ext ?_)
  have h := widx_facts t
  match a with
  | ⟨0, _⟩ => show win0_15.index t (0 : Fin 2) * 1 + 1 * (y 0).val = (y 0).val; omega
  | ⟨1, _⟩ => show win0_15.index t (1 : Fin 2) * 128 + 1 * (y 1).val = (y 1).val; omega

/-- Result window 17's block sits where result window 16's does. -/
theorem emb_17 (t : Fin cfg0.N) (y : S2000x128.Idx) : ((cfg0.win 17).blk t).view.emb y = ((cfg0.win 16).blk t).view.emb y := by
  funext a; apply Fin.ext
  have h := idx_facts t
  match a with
  | ⟨0, _⟩ => show win0_17.index t (0 : Fin 2) * 2000 + 1 * (y 0).val = win0_16.index t (0 : Fin 2) * 2000 + 1 * (y 0).val; omega
  | ⟨1, _⟩ => show win0_17.index t (1 : Fin 2) * 128 + 1 * (y 1).val = win0_16.index t (1 : Fin 2) * 128 + 1 * (y 1).val; omega

/-- What point `t` writes back to result window 16 is block `t` of the spec's function of the arrays the region reads. -/
theorem flushed_16 (c : Dev nD) (t : Fin cfg0.N) :
    (dat0 (F := Ideal) V c).flushed 16 t = ((cfg0.win 16).blk t).view.read (Elt Ideal) (Gru.zOf (F := Ideal) (V c main_v28) (V c main_arg0) (V c main_v40) (V c main_v16) (V c main_v42) (V c main_v44) (V c main_v47) (V c main_v49) (V c main_v51) (V c main_v54)) := by
  show (cfg0.win 16).cut (grid0.coords t) ((dat0 V c).after 16 t) = _
  rw [after0_16]
  unfold out0_16
  rw [View.canon_unit_zero hz]
  simp only [View.ld_unit_zero (S := S2000x128) hz, View.ld_unit_zero (S := S128x128) hz, View.ld_unit_zero (S := S1x128) hz]
  rw [iblk_0 V c t, iblk_1 V c t, iblk_2 V c t, iblk_3 V c t, iblk_4 V c t, iblk_5 V c t, iblk_6 V c t, iblk_7 V c t, iblk_8 V c t, iblk_9 V c t]
  funext y
  exact Block.zr0_z_point (((cfg0.win 16).blk t).view.emb) (win0_16.index t (0 : Fin 2) * 2000) (emb_row t) (emb_col t) (V c main_v28) (V c main_arg0) (V c main_v40) (V c main_v16) (V c main_v42) (V c main_v44) (V c main_v47) (V c main_v49) (V c main_v51) (V c main_v54) y

/-- An index of the array is in point `t`'s block of window 16 iff each coordinate is in the block's range. -/
theorem mem_blk_16 (t : Fin cfg0.N) (i : S50000x128.Idx) :
    i ∈ ((cfg0.win 16).blk t).view.set ↔ ∀ a : Fin 2, win0_16.index t a * S2000x128.size a ≤ (i a).val ∧ (i a).val < win0_16.index t a * S2000x128.size a + S2000x128.size a := by
  show i ∈ ((View.whole main_v69_0).slice (win0_16.rect t)).set ↔ _
  rw [View.set_slice_whole, Rect.mem_set_unit]
  exact Iff.rfl

/-- The 25 blocks of window 16 cover the array: row `n` is in block `n / 2000`. -/
theorem cover_16 (i : S50000x128.Idx) : ∃ t : Fin cfg0.N, (cfg0.win 16).flush t = true ∧ i ∈ ((cfg0.win 16).blk t).view.set := by
  have hi0 : (i 0).val < 50000 := (i 0).isLt
  have hi1 : (i 1).val < 128 := (i 1).isLt
  have hN : grid0.N = 25 := N_0
  let t : Fin cfg0.N := ⟨(i 0).val / 2000, by show (i 0).val / 2000 < grid0.N; rw [hN]; omega⟩
  have h := idx_facts t
  have ht : t.val = (i 0).val / 2000 := rfl
  refine ⟨t, flush0_16 t, ?_⟩
  rw [mem_blk_16]
  intro a
  match a with
  | ⟨0, _⟩ => show win0_16.index t (0 : Fin 2) * 2000 ≤ (i 0).val ∧ (i 0).val < win0_16.index t (0 : Fin 2) * 2000 + 2000; omega
  | ⟨1, _⟩ => show win0_16.index t (1 : Fin 2) * 128 ≤ (i 1).val ∧ (i 1).val < win0_16.index t (1 : Fin 2) * 128 + 128; omega

/-- What point `t` writes back to result window 17 is block `t` of the spec's function of the arrays the region reads. -/
theorem flushed_17 (c : Dev nD) (t : Fin cfg0.N) :
    (dat0 (F := Ideal) V c).flushed 17 t = ((cfg0.win 17).blk t).view.read (Elt Ideal) (Gru.rhOf (F := Ideal) (V c main_v28) (V c main_arg0) (V c main_v40) (V c main_v16) (V c main_v56) (V c main_v58) (V c main_v61) (V c main_v63) (V c main_v65) (V c main_v68)) := by
  show (cfg0.win 17).cut (grid0.coords t) ((dat0 V c).after 17 t) = _
  rw [after0_17]
  unfold out0_17
  rw [View.canon_unit_zero hz]
  simp only [View.ld_unit_zero (S := S2000x128) hz, View.ld_unit_zero (S := S128x128) hz, View.ld_unit_zero (S := S1x128) hz]
  rw [iblk_0 V c t, iblk_1 V c t, iblk_2 V c t, iblk_3 V c t, iblk_10 V c t, iblk_11 V c t, iblk_12 V c t, iblk_13 V c t, iblk_14 V c t, iblk_15 V c t]
  funext y
  exact (Block.zr0_rh_point (((cfg0.win 16).blk t).view.emb) (win0_16.index t (0 : Fin 2) * 2000) (emb_row t) (emb_col t) (V c main_v28) (V c main_arg0) (V c main_v40) (V c main_v16) (V c main_v56) (V c main_v58) (V c main_v61) (V c main_v63) (V c main_v65) (V c main_v68) y).trans (congrArg (Gru.rhOf (F := Ideal) (V c main_v28) (V c main_arg0) (V c main_v40) (V c main_v16) (V c main_v56) (V c main_v58) (V c main_v61) (V c main_v63) (V c main_v65) (V c main_v68)) (emb_17 t y).symm)

/-- An index of the array is in point `t`'s block of window 17 iff each coordinate is in the block's range. -/
theorem mem_blk_17 (t : Fin cfg0.N) (i : S50000x128.Idx) :
    i ∈ ((cfg0.win 17).blk t).view.set ↔ ∀ a : Fin 2, win0_17.index t a * S2000x128.size a ≤ (i a).val ∧ (i a).val < win0_17.index t a * S2000x128.size a + S2000x128.size a := by
  show i ∈ ((View.whole main_v69_1).slice (win0_17.rect t)).set ↔ _
  rw [View.set_slice_whole, Rect.mem_set_unit]
  exact Iff.rfl

/-- The 25 blocks of window 17 cover the array: row `n` is in block `n / 2000`. -/
theorem cover_17 (i : S50000x128.Idx) : ∃ t : Fin cfg0.N, (cfg0.win 17).flush t = true ∧ i ∈ ((cfg0.win 17).blk t).view.set := by
  have hi0 : (i 0).val < 50000 := (i 0).isLt
  have hi1 : (i 1).val < 128 := (i 1).isLt
  have hN : grid0.N = 25 := N_0
  let t : Fin cfg0.N := ⟨(i 0).val / 2000, by show (i 0).val / 2000 < grid0.N; rw [hN]; omega⟩
  have h := idx_facts t
  have ht : t.val = (i 0).val / 2000 := rfl
  refine ⟨t, flush0_17 t, ?_⟩
  rw [mem_blk_17]
  intro a
  match a with
  | ⟨0, _⟩ => show win0_17.index t (0 : Fin 2) * 2000 ≤ (i 0).val ∧ (i 0).val < win0_17.index t (0 : Fin 2) * 2000 + 2000; omega
  | ⟨1, _⟩ => show win0_17.index t (1 : Fin 2) * 128 ≤ (i 1).val ∧ (i 1).val < win0_17.index t (1 : Fin 2) * 128 + 128; omega

/-- Region 0's result arrays end as the spec's functions of the arrays it reads. -/
theorem final : Regions.Zr0 := fun V c =>
  ⟨(dat0 (F := Ideal) V c).arrAt_eq_of_cover 16 _ (fun t _ => flushed_16 V c t) cover_16,
    (dat0 (F := Ideal) V c).arrAt_eq_of_cover 17 _ (fun t _ => flushed_17 V c t) cover_17⟩

end Cert.KernelIdeal.Region0

end
-- ==== Proof.Region1.lean ====
/-
  Region 1 (the new state of layer 0), from any entry contents `V`.

  The grid has 25 points; point `t` works on rows `2000 t … 2000 t + 1999` of every node array it reads or writes and on
  the whole of each weight matrix and bias row. So each input block is its array read through the result block's
  embedding (row `r` of the block is row `2000 t + r` of the array), what point `t` writes back is block `t` of the spec's
  function of the arrays read (GruPoints), the 25 blocks cover the 50000 rows, and the result array ends as that function.
-/
import proofs.«136806_j48473000903511_1_alg».proof.Proof.GruPoints

noncomputable section

namespace Cert.KernelIdeal.Region1

open Idealize.ShloMosaic Idealize.ShloMosaic.TcCoe Idealize.SL.Sem Cert.KernelIdeal Cert.KernelIdeal.Gen
open Idealize.ShloMosaic.Pipeline (Dat)

variable (V : Regions.Contents)

theorem hz : (![0, 0] : Fin 2 → Nat) = fun _ => 0 := funext fun a => by fin_cases a <;> rfl

/-- The index maps over the grid: every tiled window is at block row `t`, block column 0. -/
theorem idx_facts : ∀ t : Fin cfg1.N, win1_0.index t (0 : Fin 2) = win1_12.index t (0 : Fin 2)
    ∧ win1_0.index t (1 : Fin 2) = 0
    ∧ win1_1.index t (0 : Fin 2) = win1_12.index t (0 : Fin 2)
    ∧ win1_1.index t (1 : Fin 2) = 0
    ∧ win1_2.index t (0 : Fin 2) = win1_12.index t (0 : Fin 2)
    ∧ win1_2.index t (1 : Fin 2) = 0
    ∧ win1_3.index t (0 : Fin 2) = win1_12.index t (0 : Fin 2)
    ∧ win1_3.index t (1 : Fin 2) = 0
    ∧ win1_4.index t (0 : Fin 2) = win1_12.index t (0 : Fin 2)
    ∧ win1_4.index t (1 : Fin 2) = 0
    ∧ win1_5.index t (0 : Fin 2) = win1_12.index t (0 : Fin 2)
    ∧ win1_5.index t (1 : Fin 2) = 0
    ∧ win1_12.index t (1 : Fin 2) = 0
    ∧ win1_12.index t (0 : Fin 2) = t.val :=
  (by decide +kernel : ∀ t : Fin grid1.N, _)

/-- The weight and bias windows are at block (0, 0) at every point. -/
theorem widx_facts : ∀ t : Fin cfg1.N, win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0 :=
  (by decide +kernel : ∀ t : Fin grid1.N, _)

/-- Row `r` of the result block at point `t` is row `2000 · (block row) + r` of the array. -/
theorem emb_row (t : Fin cfg1.N) (y : S2000x128.Idx) : ((((cfg1.win 12).blk t).view.emb y) 0).val = win1_12.index t (0 : Fin 2) * 2000 + (y 0).val := by
  show win1_12.index t (0 : Fin 2) * 2000 + 1 * (y 0).val = _
  omega

/-- The column is kept. -/
theorem emb_col (t : Fin cfg1.N) (y : S2000x128.Idx) : ((((cfg1.win 12).blk t).view.emb y) 1).val = (y 1).val := by
  show win1_12.index t (1 : Fin 2) * 128 + 1 * (y 1).val = _
  have h := idx_facts t
  omega

/-- Tiled window 0's block at point `t` is its array read through the result block's embedding. -/
theorem iblk_0 (c : Dev nD) (t : Fin cfg1.N) : (iblk1 V c 0 t : Vec Ideal S2000x128 .f32) = fun y => V c main_v28 (((cfg1.win 12).blk t).view.emb y) := by
  funext y
  show V c main_v28 (((cfg1.win 0).blk t).view.emb y) = V c main_v28 (((cfg1.win 12).blk t).view.emb y)
  refine congrArg (V c main_v28) (funext fun a => Fin.ext ?_)
  have h := idx_facts t
  match a with
  | ⟨0, _⟩ => show win1_0.index t (0 : Fin 2) * 2000 + 1 * (y 0).val = win1_12.index t (0 : Fin 2) * 2000 + 1 * (y 0).val; omega
  | ⟨1, _⟩ => show win1_0.index t (1 : Fin 2) * 128 + 1 * (y 1).val = win1_12.index t (1 : Fin 2) * 128 + 1 * (y 1).val; omega

/-- Tiled window 1's block at point `t` is its array read through the result block's embedding. -/
theorem iblk_1 (c : Dev nD) (t : Fin cfg1.N) : (iblk1 V c 1 t : Vec Ideal S2000x128 .f32) = fun y => V c main_arg0 (((cfg1.win 12).blk t).view.emb y) := by
  funext y
  show V c main_arg0 (((cfg1.win 1).blk t).view.emb y) = V c main_arg0 (((cfg1.win 12).blk t).view.emb y)
  refine congrArg (V c main_arg0) (funext fun a => Fin.ext ?_)
  have h := idx_facts t
  match a with
  | ⟨0, _⟩ => show win1_1.index t (0 : Fin 2) * 2000 + 1 * (y 0).val = win1_12.index t (0 : Fin 2) * 2000 + 1 * (y 0).val; omega
  | ⟨1, _⟩ => show win1_1.index t (1 : Fin 2) * 128 + 1 * (y 1).val = win1_12.index t (1 : Fin 2) * 128 + 1 * (y 1).val; omega

/-- Tiled window 2's block at point `t` is its array read through the result block's embedding. -/
theorem iblk_2 (c : Dev nD) (t : Fin cfg1.N) : (iblk1 V c 2 t : Vec Ideal S2000x128 .f32) = fun y => V c main_v81 (((cfg1.win 12).blk t).view.emb y) := by
  funext y
  show V c main_v81 (((cfg1.win 2).blk t).view.emb y) = V c main_v81 (((cfg1.win 12).blk t).view.emb y)
  refine congrArg (V c main_v81) (funext fun a => Fin.ext ?_)
  have h := idx_facts t
  match a with
  | ⟨0, _⟩ => show win1_2.index t (0 : Fin 2) * 2000 + 1 * (y 0).val = win1_12.index t (0 : Fin 2) * 2000 + 1 * (y 0).val; omega
  | ⟨1, _⟩ => show win1_2.index t (1 : Fin 2) * 128 + 1 * (y 1).val = win1_12.index t (1 : Fin 2) * 128 + 1 * (y 1).val; omega

/-- Tiled window 3's block at point `t` is its array read through the result block's embedding. -/
theorem iblk_3 (c : Dev nD) (t : Fin cfg1.N) : (iblk1 V c 3 t : Vec Ideal S2000x128 .f32) = fun y => V c main_v69_1 (((cfg1.win 12).blk t).view.emb y) := by
  funext y
  show V c main_v69_1 (((cfg1.win 3).blk t).view.emb y) = V c main_v69_1 (((cfg1.win 12).blk t).view.emb y)
  refine congrArg (V c main_v69_1) (funext fun a => Fin.ext ?_)
  have h := idx_facts t
  match a with
  | ⟨0, _⟩ => show win1_3.index t (0 : Fin 2) * 2000 + 1 * (y 0).val = win1_12.index t (0 : Fin 2) * 2000 + 1 * (y 0).val; omega
  | ⟨1, _⟩ => show win1_3.index t (1 : Fin 2) * 128 + 1 * (y 1).val = win1_12.index t (1 : Fin 2) * 128 + 1 * (y 1).val; omega

/-- Tiled window 4's block at point `t` is its array read through the result block's embedding. -/
theorem iblk_4 (c : Dev nD) (t : Fin cfg1.N) : (iblk1 V c 4 t : Vec Ideal S2000x128 .f32) = fun y => V c main_v69_0 (((cfg1.win 12).blk t).view.emb y) := by
  funext y
  show V c main_v69_0 (((cfg1.win 4).blk t).view.emb y) = V c main_v69_0 (((cfg1.win 12).blk t).view.emb y)
  refine congrArg (V c main_v69_0) (funext fun a => Fin.ext ?_)
  have h := idx_facts t
  match a with
  | ⟨0, _⟩ => show win1_4.index t (0 : Fin 2) * 2000 + 1 * (y 0).val = win1_12.index t (0 : Fin 2) * 2000 + 1 * (y 0).val; omega
  | ⟨1, _⟩ => show win1_4.index t (1 : Fin 2) * 128 + 1 * (y 1).val = win1_12.index t (1 : Fin 2) * 128 + 1 * (y 1).val; omega

/-- Tiled window 5's block at point `t` is its array read through the result block's embedding. -/
theorem iblk_5 (c : Dev nD) (t : Fin cfg1.N) : (iblk1 V c 5 t : Vec Ideal S2000x128 .f32) = fun y => V c main_v16 (((cfg1.win 12).blk t).view.emb y) := by
  funext y
  show V c main_v16 (((cfg1.win 5).blk t).view.emb y) = V c main_v16 (((cfg1.win 12).blk t).view.emb y)
  refine congrArg (V c main_v16) (funext fun a => Fin.ext ?_)
  have h := idx_facts t
  match a with
  | ⟨0, _⟩ => show win1_5.index t (0 : Fin 2) * 2000 + 1 * (y 0).val = win1_12.index t (0 : Fin 2) * 2000 + 1 * (y 0).val; omega
  | ⟨1, _⟩ => show win1_5.index t (1 : Fin 2) * 128 + 1 * (y 1).val = win1_12.index t (1 : Fin 2) * 128 + 1 * (y 1).val; omega

/-- Window 6's block at every point is its whole array. -/
theorem iblk_6 (c : Dev nD) (t : Fin cfg1.N) : (iblk1 V c 6 t : Vec Ideal S128x128 .bf16) = V c main_v83 := by
  funext y
  show V c main_v83 (((cfg1.win 6).blk t).view.emb y) = V c main_v83 y
  refine congrArg (V c main_v83) (funext fun a => Fin.ext ?_)
  have h := widx_facts t
  match a with
  | ⟨0, _⟩ => show win1_6.index t (0 : Fin 2) * 128 + 1 * (y 0).val = (y 0).val; omega
  | ⟨1, _⟩ => show win1_6.index t (1 : Fin 2) * 128 + 1 * (y 1).val = (y 1).val; omega

/-- Window 7's block at every point is its whole array. -/
theorem iblk_7 (c : Dev nD) (t : Fin cfg1.N) : (iblk1 V c 7 t : Vec Ideal S128x128 .bf16) = V c main_v85 := by
  funext y
  show V c main_v85 (((cfg1.win 7).blk t).view.emb y) = V c main_v85 y
  refine congrArg (V c main_v85) (funext fun a => Fin.ext ?_)
  have h := widx_facts t
  match a with
  | ⟨0, _⟩ => show win1_7.index t (0 : Fin 2) * 128 + 1 * (y 0).val = (y 0).val; omega
  | ⟨1, _⟩ => show win1_7.index t (1 : Fin 2) * 128 + 1 * (y 1).val = (y 1).val; omega

/-- Window 8's block at every point is its whole array. -/
theorem iblk_8 (c : Dev nD) (t : Fin cfg1.N) : (iblk1 V c 8 t : Vec Ideal S1x128 .f32) = V c main_v88 := by
  funext y
  show V c main_v88 (((cfg1.win 8).blk t).view.emb y) = V c main_v88 y
  refine congrArg (V c main_v88) (funext fun a => Fin.ext ?_)
  have h := widx_facts t
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- Window 9's block at every point is its whole array. -/
theorem iblk_9 (c : Dev nD) (t : Fin cfg1.N) : (iblk1 V c 9 t : Vec Ideal S128x128 .bf16) = V c main_v90 := by
  funext y
  show V c main_v90 (((cfg1.win 9).blk t).view.emb y) = V c main_v90 y
  refine congrArg (V c main_v90) (funext fun a => Fin.ext ?_)
  have h := widx_facts t
  match a with
  | ⟨0, _⟩ => show win1_9.index t (0 : Fin 2) * 128 + 1 * (y 0).val = (y 0).val; omega
  | ⟨1, _⟩ => show win1_9.index t (1 : Fin 2) * 128 + 1 * (y 1).val = (y 1).val; omega

/-- Window 10's block at every point is its whole array. -/
theorem iblk_10 (c : Dev nD) (t : Fin cfg1.N) : (iblk1 V c 10 t : Vec Ideal S128x128 .bf16) = V c main_v92 := by
  funext y
  show V c main_v92 (((cfg1.win 10).blk t).view.emb y) = V c main_v92 y
  refine congrArg (V c main_v92) (funext fun a => Fin.ext ?_)
  have h := widx_facts t
  match a with
  | ⟨0, _⟩ => show win1_10.index t (0 : Fin 2) * 128 + 1 * (y 0).val = (y 0).val; omega
  | ⟨1, _⟩ => show win1_10.index t (1 : Fin 2) * 128 + 1 * (y 1).val = (y 1).val; omega

/-- Window 11's block at every point is its whole array. -/
theorem iblk_11 (c : Dev nD) (t : Fin cfg1.N) : (iblk1 V c 11 t : Vec Ideal S1x128 .f32) = V c main_v95 := by
  funext y
  show V c main_v95 (((cfg1.win 11).blk t).view.emb y) = V c main_v95 y
  refine congrArg (V c main_v95) (funext fun a => Fin.ext ?_)
  have h := widx_facts t
  match a with
  | ⟨0, _⟩ => show win1_11.index t (0 : Fin 2) * 1 + 1 * (y 0).val = (y 0).val; omega
  | ⟨1, _⟩ => show win1_11.index t (1 : Fin 2) * 128 + 1 * (y 1).val = (y 1).val; omega

set_option maxHeartbeats 2000000 in
/-- What point `t` writes back to result window 12 is block `t` of the spec's function of the arrays the region reads. -/
theorem flushed_12 (c : Dev nD) (t : Fin cfg1.N) :
    (dat1 (F := Ideal) V c).flushed 12 t = ((cfg1.win 12).blk t).view.read (Elt Ideal) (Gru.newOf (F := Ideal) (V c main_v28) (V c main_arg0) (V c main_v81) (V c main_v69_1) (V c main_v69_0) (V c main_v16) (V c main_v83) (V c main_v85) (V c main_v88) (V c main_v90) (V c main_v92) (V c main_v95)) := by
  show (cfg1.win 12).cut (grid1.coords t) ((dat1 V c).after 12 t) = _
  rw [after1_12]
  unfold out1_12
  rw [View.canon_unit_zero hz]
  simp only [View.ld_unit_zero (S := S2000x128) hz, View.ld_unit_zero (S := S128x128) hz, View.ld_unit_zero (S := S1x128) hz]
  rw [iblk_0 V c t, iblk_1 V c t, iblk_2 V c t, iblk_3 V c t, iblk_4 V c t, iblk_5 V c t, iblk_6 V c t, iblk_7 V c t, iblk_8 V c t, iblk_9 V c t, iblk_10 V c t, iblk_11 V c t]
  funext y
  exact Block.h1_point (((cfg1.win 12).blk t).view.emb) (win1_12.index t (0 : Fin 2) * 2000) (emb_row t) (emb_col t) (V c main_v28) (V c main_arg0) (V c main_v81) (V c main_v69_1) (V c main_v69_0) (V c main_v16) (V c main_v83) (V c main_v85) (V c main_v88) (V c main_v90) (V c main_v92) (V c main_v95) y

/-- An index of the array is in point `t`'s block of window 12 iff each coordinate is in the block's range. -/
theorem mem_blk_12 (t : Fin cfg1.N) (i : S50000x128.Idx) :
    i ∈ ((cfg1.win 12).blk t).view.set ↔ ∀ a : Fin 2, win1_12.index t a * S2000x128.size a ≤ (i a).val ∧ (i a).val < win1_12.index t a * S2000x128.size a + S2000x128.size a := by
  show i ∈ ((View.whole main_v96).slice (win1_12.rect t)).set ↔ _
  rw [View.set_slice_whole, Rect.mem_set_unit]
  exact Iff.rfl

/-- The 25 blocks of window 12 cover the array: row `n` is in block `n / 2000`. -/
theorem cover_12 (i : S50000x128.Idx) : ∃ t : Fin cfg1.N, (cfg1.win 12).flush t = true ∧ i ∈ ((cfg1.win 12).blk t).view.set := by
  have hi0 : (i 0).val < 50000 := (i 0).isLt
  have hi1 : (i 1).val < 128 := (i 1).isLt
  have hN : grid1.N = 25 := N_1
  let t : Fin cfg1.N := ⟨(i 0).val / 2000, by show (i 0).val / 2000 < grid1.N; rw [hN]; omega⟩
  have h := idx_facts t
  have ht : t.val = (i 0).val / 2000 := rfl
  refine ⟨t, flush1_12 t, ?_⟩
  rw [mem_blk_12]
  intro a
  match a with
  | ⟨0, _⟩ => show win1_12.index t (0 : Fin 2) * 2000 ≤ (i 0).val ∧ (i 0).val < win1_12.index t (0 : Fin 2) * 2000 + 2000; omega
  | ⟨1, _⟩ => show win1_12.index t (1 : Fin 2) * 128 ≤ (i 1).val ∧ (i 1).val < win1_12.index t (1 : Fin 2) * 128 + 128; omega

/-- Region 1's result array ends as the spec's function of the arrays it reads. -/
theorem final : Regions.H1 := fun V c =>
  (dat1 (F := Ideal) V c).arrAt_eq_of_cover 12 _ (fun t _ => flushed_12 V c t) cover_12

end Cert.KernelIdeal.Region1

end
-- ==== Proof.Region2.lean ====
/-
  Region 2 (the two gates of layer 1), from any entry contents `V`.

  The grid has 25 points; point `t` works on rows `2000 t … 2000 t + 1999` of every node array it reads or writes and on
  the whole of each weight matrix and bias row. So each input block is its array read through the result block's
  embedding (row `r` of the block is row `2000 t + r` of the array), what point `t` writes back is block `t` of the spec's
  function of the arrays read (GruPoints), the 25 blocks cover the 50000 rows, and the result array ends as that function.
-/
import proofs.«136806_j48473000903511_1_alg».proof.Proof.GruPoints

noncomputable section

namespace Cert.KernelIdeal.Region2

open Idealize.ShloMosaic Idealize.ShloMosaic.TcCoe Idealize.SL.Sem Cert.KernelIdeal Cert.KernelIdeal.Gen
open Idealize.ShloMosaic.Pipeline (Dat)

variable (V : Regions.Contents)

theorem hz : (![0, 0] : Fin 2 → Nat) = fun _ => 0 := funext fun a => by fin_cases a <;> rfl

/-- The index maps over the grid: every tiled window is at block row `t`, block column 0. -/
theorem idx_facts : ∀ t : Fin cfg2.N, win2_0.index t (0 : Fin 2) = win2_16.index t (0 : Fin 2)
    ∧ win2_0.index t (1 : Fin 2) = 0
    ∧ win2_1.index t (0 : Fin 2) = win2_16.index t (0 : Fin 2)
    ∧ win2_1.index t (1 : Fin 2) = 0
    ∧ win2_2.index t (0 : Fin 2) = win2_16.index t (0 : Fin 2)
    ∧ win2_2.index t (1 : Fin 2) = 0
    ∧ win2_3.index t (0 : Fin 2) = win2_16.index t (0 : Fin 2)
    ∧ win2_3.index t (1 : Fin 2) = 0
    ∧ win2_17.index t (0 : Fin 2) = win2_16.index t (0 : Fin 2)
    ∧ win2_17.index t (1 : Fin 2) = 0
    ∧ win2_16.index t (1 : Fin 2) = 0
    ∧ win2_16.index t (0 : Fin 2) = t.val :=
  (by decide +kernel : ∀ t : Fin grid2.N, _)

/-- The weight and bias windows are at block (0, 0) at every point. -/
theorem widx_facts : ∀ t : Fin cfg2.N, win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0
    ∧ win2_13.index t (0 : Fin 2) = 0
    ∧ win2_13.index t (1 : Fin 2) = 0
    ∧ win2_14.index t (0 : Fin 2) = 0
    ∧ win2_14.index t (1 : Fin 2) = 0
    ∧ win2_15.index t (0 : Fin 2) = 0
    ∧ win2_15.index t (1 : Fin 2) = 0 :=
  (by decide +kernel : ∀ t : Fin grid2.N, _)

/-- Row `r` of the result block at point `t` is row `2000 · (block row) + r` of the array. -/
theorem emb_row (t : Fin cfg2.N) (y : S2000x128.Idx) : ((((cfg2.win 16).blk t).view.emb y) 0).val = win2_16.index t (0 : Fin 2) * 2000 + (y 0).val := by
  show win2_16.index t (0 : Fin 2) * 2000 + 1 * (y 0).val = _
  omega

/-- The column is kept. -/
theorem emb_col (t : Fin cfg2.N) (y : S2000x128.Idx) : ((((cfg2.win 16).blk t).view.emb y) 1).val = (y 1).val := by
  show win2_16.index t (1 : Fin 2) * 128 + 1 * (y 1).val = _
  have h := idx_facts t
  omega

/-- Tiled window 0's block at point `t` is its array read through the result block's embedding. -/
theorem iblk_0 (c : Dev nD) (t : Fin cfg2.N) : (iblk2 V c 0 t : Vec Ideal S2000x128 .f32) = fun y => V c main_v110 (((cfg2.win 16).blk t).view.emb y) := by
  funext y
  show V c main_v110 (((cfg2.win 0).blk t).view.emb y) = V c main_v110 (((cfg2.win 16).blk t).view.emb y)
  refine congrArg (V c main_v110) (funext fun a => Fin.ext ?_)
  have h := idx_facts t
  match a with
  | ⟨0, _⟩ => show win2_0.index t (0 : Fin 2) * 2000 + 1 * (y 0).val = win2_16.index t (0 : Fin 2) * 2000 + 1 * (y 0).val; omega
  | ⟨1, _⟩ => show win2_0.index t (1 : Fin 2) * 128 + 1 * (y 1).val = win2_16.index t (1 : Fin 2) * 128 + 1 * (y 1).val; omega

/-- Tiled window 1's block at point `t` is its array read through the result block's embedding. -/
theorem iblk_1 (c : Dev nD) (t : Fin cfg2.N) : (iblk2 V c 1 t : Vec Ideal S2000x128 .f32) = fun y => V c main_v96 (((cfg2.win 16).blk t).view.emb y) := by
  funext y
  show V c main_v96 (((cfg2.win 1).blk t).view.emb y) = V c main_v96 (((cfg2.win 16).blk t).view.emb y)
  refine congrArg (V c main_v96) (funext fun a => Fin.ext ?_)
  have h := idx_facts t
  match a with
  | ⟨0, _⟩ => show win2_1.index t (0 : Fin 2) * 2000 + 1 * (y 0).val = win2_16.index t (0 : Fin 2) * 2000 + 1 * (y 0).val; omega
  | ⟨1, _⟩ => show win2_1.index t (1 : Fin 2) * 128 + 1 * (y 1).val = win2_16.index t (1 : Fin 2) * 128 + 1 * (y 1).val; omega

/-- Tiled window 2's block at point `t` is its array read through the result block's embedding. -/
theorem iblk_2 (c : Dev nD) (t : Fin cfg2.N) : (iblk2 V c 2 t : Vec Ideal S2000x128 .f32) = fun y => V c main_v122 (((cfg2.win 16).blk t).view.emb y) := by
  funext y
  show V c main_v122 (((cfg2.win 2).blk t).view.emb y) = V c main_v122 (((cfg2.win 16).blk t).view.emb y)
  refine congrArg (V c main_v122) (funext fun a => Fin.ext ?_)
  have h := idx_facts t
  match a with
  | ⟨0, _⟩ => show win2_2.index t (0 : Fin 2) * 2000 + 1 * (y 0).val = win2_16.index t (0 : Fin 2) * 2000 + 1 * (y 0).val; omega
  | ⟨1, _⟩ => show win2_2.index t (1 : Fin 2) * 128 + 1 * (y 1).val = win2_16.index t (1 : Fin 2) * 128 + 1 * (y 1).val; omega

/-- Tiled window 3's block at point `t` is its array read through the result block's embedding. -/
theorem iblk_3 (c : Dev nD) (t : Fin cfg2.N) : (iblk2 V c 3 t : Vec Ideal S2000x128 .f32) = fun y => V c main_v98 (((cfg2.win 16).blk t).view.emb y) := by
  funext y
  show V c main_v98 (((cfg2.win 3).blk t).view.emb y) = V c main_v98 (((cfg2.win 16).blk t).view.emb y)
  refine congrArg (V c main_v98) (funext fun a => Fin.ext ?_)
  have h := idx_facts t
  match a with
  | ⟨0, _⟩ => show win2_3.index t (0 : Fin 2) * 2000 + 1 * (y 0).val = win2_16.index t (0 : Fin 2) * 2000 + 1 * (y 0).val; omega
  | ⟨1, _⟩ => show win2_3.index t (1 : Fin 2) * 128 + 1 * (y 1).val = win2_16.index t (1 : Fin 2) * 128 + 1 * (y 1).val; omega

/-- Window 4's block at every point is its whole array. -/
theorem iblk_4 (c : Dev nD) (t : Fin cfg2.N) : (iblk2 V c 4 t : Vec Ideal S128x128 .bf16) = V c main_v124 := by
  funext y
  show V c main_v124 (((cfg2.win 4).blk t).view.emb y) = V c main_v124 y
  refine congrArg (V c main_v124) (funext fun a => Fin.ext ?_)
  have h := widx_facts t
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5's block at every point is its whole array. -/
theorem iblk_5 (c : Dev nD) (t : Fin cfg2.N) : (iblk2 V c 5 t : Vec Ideal S128x128 .bf16) = V c main_v126 := by
  funext y
  show V c main_v126 (((cfg2.win 5).blk t).view.emb y) = V c main_v126 y
  refine congrArg (V c main_v126) (funext fun a => Fin.ext ?_)
  have h := widx_facts t
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Window 6's block at every point is its whole array. -/
theorem iblk_6 (c : Dev nD) (t : Fin cfg2.N) : (iblk2 V c 6 t : Vec Ideal S1x128 .f32) = V c main_v129 := by
  funext y
  show V c main_v129 (((cfg2.win 6).blk t).view.emb y) = V c main_v129 y
  refine congrArg (V c main_v129) (funext fun a => Fin.ext ?_)
  have h := widx_facts t
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Window 7's block at every point is its whole array. -/
theorem iblk_7 (c : Dev nD) (t : Fin cfg2.N) : (iblk2 V c 7 t : Vec Ideal S128x128 .bf16) = V c main_v131 := by
  funext y
  show V c main_v131 (((cfg2.win 7).blk t).view.emb y) = V c main_v131 y
  refine congrArg (V c main_v131) (funext fun a => Fin.ext ?_)
  have h := widx_facts t
  match a with
  | ⟨0, _⟩ => show win2_7.index t (0 : Fin 2) * 128 + 1 * (y 0).val = (y 0).val; omega
  | ⟨1, _⟩ => show win2_7.index t (1 : Fin 2) * 128 + 1 * (y 1).val = (y 1).val; omega

/-- Window 8's block at every point is its whole array. -/
theorem iblk_8 (c : Dev nD) (t : Fin cfg2.N) : (iblk2 V c 8 t : Vec Ideal S128x128 .bf16) = V c main_v133 := by
  funext y
  show V c main_v133 (((cfg2.win 8).blk t).view.emb y) = V c main_v133 y
  refine congrArg (V c main_v133) (funext fun a => Fin.ext ?_)
  have h := widx_facts t
  match a with
  | ⟨0, _⟩ => show win2_8.index t (0 : Fin 2) * 128 + 1 * (y 0).val = (y 0).val; omega
  | ⟨1, _⟩ => show win2_8.index t (1 : Fin 2) * 128 + 1 * (y 1).val = (y 1).val; omega

/-- Window 9's block at every point is its whole array. -/
theorem iblk_9 (c : Dev nD) (t : Fin cfg2.N) : (iblk2 V c 9 t : Vec Ideal S1x128 .f32) = V c main_v136 := by
  funext y
  show V c main_v136 (((cfg2.win 9).blk t).view.emb y) = V c main_v136 y
  refine congrArg (V c main_v136) (funext fun a => Fin.ext ?_)
  have h := widx_facts t
  match a with
  | ⟨0, _⟩ => show win2_9.index t (0 : Fin 2) * 1 + 1 * (y 0).val = (y 0).val; omega
  | ⟨1, _⟩ => show win2_9.index t (1 : Fin 2) * 128 + 1 * (y 1).val = (y 1).val; omega

/-- Window 10's block at every point is its whole array. -/
theorem iblk_10 (c : Dev nD) (t : Fin cfg2.N) : (iblk2 V c 10 t : Vec Ideal S128x128 .bf16) = V c main_v138 := by
  funext y
  show V c main_v138 (((cfg2.win 10).blk t).view.emb y) = V c main_v138 y
  refine congrArg (V c main_v138) (funext fun a => Fin.ext ?_)
  have h := widx_facts t
  match a with
  | ⟨0, _⟩ => show win2_10.index t (0 : Fin 2) * 128 + 1 * (y 0).val = (y 0).val; omega
  | ⟨1, _⟩ => show win2_10.index t (1 : Fin 2) * 128 + 1 * (y 1).val = (y 1).val; omega

/-- Window 11's block at every point is its whole array. -/
theorem iblk_11 (c : Dev nD) (t : Fin cfg2.N) : (iblk2 V c 11 t : Vec Ideal S128x128 .bf16) = V c main_v140 := by
  funext y
  show V c main_v140 (((cfg2.win 11).blk t).view.emb y) = V c main_v140 y
  refine congrArg (V c main_v140) (funext fun a => Fin.ext ?_)
  have h := widx_facts t
  match a with
  | ⟨0, _⟩ => show win2_11.index t (0 : Fin 2) * 128 + 1 * (y 0).val = (y 0).val; omega
  | ⟨1, _⟩ => show win2_11.index t (1 : Fin 2) * 128 + 1 * (y 1).val = (y 1).val; omega

/-- Window 12's block at every point is its whole array. -/
theorem iblk_12 (c : Dev nD) (t : Fin cfg2.N) : (iblk2 V c 12 t : Vec Ideal S1x128 .f32) = V c main_v143 := by
  funext y
  show V c main_v143 (((cfg2.win 12).blk t).view.emb y) = V c main_v143 y
  refine congrArg (V c main_v143) (funext fun a => Fin.ext ?_)
  have h := widx_facts t
  match a with
  | ⟨0, _⟩ => show win2_12.index t (0 : Fin 2) * 1 + 1 * (y 0).val = (y 0).val; omega
  | ⟨1, _⟩ => show win2_12.index t (1 : Fin 2) * 128 + 1 * (y 1).val = (y 1).val; omega

/-- Window 13's block at every point is its whole array. -/
theorem iblk_13 (c : Dev nD) (t : Fin cfg2.N) : (iblk2 V c 13 t : Vec Ideal S128x128 .bf16) = V c main_v145 := by
  funext y
  show V c main_v145 (((cfg2.win 13).blk t).view.emb y) = V c main_v145 y
  refine congrArg (V c main_v145) (funext fun a => Fin.ext ?_)
  have h := widx_facts t
  match a with
  | ⟨0, _⟩ => show win2_13.index t (0 : Fin 2) * 128 + 1 * (y 0).val = (y 0).val; omega
  | ⟨1, _⟩ => show win2_13.index t (1 : Fin 2) * 128 + 1 * (y 1).val = (y 1).val; omega

/-- Window 14's block at every point is its whole array. -/
theorem iblk_14 (c : Dev nD) (t : Fin cfg2.N) : (iblk2 V c 14 t : Vec Ideal S128x128 .bf16) = V c main_v147 := by
  funext y
  show V c main_v147 (((cfg2.win 14).blk t).view.emb y) = V c main_v147 y
  refine congrArg (V c main_v147) (funext fun a => Fin.ext ?_)
  have h := widx_facts t
  match a with
  | ⟨0, _⟩ => show win2_14.index t (0 : Fin 2) * 128 + 1 * (y 0).val = (y 0).val; omega
  | ⟨1, _⟩ => show win2_14.index t (1 : Fin 2) * 128 + 1 * (y 1).val = (y 1).val; omega

/-- Window 15's block at every point is its whole array. -/
theorem iblk_15 (c : Dev nD) (t : Fin cfg2.N) : (iblk2 V c 15 t : Vec Ideal S1x128 .f32) = V c main_v150 := by
  funext y
  show V c main_v150 (((cfg2.win 15).blk t).view.emb y) = V c main_v150 y
  refine congrArg (V c main_v150) (funext fun a => Fin.ext ?_)
  have h := widx_facts t
  match a with
  | ⟨0, _⟩ => show win2_15.index t (0 : Fin 2) * 1 + 1 * (y 0).val = (y 0).val; omega
  | ⟨1, _⟩ => show win2_15.index t (1 : Fin 2) * 128 + 1 * (y 1).val = (y 1).val; omega

/-- Result window 17's block sits where result window 16's does. -/
theorem emb_17 (t : Fin cfg2.N) (y : S2000x128.Idx) : ((cfg2.win 17).blk t).view.emb y = ((cfg2.win 16).blk t).view.emb y := by
  funext a; apply Fin.ext
  have h := idx_facts t
  match a with
  | ⟨0, _⟩ => show win2_17.index t (0 : Fin 2) * 2000 + 1 * (y 0).val = win2_16.index t (0 : Fin 2) * 2000 + 1 * (y 0).val; omega
  | ⟨1, _⟩ => show win2_17.index t (1 : Fin 2) * 128 + 1 * (y 1).val = win2_16.index t (1 : Fin 2) * 128 + 1 * (y 1).val; omega

/-- What point `t` writes back to result window 16 is block `t` of the spec's function of the arrays the region reads. -/
theorem flushed_16 (c : Dev nD) (t : Fin cfg2.N) :
    (dat2 (F := Ideal) V c).flushed 16 t = ((cfg2.win 16).blk t).view.read (Elt Ideal) (Gru.zOf (F := Ideal) (V c main_v110) (V c main_v96) (V c main_v122) (V c main_v98) (V c main_v124) (V c main_v126) (V c main_v129) (V c main_v131) (V c main_v133) (V c main_v136)) := by
  show (cfg2.win 16).cut (grid2.coords t) ((dat2 V c).after 16 t) = _
  rw [after2_16]
  unfold out2_16
  rw [View.canon_unit_zero hz]
  simp only [View.ld_unit_zero (S := S2000x128) hz, View.ld_unit_zero (S := S128x128) hz, View.ld_unit_zero (S := S1x128) hz]
  rw [iblk_0 V c t, iblk_1 V c t, iblk_2 V c t, iblk_3 V c t, iblk_4 V c t, iblk_5 V c t, iblk_6 V c t, iblk_7 V c t, iblk_8 V c t, iblk_9 V c t]
  funext y
  exact Block.zr2_z_point (((cfg2.win 16).blk t).view.emb) (win2_16.index t (0 : Fin 2) * 2000) (emb_row t) (emb_col t) (V c main_v110) (V c main_v96) (V c main_v122) (V c main_v98) (V c main_v124) (V c main_v126) (V c main_v129) (V c main_v131) (V c main_v133) (V c main_v136) y

/-- An index of the array is in point `t`'s block of window 16 iff each coordinate is in the block's range. -/
theorem mem_blk_16 (t : Fin cfg2.N) (i : S50000x128.Idx) :
    i ∈ ((cfg2.win 16).blk t).view.set ↔ ∀ a : Fin 2, win2_16.index t a * S2000x128.size a ≤ (i a).val ∧ (i a).val < win2_16.index t a * S2000x128.size a + S2000x128.size a := by
  show i ∈ ((View.whole main_v151_0).slice (win2_16.rect t)).set ↔ _
  rw [View.set_slice_whole, Rect.mem_set_unit]
  exact Iff.rfl

/-- The 25 blocks of window 16 cover the array: row `n` is in block `n / 2000`. -/
theorem cover_16 (i : S50000x128.Idx) : ∃ t : Fin cfg2.N, (cfg2.win 16).flush t = true ∧ i ∈ ((cfg2.win 16).blk t).view.set := by
  have hi0 : (i 0).val < 50000 := (i 0).isLt
  have hi1 : (i 1).val < 128 := (i 1).isLt
  have hN : grid2.N = 25 := N_2
  let t : Fin cfg2.N := ⟨(i 0).val / 2000, by show (i 0).val / 2000 < grid2.N; rw [hN]; omega⟩
  have h := idx_facts t
  have ht : t.val = (i 0).val / 2000 := rfl
  refine ⟨t, flush2_16 t, ?_⟩
  rw [mem_blk_16]
  intro a
  match a with
  | ⟨0, _⟩ => show win2_16.index t (0 : Fin 2) * 2000 ≤ (i 0).val ∧ (i 0).val < win2_16.index t (0 : Fin 2) * 2000 + 2000; omega
  | ⟨1, _⟩ => show win2_16.index t (1 : Fin 2) * 128 ≤ (i 1).val ∧ (i 1).val < win2_16.index t (1 : Fin 2) * 128 + 128; omega

/-- What point `t` writes back to result window 17 is block `t` of the spec's function of the arrays the region reads. -/
theorem flushed_17 (c : Dev nD) (t : Fin cfg2.N) :
    (dat2 (F := Ideal) V c).flushed 17 t = ((cfg2.win 17).blk t).view.read (Elt Ideal) (Gru.rhOf (F := Ideal) (V c main_v110) (V c main_v96) (V c main_v122) (V c main_v98) (V c main_v138) (V c main_v140) (V c main_v143) (V c main_v145) (V c main_v147) (V c main_v150)) := by
  show (cfg2.win 17).cut (grid2.coords t) ((dat2 V c).after 17 t) = _
  rw [after2_17]
  unfold out2_17
  rw [View.canon_unit_zero hz]
  simp only [View.ld_unit_zero (S := S2000x128) hz, View.ld_unit_zero (S := S128x128) hz, View.ld_unit_zero (S := S1x128) hz]
  rw [iblk_0 V c t, iblk_1 V c t, iblk_2 V c t, iblk_3 V c t, iblk_10 V c t, iblk_11 V c t, iblk_12 V c t, iblk_13 V c t, iblk_14 V c t, iblk_15 V c t]
  funext y
  exact (Block.zr2_rh_point (((cfg2.win 16).blk t).view.emb) (win2_16.index t (0 : Fin 2) * 2000) (emb_row t) (emb_col t) (V c main_v110) (V c main_v96) (V c main_v122) (V c main_v98) (V c main_v138) (V c main_v140) (V c main_v143) (V c main_v145) (V c main_v147) (V c main_v150) y).trans (congrArg (Gru.rhOf (F := Ideal) (V c main_v110) (V c main_v96) (V c main_v122) (V c main_v98) (V c main_v138) (V c main_v140) (V c main_v143) (V c main_v145) (V c main_v147) (V c main_v150)) (emb_17 t y).symm)

/-- An index of the array is in point `t`'s block of window 17 iff each coordinate is in the block's range. -/
theorem mem_blk_17 (t : Fin cfg2.N) (i : S50000x128.Idx) :
    i ∈ ((cfg2.win 17).blk t).view.set ↔ ∀ a : Fin 2, win2_17.index t a * S2000x128.size a ≤ (i a).val ∧ (i a).val < win2_17.index t a * S2000x128.size a + S2000x128.size a := by
  show i ∈ ((View.whole main_v151_1).slice (win2_17.rect t)).set ↔ _
  rw [View.set_slice_whole, Rect.mem_set_unit]
  exact Iff.rfl

/-- The 25 blocks of window 17 cover the array: row `n` is in block `n / 2000`. -/
theorem cover_17 (i : S50000x128.Idx) : ∃ t : Fin cfg2.N, (cfg2.win 17).flush t = true ∧ i ∈ ((cfg2.win 17).blk t).view.set := by
  have hi0 : (i 0).val < 50000 := (i 0).isLt
  have hi1 : (i 1).val < 128 := (i 1).isLt
  have hN : grid2.N = 25 := N_2
  let t : Fin cfg2.N := ⟨(i 0).val / 2000, by show (i 0).val / 2000 < grid2.N; rw [hN]; omega⟩
  have h := idx_facts t
  have ht : t.val = (i 0).val / 2000 := rfl
  refine ⟨t, flush2_17 t, ?_⟩
  rw [mem_blk_17]
  intro a
  match a with
  | ⟨0, _⟩ => show win2_17.index t (0 : Fin 2) * 2000 ≤ (i 0).val ∧ (i 0).val < win2_17.index t (0 : Fin 2) * 2000 + 2000; omega
  | ⟨1, _⟩ => show win2_17.index t (1 : Fin 2) * 128 ≤ (i 1).val ∧ (i 1).val < win2_17.index t (1 : Fin 2) * 128 + 128; omega

/-- Region 2's result arrays end as the spec's functions of the arrays it reads. -/
theorem final : Regions.Zr2 := fun V c =>
  ⟨(dat2 (F := Ideal) V c).arrAt_eq_of_cover 16 _ (fun t _ => flushed_16 V c t) cover_16,
    (dat2 (F := Ideal) V c).arrAt_eq_of_cover 17 _ (fun t _ => flushed_17 V c t) cover_17⟩

end Cert.KernelIdeal.Region2

end
-- ==== Proof.Region3.lean ====
/-
  Region 3 (the new state of layer 1), from any entry contents `V`.

  The grid has 25 points; point `t` works on rows `2000 t … 2000 t + 1999` of every node array it reads or writes and on
  the whole of each weight matrix and bias row. So each input block is its array read through the result block's
  embedding (row `r` of the block is row `2000 t + r` of the array), what point `t` writes back is block `t` of the spec's
  function of the arrays read (GruPoints), the 25 blocks cover the 50000 rows, and the result array ends as that function.
-/
import proofs.«136806_j48473000903511_1_alg».proof.Proof.GruPoints

noncomputable section

namespace Cert.KernelIdeal.Region3

open Idealize.ShloMosaic Idealize.ShloMosaic.TcCoe Idealize.SL.Sem Cert.KernelIdeal Cert.KernelIdeal.Gen
open Idealize.ShloMosaic.Pipeline (Dat)

variable (V : Regions.Contents)

theorem hz : (![0, 0] : Fin 2 → Nat) = fun _ => 0 := funext fun a => by fin_cases a <;> rfl

/-- The index maps over the grid: every tiled window is at block row `t`, block column 0. -/
theorem idx_facts : ∀ t : Fin cfg3.N, win3_0.index t (0 : Fin 2) = win3_12.index t (0 : Fin 2)
    ∧ win3_0.index t (1 : Fin 2) = 0
    ∧ win3_1.index t (0 : Fin 2) = win3_12.index t (0 : Fin 2)
    ∧ win3_1.index t (1 : Fin 2) = 0
    ∧ win3_2.index t (0 : Fin 2) = win3_12.index t (0 : Fin 2)
    ∧ win3_2.index t (1 : Fin 2) = 0
    ∧ win3_3.index t (0 : Fin 2) = win3_12.index t (0 : Fin 2)
    ∧ win3_3.index t (1 : Fin 2) = 0
    ∧ win3_4.index t (0 : Fin 2) = win3_12.index t (0 : Fin 2)
    ∧ win3_4.index t (1 : Fin 2) = 0
    ∧ win3_5.index t (0 : Fin 2) = win3_12.index t (0 : Fin 2)
    ∧ win3_5.index t (1 : Fin 2) = 0
    ∧ win3_12.index t (1 : Fin 2) = 0
    ∧ win3_12.index t (0 : Fin 2) = t.val :=
  (by decide +kernel : ∀ t : Fin grid3.N, _)

/-- The weight and bias windows are at block (0, 0) at every point. -/
theorem widx_facts : ∀ t : Fin cfg3.N, win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 2) = 0
    ∧ win3_11.index t (1 : Fin 2) = 0 :=
  (by decide +kernel : ∀ t : Fin grid3.N, _)

/-- Row `r` of the result block at point `t` is row `2000 · (block row) + r` of the array. -/
theorem emb_row (t : Fin cfg3.N) (y : S2000x128.Idx) : ((((cfg3.win 12).blk t).view.emb y) 0).val = win3_12.index t (0 : Fin 2) * 2000 + (y 0).val := by
  show win3_12.index t (0 : Fin 2) * 2000 + 1 * (y 0).val = _
  omega

/-- The column is kept. -/
theorem emb_col (t : Fin cfg3.N) (y : S2000x128.Idx) : ((((cfg3.win 12).blk t).view.emb y) 1).val = (y 1).val := by
  show win3_12.index t (1 : Fin 2) * 128 + 1 * (y 1).val = _
  have h := idx_facts t
  omega

/-- Tiled window 0's block at point `t` is its array read through the result block's embedding. -/
theorem iblk_0 (c : Dev nD) (t : Fin cfg3.N) : (iblk3 V c 0 t : Vec Ideal S2000x128 .f32) = fun y => V c main_v110 (((cfg3.win 12).blk t).view.emb y) := by
  funext y
  show V c main_v110 (((cfg3.win 0).blk t).view.emb y) = V c main_v110 (((cfg3.win 12).blk t).view.emb y)
  refine congrArg (V c main_v110) (funext fun a => Fin.ext ?_)
  have h := idx_facts t
  match a with
  | ⟨0, _⟩ => show win3_0.index t (0 : Fin 2) * 2000 + 1 * (y 0).val = win3_12.index t (0 : Fin 2) * 2000 + 1 * (y 0).val; omega
  | ⟨1, _⟩ => show win3_0.index t (1 : Fin 2) * 128 + 1 * (y 1).val = win3_12.index t (1 : Fin 2) * 128 + 1 * (y 1).val; omega

/-- Tiled window 1's block at point `t` is its array read through the result block's embedding. -/
theorem iblk_1 (c : Dev nD) (t : Fin cfg3.N) : (iblk3 V c 1 t : Vec Ideal S2000x128 .f32) = fun y => V c main_v96 (((cfg3.win 12).blk t).view.emb y) := by
  funext y
  show V c main_v96 (((cfg3.win 1).blk t).view.emb y) = V c main_v96 (((cfg3.win 12).blk t).view.emb y)
  refine congrArg (V c main_v96) (funext fun a => Fin.ext ?_)
  have h := idx_facts t
  match a with
  | ⟨0, _⟩ => show win3_1.index t (0 : Fin 2) * 2000 + 1 * (y 0).val = win3_12.index t (0 : Fin 2) * 2000 + 1 * (y 0).val; omega
  | ⟨1, _⟩ => show win3_1.index t (1 : Fin 2) * 128 + 1 * (y 1).val = win3_12.index t (1 : Fin 2) * 128 + 1 * (y 1).val; omega

/-- Tiled window 2's block at point `t` is its array read through the result block's embedding. -/
theorem iblk_2 (c : Dev nD) (t : Fin cfg3.N) : (iblk3 V c 2 t : Vec Ideal S2000x128 .f32) = fun y => V c main_v163 (((cfg3.win 12).blk t).view.emb y) := by
  funext y
  show V c main_v163 (((cfg3.win 2).blk t).view.emb y) = V c main_v163 (((cfg3.win 12).blk t).view.emb y)
  refine congrArg (V c main_v163) (funext fun a => Fin.ext ?_)
  have h := idx_facts t
  match a with
  | ⟨0, _⟩ => show win3_2.index t (0 : Fin 2) * 2000 + 1 * (y 0).val = win3_12.index t (0 : Fin 2) * 2000 + 1 * (y 0).val; omega
  | ⟨1, _⟩ => show win3_2.index t (1 : Fin 2) * 128 + 1 * (y 1).val = win3_12.index t (1 : Fin 2) * 128 + 1 * (y 1).val; omega

/-- Tiled window 3's block at point `t` is its array read through the result block's embedding. -/
theorem iblk_3 (c : Dev nD) (t : Fin cfg3.N) : (iblk3 V c 3 t : Vec Ideal S2000x128 .f32) = fun y => V c main_v151_1 (((cfg3.win 12).blk t).view.emb y) := by
  funext y
  show V c main_v151_1 (((cfg3.win 3).blk t).view.emb y) = V c main_v151_1 (((cfg3.win 12).blk t).view.emb y)
  refine congrArg (V c main_v151_1) (funext fun a => Fin.ext ?_)
  have h := idx_facts t
  match a with
  | ⟨0, _⟩ => show win3_3.index t (0 : Fin 2) * 2000 + 1 * (y 0).val = win3_12.index t (0 : Fin 2) * 2000 + 1 * (y 0).val; omega
  | ⟨1, _⟩ => show win3_3.index t (1 : Fin 2) * 128 + 1 * (y 1).val = win3_12.index t (1 : Fin 2) * 128 + 1 * (y 1).val; omega

/-- Tiled window 4's block at point `t` is its array read through the result block's embedding. -/
theorem iblk_4 (c : Dev nD) (t : Fin cfg3.N) : (iblk3 V c 4 t : Vec Ideal S2000x128 .f32) = fun y => V c main_v151_0 (((cfg3.win 12).blk t).view.emb y) := by
  funext y
  show V c main_v151_0 (((cfg3.win 4).blk t).view.emb y) = V c main_v151_0 (((cfg3.win 12).blk t).view.emb y)
  refine congrArg (V c main_v151_0) (funext fun a => Fin.ext ?_)
  have h := idx_facts t
  match a with
  | ⟨0, _⟩ => show win3_4.index t (0 : Fin 2) * 2000 + 1 * (y 0).val = win3_12.index t (0 : Fin 2) * 2000 + 1 * (y 0).val; omega
  | ⟨1, _⟩ => show win3_4.index t (1 : Fin 2) * 128 + 1 * (y 1).val = win3_12.index t (1 : Fin 2) * 128 + 1 * (y 1).val; omega

/-- Tiled window 5's block at point `t` is its array read through the result block's embedding. -/
theorem iblk_5 (c : Dev nD) (t : Fin cfg3.N) : (iblk3 V c 5 t : Vec Ideal S2000x128 .f32) = fun y => V c main_v98 (((cfg3.win 12).blk t).view.emb y) := by
  funext y
  show V c main_v98 (((cfg3.win 5).blk t).view.emb y) = V c main_v98 (((cfg3.win 12).blk t).view.emb y)
  refine congrArg (V c main_v98) (funext fun a => Fin.ext ?_)
  have h := idx_facts t
  match a with
  | ⟨0, _⟩ => show win3_5.index t (0 : Fin 2) * 2000 + 1 * (y 0).val = win3_12.index t (0 : Fin 2) * 2000 + 1 * (y 0).val; omega
  | ⟨1, _⟩ => show win3_5.index t (1 : Fin 2) * 128 + 1 * (y 1).val = win3_12.index t (1 : Fin 2) * 128 + 1 * (y 1).val; omega

/-- Window 6's block at every point is its whole array. -/
theorem iblk_6 (c : Dev nD) (t : Fin cfg3.N) : (iblk3 V c 6 t : Vec Ideal S128x128 .bf16) = V c main_v165 := by
  funext y
  show V c main_v165 (((cfg3.win 6).blk t).view.emb y) = V c main_v165 y
  refine congrArg (V c main_v165) (funext fun a => Fin.ext ?_)
  have h := widx_facts t
  match a with
  | ⟨0, _⟩ => show win3_6.index t (0 : Fin 2) * 128 + 1 * (y 0).val = (y 0).val; omega
  | ⟨1, _⟩ => show win3_6.index t (1 : Fin 2) * 128 + 1 * (y 1).val = (y 1).val; omega

/-- Window 7's block at every point is its whole array. -/
theorem iblk_7 (c : Dev nD) (t : Fin cfg3.N) : (iblk3 V c 7 t : Vec Ideal S128x128 .bf16) = V c main_v167 := by
  funext y
  show V c main_v167 (((cfg3.win 7).blk t).view.emb y) = V c main_v167 y
  refine congrArg (V c main_v167) (funext fun a => Fin.ext ?_)
  have h := widx_facts t
  match a with
  | ⟨0, _⟩ => show win3_7.index t (0 : Fin 2) * 128 + 1 * (y 0).val = (y 0).val; omega
  | ⟨1, _⟩ => show win3_7.index t (1 : Fin 2) * 128 + 1 * (y 1).val = (y 1).val; omega

/-- Window 8's block at every point is its whole array. -/
theorem iblk_8 (c : Dev nD) (t : Fin cfg3.N) : (iblk3 V c 8 t : Vec Ideal S1x128 .f32) = V c main_v170 := by
  funext y
  show V c main_v170 (((cfg3.win 8).blk t).view.emb y) = V c main_v170 y
  refine congrArg (V c main_v170) (funext fun a => Fin.ext ?_)
  have h := widx_facts t
  match a with
  | ⟨0, _⟩ => show win3_8.index t (0 : Fin 2) * 1 + 1 * (y 0).val = (y 0).val; omega
  | ⟨1, _⟩ => show win3_8.index t (1 : Fin 2) * 128 + 1 * (y 1).val = (y 1).val; omega

/-- Window 9's block at every point is its whole array. -/
theorem iblk_9 (c : Dev nD) (t : Fin cfg3.N) : (iblk3 V c 9 t : Vec Ideal S128x128 .bf16) = V c main_v172 := by
  funext y
  show V c main_v172 (((cfg3.win 9).blk t).view.emb y) = V c main_v172 y
  refine congrArg (V c main_v172) (funext fun a => Fin.ext ?_)
  have h := widx_facts t
  match a with
  | ⟨0, _⟩ => show win3_9.index t (0 : Fin 2) * 128 + 1 * (y 0).val = (y 0).val; omega
  | ⟨1, _⟩ => show win3_9.index t (1 : Fin 2) * 128 + 1 * (y 1).val = (y 1).val; omega

/-- Window 10's block at every point is its whole array. -/
theorem iblk_10 (c : Dev nD) (t : Fin cfg3.N) : (iblk3 V c 10 t : Vec Ideal S128x128 .bf16) = V c main_v174 := by
  funext y
  show V c main_v174 (((cfg3.win 10).blk t).view.emb y) = V c main_v174 y
  refine congrArg (V c main_v174) (funext fun a => Fin.ext ?_)
  have h := widx_facts t
  match a with
  | ⟨0, _⟩ => show win3_10.index t (0 : Fin 2) * 128 + 1 * (y 0).val = (y 0).val; omega
  | ⟨1, _⟩ => show win3_10.index t (1 : Fin 2) * 128 + 1 * (y 1).val = (y 1).val; omega

/-- Window 11's block at every point is its whole array. -/
theorem iblk_11 (c : Dev nD) (t : Fin cfg3.N) : (iblk3 V c 11 t : Vec Ideal S1x128 .f32) = V c main_v177 := by
  funext y
  show V c main_v177 (((cfg3.win 11).blk t).view.emb y) = V c main_v177 y
  refine congrArg (V c main_v177) (funext fun a => Fin.ext ?_)
  have h := widx_facts t
  match a with
  | ⟨0, _⟩ => show win3_11.index t (0 : Fin 2) * 1 + 1 * (y 0).val = (y 0).val; omega
  | ⟨1, _⟩ => show win3_11.index t (1 : Fin 2) * 128 + 1 * (y 1).val = (y 1).val; omega

/-- What point `t` writes back to result window 12 is block `t` of the spec's function of the arrays the region reads. -/
theorem flushed_12 (c : Dev nD) (t : Fin cfg3.N) :
    (dat3 (F := Ideal) V c).flushed 12 t = ((cfg3.win 12).blk t).view.read (Elt Ideal) (Gru.newOf (F := Ideal) (V c main_v110) (V c main_v96) (V c main_v163) (V c main_v151_1) (V c main_v151_0) (V c main_v98) (V c main_v165) (V c main_v167) (V c main_v170) (V c main_v172) (V c main_v174) (V c main_v177)) := by
  show (cfg3.win 12).cut (grid3.coords t) ((dat3 V c).after 12 t) = _
  rw [after3_12]
  unfold out3_12
  rw [View.canon_unit_zero hz]
  simp only [View.ld_unit_zero (S := S2000x128) hz, View.ld_unit_zero (S := S128x128) hz, View.ld_unit_zero (S := S1x128) hz]
  rw [iblk_0 V c t, iblk_1 V c t, iblk_2 V c t, iblk_3 V c t, iblk_4 V c t, iblk_5 V c t, iblk_6 V c t, iblk_7 V c t, iblk_8 V c t, iblk_9 V c t, iblk_10 V c t, iblk_11 V c t]
  funext y
  exact Block.h3_point (((cfg3.win 12).blk t).view.emb) (win3_12.index t (0 : Fin 2) * 2000) (emb_row t) (emb_col t) (V c main_v110) (V c main_v96) (V c main_v163) (V c main_v151_1) (V c main_v151_0) (V c main_v98) (V c main_v165) (V c main_v167) (V c main_v170) (V c main_v172) (V c main_v174) (V c main_v177) y

/-- An index of the array is in point `t`'s block of window 12 iff each coordinate is in the block's range. -/
theorem mem_blk_12 (t : Fin cfg3.N) (i : S50000x128.Idx) :
    i ∈ ((cfg3.win 12).blk t).view.set ↔ ∀ a : Fin 2, win3_12.index t a * S2000x128.size a ≤ (i a).val ∧ (i a).val < win3_12.index t a * S2000x128.size a + S2000x128.size a := by
  show i ∈ ((View.whole main_v178).slice (win3_12.rect t)).set ↔ _
  rw [View.set_slice_whole, Rect.mem_set_unit]
  exact Iff.rfl

/-- The 25 blocks of window 12 cover the array: row `n` is in block `n / 2000`. -/
theorem cover_12 (i : S50000x128.Idx) : ∃ t : Fin cfg3.N, (cfg3.win 12).flush t = true ∧ i ∈ ((cfg3.win 12).blk t).view.set := by
  have hi0 : (i 0).val < 50000 := (i 0).isLt
  have hi1 : (i 1).val < 128 := (i 1).isLt
  have hN : grid3.N = 25 := N_3
  let t : Fin cfg3.N := ⟨(i 0).val / 2000, by show (i 0).val / 2000 < grid3.N; rw [hN]; omega⟩
  have h := idx_facts t
  have ht : t.val = (i 0).val / 2000 := rfl
  refine ⟨t, flush3_12 t, ?_⟩
  rw [mem_blk_12]
  intro a
  match a with
  | ⟨0, _⟩ => show win3_12.index t (0 : Fin 2) * 2000 ≤ (i 0).val ∧ (i 0).val < win3_12.index t (0 : Fin 2) * 2000 + 2000; omega
  | ⟨1, _⟩ => show win3_12.index t (1 : Fin 2) * 128 ≤ (i 1).val ∧ (i 1).val < win3_12.index t (1 : Fin 2) * 128 + 128; omega

/-- Region 3's result array ends as the spec's function of the arrays it reads. -/
theorem final : Regions.H3 := fun V c =>
  (dat3 (F := Ideal) V c).arrAt_eq_of_cover 12 _ (fun t _ => flushed_12 V c t) cover_12

end Cert.KernelIdeal.Region3

end
-- ==== Proof.RefSide.lean ====
/-
  The reference program's result is the spec's `result` of its six argument arrays.

  The reference computes, per layer, each convolution's mean aggregation afresh, the logistic written out as
  `1 / (1 + exp (-p))`, and stacks the two new states; term for term that is `Gru.result` (GruResult), so the
  equation holds by unfolding both sides.
-/
import proofs.«136806_j48473000903511_1_alg».proof.Proof.Gen.ReferenceIdeal.Run
import proofs.«136806_j48473000903511_1_alg».proof.Proof.GruResult

noncomputable section

namespace Cert.ReferenceIdeal.RefSide

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxRecDepth 8192 in
/-- Layer 0's new state, as the reference computes it, is the spec's `out0` of the argument arrays. -/
theorem out0_eq (V0 : Valuation τ sig (Elt F)) :
    res_main_v180 V0 = Cert.Gru.out0 (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) := rfl

set_option maxRecDepth 8192 in
/-- The reference's result buffer after its last operation is the spec's `result` of the argument arrays. -/
theorem result_eq (V0 : Valuation τ sig (Elt F)) :
    val7 V0 (no_index (Proc.devRef .tc main_v351)) = Cert.Gru.result (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) :=
  (val7_main_v351 V0).trans rfl

end Cert.ReferenceIdeal.RefSide

end
-- ==== Proof.lean ====
/-
  The kernel program and its jnp reference compute the same two-layer graph GRU at the ideal instance.

  Per layer, with `ax`, `ah` the means over incoming edges of the layer's input `x` and state `h` (a gather of the source
  rows, a scatter-add into the destination rows, a division by the in-degree clamped below by one):
      z   = logistic (conv ax x · 0 + conv ah h · 1)
      rh  = logistic (conv ax x · 2 + conv ah h · 3) · h
      out = z · h + (1 - z) · tanh (conv ax x · 4 + conv (mean of rh) rh · 5),
  `conv a b · g = a · Wl[g] + b · Wr[g] + bias[g]`; layer 1's input is layer 0's `out`, and the result stacks the two.

  The reference computes this with host operations only, and its run's result term IS the specification `Gru.result`
  of the six argument arrays (RefSide, by unfolding). The kernel computes the means with the same host operations and
  the three gate formulas in four regions, each working on blocks of 2000 rows: a region's result array is the
  specification's gate function of the arrays it reads (Region0 … Region3: a block's matrix-unit product from a zero
  accumulator is the whole array's host product read at the block's rows, both being `∑ k, a (n, k) · w (k, d)`; the
  kernel's `logistic` is the reference's `1 / (1 + exp (-p))`; rounding the matmul operands to bf16 is the identity on
  extended reals). Threading the regions' results through the host operations between them (Layer0, Layer1) and through
  the final stacking (KernelRun) makes the kernel's result `Gru.result` of the same six arrays. No law beyond these is
  needed, so the precondition is not opened.
-/
import proofs.«136806_j48473000903511_1_alg».proof.Defs
import proofs.«136806_j48473000903511_1_alg».proof.Proof.Gen.Kernel
import proofs.«136806_j48473000903511_1_alg».proof.Proof.Gen.Kernel.Skeleton
import proofs.«136806_j48473000903511_1_alg».proof.Proof.Gen.Kernel.Launch
import proofs.«136806_j48473000903511_1_alg».proof.Proof.Gen.Kernel.Points
import proofs.«136806_j48473000903511_1_alg».proof.Proof.Gen.Kernel.Frame
import proofs.«136806_j48473000903511_1_alg».proof.Proof.Gen.KernelIdeal
import proofs.«136806_j48473000903511_1_alg».proof.Proof.Gen.KernelIdeal.Skeleton
import proofs.«136806_j48473000903511_1_alg».proof.Proof.Gen.KernelIdeal.Launch
import proofs.«136806_j48473000903511_1_alg».proof.Proof.Gen.KernelIdeal.Points
import proofs.«136806_j48473000903511_1_alg».proof.Proof.Gen.KernelIdeal.Frame
import proofs.«136806_j48473000903511_1_alg».proof.Proof.Gen.ReferenceIdeal
import proofs.«136806_j48473000903511_1_alg».proof.Proof.Gen.ReferenceIdeal.Run
import proofs.«136806_j48473000903511_1_alg».proof.Proof.Gen.Pre_finite_inputs
import proofs.«136806_j48473000903511_1_alg».proof.Proof.KernelRun
import proofs.«136806_j48473000903511_1_alg».proof.Proof.Layer0
import proofs.«136806_j48473000903511_1_alg».proof.Proof.Layer1
import proofs.«136806_j48473000903511_1_alg».proof.Proof.Region0
import proofs.«136806_j48473000903511_1_alg».proof.Proof.Region1
import proofs.«136806_j48473000903511_1_alg».proof.Proof.Region2
import proofs.«136806_j48473000903511_1_alg».proof.Proof.Region3
import proofs.«136806_j48473000903511_1_alg».proof.Proof.RefSide
import Idealize.ShloMosaic.Adequacy
import Idealize.ShloMosaic.Init

noncomputable section

namespace Cert.Proof

open Idealize.ShloMosaic Idealize.SL.Sem

/-- The kernel program's result buffer, where its fold of buffer contents ends, holds the specification's result of
    the six launch arrays: the stacking of layer 0's new state (Layer0 over regions 0 and 1) and layer 1's (Layer1 over
    regions 2 and 3, whose input is layer 0's new state). -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W9 (F := Ideal) m ρ c (Proc.devRef .tc Cert.KernelIdeal.main_v181)
      = Cert.Gru.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [Cert.KernelIdeal.Fold.result_eq m ρ c,
    Cert.KernelIdeal.Layer1.out1_eq m ρ Cert.KernelIdeal.Region2.final Cert.KernelIdeal.Region3.final c,
    Cert.KernelIdeal.Layer0.out0_eq m ρ Cert.KernelIdeal.Region0.final Cert.KernelIdeal.Region1.final c]
  rfl

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's result of their argument arrays, and the arrays agree. -/
theorem algebraic : Cert.algebraic_KernelIdeal_ReferenceIdeal := by
  intro m ρ m' ρ' _ hagree
  refine ⟨fun c => Cert.Gru.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c => ⟨(h c).1.trans (kernel_result m ρ c), (h c).2⟩)
      (Cert.KernelIdeal.Fold.run_result (F := Ideal) m ρ)
  · refine (θ_run Cert.ReferenceIdeal.defs _ _).mono (fun _ h c => ⟨(h c).1.trans ?_, (h c).2⟩)
      (Cert.ReferenceIdeal.Value.run (F := Ideal) m' ρ')
    refine ((Cert.ReferenceIdeal.Value.val7_main_v351 _).symm.trans (Cert.ReferenceIdeal.RefSide.result_eq _)).trans ?_
    obtain ⟨h0, h1, h2, h3, h4, h5⟩ := hagree c
    show Cert.Gru.result (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
